-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x14x512x512 : Shape := ⟨4, ![8, 14, 512, 512]⟩
abbrev S8x1x512x512 : Shape := ⟨4, ![8, 1, 512, 512]⟩
abbrev S_ : Shape := ⟨0, ![]⟩

class Facts : Prop where
  bcast_S_S8x14x512x512 : S_.BroadcastsInDim S8x14x512x512 (![] : Fin 0 → Fin S8x14x512x512.rank)
  reducesTo_S8x14x512x512_S_d0_1_2_3 : S8x14x512x512.ReducesTo [0, 1, 2, 3] S_
  h_S_ : 0 < S_.numel

variable [Facts]

def fn {F : FTy → Type} [FloatOps F] (main_arg0 : FVec F S8x14x512x512 .f32) (main_arg1 : FVec F S8x14x512x512 .f32) (main_arg2 : IVec S8x1x512x512 32) : IVec S_ 1 :=
  let main_v0 : FVec F S8x14x512x512 .f32 := Host.absf main_arg0
  let main_cst : FVec F S_ .f32 := constant S_ .f32 0x7F800000#32
  let main_v1 : FVec F S8x14x512x512 .f32 := broadcastInDim S8x14x512x512 ![] bcast_S_S8x14x512x512 main_cst
  let main_v2 : IVec S8x14x512x512 1 := cmpf .olt main_v0 main_v1
  let main_c : IVec S_ 1 := constantI S_ 1 1#1
  let main_v3 : IVec S_ 1 := (fun x v => Host.reduce IntOp.andi x v reducesTo_S8x14x512x512_S_d0_1_2_3 h_S_) main_v2 main_c
  let main_v4 : FVec F S8x14x512x512 .f32 := Host.absf main_arg1
  let main_cst_0 : FVec F S_ .f32 := constant S_ .f32 0x7F800000#32
  let main_v5 : FVec F S8x14x512x512 .f32 := broadcastInDim S8x14x512x512 ![] bcast_S_S8x14x512x512 main_cst_0
  let main_v6 : IVec S8x14x512x512 1 := cmpf .olt main_v4 main_v5
  let main_c_1 : IVec S_ 1 := constantI S_ 1 1#1
  let main_v7 : IVec S_ 1 := (fun x v => Host.reduce IntOp.andi x v reducesTo_S8x14x512x512_S_d0_1_2_3 h_S_) main_v6 main_c_1
  let main_v8 : IVec S_ 1 := andi main_v3 main_v7
  main_v8
-- ==== Kernel.lean ====
abbrev S8x14x512x512 : Shape := ⟨4, ![8, 14, 512, 512]⟩
abbrev S8x1x512x512 : Shape := ⟨4, ![8, 1, 512, 512]⟩
abbrev S8x8x128 : Shape := ⟨3, ![8, 8, 128]⟩
abbrev S1x1x512x512 : Shape := ⟨4, ![1, 1, 512, 512]⟩
abbrev S1x8x128 : Shape := ⟨3, ![1, 8, 128]⟩
abbrev S1x1 : Shape := ⟨2, ![1, 1]⟩
abbrev S512x512 : Shape := ⟨2, ![512, 512]⟩
abbrev S1x512 : Shape := ⟨2, ![1, 512]⟩
abbrev S511x512 : Shape := ⟨2, ![511, 512]⟩
abbrev S512x1 : Shape := ⟨2, ![512, 1]⟩
abbrev S512x511 : Shape := ⟨2, ![512, 511]⟩
abbrev S512 : Shape := ⟨1, ![512]⟩
abbrev S1 : Shape := ⟨1, ![1]⟩
abbrev S8x128 : Shape := ⟨2, ![8, 128]⟩
abbrev S8x1x1 : Shape := ⟨3, ![8, 1, 1]⟩
abbrev S8 : Shape := ⟨1, ![8]⟩
abbrev S_ : Shape := ⟨0, ![]⟩

abbrev nBuf : Space → Nat
  | .hbm => 21
  | .vmem => 14
  | .smem => 0
  | _ => 0

abbrev bufTy : (tb : Table) → Fin (tcTables nBuf tb) → BufTy
  | .hbm, ⟨0, _⟩ => ⟨S8x14x512x512, .f32⟩
  | .hbm, ⟨1, _⟩ => ⟨S8x14x512x512, .f32⟩
  | .hbm, ⟨2, _⟩ => ⟨S8x1x512x512, .i32⟩
  | .hbm, ⟨3, _⟩ => ⟨S8x8x128, .f32⟩
  | .hbm, ⟨4, _⟩ => ⟨S8x8x128, .f32⟩
  | .hbm, ⟨5, _⟩ => ⟨S8x1x1, .f32⟩
  | .hbm, ⟨6, _⟩ => ⟨S8, .f32⟩
  | .hbm, ⟨7, _⟩ => ⟨S8x1x1, .f32⟩
  | .hbm, ⟨8, _⟩ => ⟨S8, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1x1x512x512, .i32⟩
  | .local _ .vmem, ⟨1, _⟩ => ⟨S1x1x512x512, .i32⟩
  | .local _ .vmem, ⟨2, _⟩ => ⟨S1x1x512x512, .f32⟩
  | .local _ .vmem, ⟨3, _⟩ => ⟨S1x1x512x512, .f32⟩
  | .local _ .vmem, ⟨4, _⟩ => ⟨S1x1x512x512, .f32⟩
  | .local _ .vmem, ⟨5, _⟩ => ⟨S1x1x512x512, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S1x1, .f32⟩
  | _, _ => ⟨S8x14x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 13], ![false, false]⟩

def k0_cond2 (i : grid0.Coords) : BitVec 1 :=
  let arg1 : BitVec 32 := BitVec.ofNat 32 (i 1).val
  let c12_i32 : BitVec 32 := 12#32
  let v176 : BitVec 1 := Scalar.cmpi .eq arg1 c12_i32
  let v177 : BitVec 32 := Scalar.extui v176
  let c0_i32_75 : BitVec 32 := 0#32
  let v178 : BitVec 1 := Scalar.cmpi .ne v177 c0_i32_75
  v178

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  natLt_1_32 : 1 < 32
  slices_S512x512_o0_0_S511x512 : S512x512.Slices ![0, 0] S511x512
  concatenates_S1x512_S511x512_S512x512_d0 : Shape.Concatenates [S1x512, S511x512] S512x512 0
  slices_S512x512_o1_0_S511x512 : S512x512.Slices ![1, 0] S511x512
  concatenates_S511x512_S1x512_S512x512_d0 : Shape.Concatenates [S511x512, S1x512] S512x512 0
  slices_S512x512_o0_0_S512x511 : S512x512.Slices ![0, 0] S512x511
  concatenates_S512x1_S512x511_S512x512_d1 : Shape.Concatenates [S512x1, S512x511] S512x512 1
  slices_S512x512_o0_1_S512x511 : S512x512.Slices ![0, 1] S512x511
  concatenates_S512x511_S512x1_S512x512_d1 : Shape.Concatenates [S512x511, S512x1] S512x512 1
  reduces_S512x512_S512 : S512x512.Reduces [1] S512
  shapeCasts_S512_S512x1 : S512.ShapeCasts S512x1
  reduces_S512x1_S1 : S512x1.Reduces [0] S1
  shapeCasts_S1_S1x1 : S1.ShapeCasts S1x1
  broadcasts_S1x1_S512x512 : S1x1.Broadcasts S512x512
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S8x8x128_S8x1x1_0_0_0 : S8x8x128.Slices ![0, 0, 0] S8x1x1
  shapeCasts_S8x1x1_S8 : S8x1x1.ShapeCasts S8
  reducesTo_S8_S_d0 : S8.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x512.size a ≤ S8x1x512x512.size a
  hwx0_0 : ∀ i : grid0.Coords, EltTy.bits .i32 = 32 ∨ (Rect.block (s := S8x1x512x512) S1x1x512x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S8x14x512x512.size a
  hwx0_1 : ∀ i : grid0.Coords, EltTy.bits .f32 = 32 ∨ (Rect.block (s := S8x14x512x512) S1x1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x512.size a ≤ S8x14x512x512.size a
  hwx0_2 : ∀ i : grid0.Coords, EltTy.bits .f32 = 32 ∨ (Rect.block (s := S8x14x512x512) S1x1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S8x8x128.size a
  hwx0_3 : ∀ i : grid0.Coords, EltTy.bits .f32 = 32 ∨ (Rect.block (s := S8x8x128) S1x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S8x8x128.size a
  hwx0_4 : ∀ i : grid0.Coords, EltTy.bits .f32 = 32 ∨ (Rect.block (s := S8x8x128) S1x8x128.size (cc0_transform_4 i) (hinb0_4 i)).WholeWords (EltTy.packing .f32)

variable [Facts₀]

abbrev win0_0 : Pipeline.Window sig grid0 :=
  Pipeline.Window.ofSpec (Memref.whole main_arg2) S1x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x14x512x512 : Shape := ⟨4, ![8, 14, 512, 512]⟩
abbrev S8x1x512x512 : Shape := ⟨4, ![8, 1, 512, 512]⟩
abbrev S8x512x512 : Shape := ⟨3, ![8, 512, 512]⟩
abbrev S13 : Shape := ⟨1, ![13]⟩
abbrev S_ : Shape := ⟨0, ![]⟩
abbrev S1x13x1x1 : Shape := ⟨4, ![1, 13, 1, 1]⟩
abbrev S8x13x512x512 : Shape := ⟨4, ![8, 13, 512, 512]⟩
abbrev S8x13x514x514 : Shape := ⟨4, ![8, 13, 514, 514]⟩
abbrev S8x13 : Shape := ⟨2, ![8, 13]⟩
abbrev S8 : Shape := ⟨1, ![8]⟩
abbrev S8x13x262144 : Shape := ⟨3, ![8, 13, 262144]⟩
abbrev S8x13x1 : Shape := ⟨3, ![8, 13, 1]⟩

abbrev nBuf : Space → Nat
  | .hbm => 207
  | .vmem => 0
  | .smem => 0
  | _ => 0

abbrev hbmTy0_0 (i : Nat) : BufTy := match i % 128 with
  | 0 => ⟨S8x14x512x512, .f32⟩
  | 1 => ⟨S8x14x512x512, .f32⟩
  | 2 => ⟨S8x1x512x512, .i32⟩
  | 3 => ⟨S8x512x512, .i32⟩
  | 4 => ⟨S13, .i32⟩
  | 5 => ⟨S_, .i32⟩
  | 6 => ⟨S13, .i32⟩
  | 7 => ⟨S13, .i32⟩
  | 8 => ⟨S8x1x512x512, .i32⟩
  | 9 => ⟨S1x13x1x1, .i32⟩
  | 10 => ⟨S8x13x512x512, .i32⟩
  | 11 => ⟨S8x13x512x512, .i32⟩
  | 12 => ⟨S8x13x512x512, .i1⟩
  | 13 => ⟨S_, .i32⟩
  | 14 => ⟨S_, .i32⟩
  | 15 => ⟨S_, .i32⟩
  | 16 => ⟨S_, .i1⟩
  | 17 => ⟨S_, .i1⟩
  | 18 => ⟨S8x13x514x514, .i1⟩
  | 19 => ⟨S8x13x512x512, .i1⟩
  | 20 => ⟨S8x13x512x512, .i1⟩
  | 21 => ⟨S8x13x512x512, .i1⟩
  | 22 => ⟨S8x13x512x512, .i1⟩
  | 23 => ⟨S8x13x512x512, .i1⟩
  | 24 => ⟨S8x13x512x512, .i1⟩
  | 25 => ⟨S8x13x512x512, .i1⟩
  | 26 => ⟨S8x13x512x512, .i1⟩
  | 27 => ⟨S8x13x512x512, .i1⟩
  | 28 => ⟨S8x13x512x512, .i1⟩
  | 29 => ⟨S8x13x512x512, .i1⟩
  | 30 => ⟨S8x13x512x512, .i1⟩
  | 31 => ⟨S8x13x512x512, .i1⟩
  | 32 => ⟨S8x13x512x512, .i1⟩
  | 33 => ⟨S8x13x512x512, .i1⟩
  | 34 => ⟨S8x13x512x512, .i32⟩
  | 35 => ⟨S_, .i32⟩
  | 36 => ⟨S8x13, .i32⟩
  | 37 => ⟨S8x13x512x512, .i32⟩
  | 38 => ⟨S_, .i32⟩
  | 39 => ⟨S8x13, .i32⟩
  | 40 => ⟨S_, .i32⟩
  | 41 => ⟨S8x13, .i32⟩
  | 42 => ⟨S8x13, .i1⟩
  | 43 => ⟨S_, .i32⟩
  | 44 => ⟨S_, .i32⟩
  | 45 => ⟨S8x13, .i32⟩
  | 46 => ⟨S8x13, .i32⟩
  | 47 => ⟨S_, .i32⟩
  | 48 => ⟨S8, .i32⟩
  | 49 => ⟨S_, .i32⟩
  | 50 => ⟨S_, .i32⟩
  | 51 => ⟨S8x13, .i32⟩
  | 52 => ⟨S8x13, .i32⟩
  | 53 => ⟨S_, .i32⟩
  | 54 => ⟨S8, .i32⟩
  | 55 => ⟨S8x13x262144, .i1⟩
  | 56 => ⟨S8x13x262144, .f32⟩
  | 57 => ⟨S8x13x512x512, .f32⟩
  | 58 => ⟨S8x13x262144, .f32⟩
  | 59 => ⟨S8x13x262144, .f32⟩
  | 60 => ⟨S_, .f32⟩
  | 61 => ⟨S8x13x262144, .f32⟩
  | 62 => ⟨S8x13x262144, .f32⟩
  | 63 => ⟨S8x13x512x512, .f32⟩
  | 64 => ⟨S8x13x262144, .f32⟩
  | 65 => ⟨S8x13x262144, .f32⟩
  | 66 => ⟨S_, .f32⟩
  | 67 => ⟨S8x13x262144, .f32⟩
  | 68 => ⟨S8x13x262144, .f32⟩
  | 69 => ⟨S_, .f32⟩
  | 70 => ⟨S8x13, .f32⟩
  | 71 => ⟨S_, .f32⟩
  | 72 => ⟨S8x13, .f32⟩
  | 73 => ⟨S8x13, .f32⟩
  | 74 => ⟨S8x13x1, .f32⟩
  | 75 => ⟨S8x13x262144, .f32⟩
  | 76 => ⟨S8x13x262144, .f32⟩
  | 77 => ⟨S8x13x262144, .f32⟩
  | 78 => ⟨S_, .f32⟩
  | 79 => ⟨S8x13, .f32⟩
  | 80 => ⟨S8x13x1, .f32⟩
  | 81 => ⟨S8x13x1, .f32⟩
  | 82 => ⟨S8x13x262144, .f32⟩
  | 83 => ⟨S8x13x262144, .f32⟩
  | 84 => ⟨S_, .f32⟩
  | 85 => ⟨S8x13, .f32⟩
  | 86 => ⟨S_, .f32⟩
  | 87 => ⟨S8x13, .f32⟩
  | 88 => ⟨S8x13, .f32⟩
  | 89 => ⟨S8x13x1, .f32⟩
  | 90 => ⟨S8x13x262144, .f32⟩
  | 91 => ⟨S8x13x262144, .f32⟩
  | 92 => ⟨S8x13x262144, .f32⟩
  | 93 => ⟨S_, .f32⟩
  | 94 => ⟨S8x13, .f32⟩
  | 95 => ⟨S8x13x1, .f32⟩
  | 96 => ⟨S8x13x1, .f32⟩
  | 97 => ⟨S8x13x262144, .f32⟩
  | 98 => ⟨S8x13x262144, .f32⟩
  | 99 => ⟨S8x13x262144, .f32⟩
  | 100 => ⟨S8x13x262144, .f32⟩
  | 101 => ⟨S8x13x262144, .f32⟩
  | 102 => ⟨S_, .f32⟩
  | 103 => ⟨S8x13, .f32⟩
  | 104 => ⟨S_, .f32⟩
  | 105 => ⟨S8x13, .f32⟩
  | 106 => ⟨S8x13, .f32⟩
  | 107 => ⟨S_, .f32⟩
  | 108 => ⟨S_, .f32⟩
  | 109 => ⟨S8x13, .f32⟩
  | 110 => ⟨S8x13, .f32⟩
  | 111 => ⟨S8x13x262144, .i1⟩
  | 112 => ⟨S8x13x262144, .f32⟩
  | 113 => ⟨S8x13x512x512, .f32⟩
  | 114 => ⟨S8x13x262144, .f32⟩
  | 115 => ⟨S8x13x262144, .f32⟩
  | 116 => ⟨S_, .f32⟩
  | 117 => ⟨S8x13x262144, .f32⟩
  | 118 => ⟨S8x13x262144, .f32⟩
  | 119 => ⟨S8x13x512x512, .f32⟩
  | 120 => ⟨S8x13x262144, .f32⟩
  | 121 => ⟨S8x13x262144, .f32⟩
  | 122 => ⟨S_, .f32⟩
  | 123 => ⟨S8x13x262144, .f32⟩
  | 124 => ⟨S8x13x262144, .f32⟩
  | 125 => ⟨S_, .f32⟩
  | 126 => ⟨S8x13, .f32⟩
  | 127 => ⟨S_, .f32⟩
  | _ => ⟨S8x14x512x512, .f32⟩

abbrev hbmTy0_1 (i : Nat) : BufTy := match i % 128 with
  | 0 => ⟨S8x13, .f32⟩
  | 1 => ⟨S8x13, .f32⟩
  | 2 => ⟨S8x13x1, .f32⟩
  | 3 => ⟨S8x13x262144, .f32⟩
  | 4 => ⟨S8x13x262144, .f32⟩
  | 5 => ⟨S8x13x262144, .f32⟩
  | 6 => ⟨S_, .f32⟩
  | 7 => ⟨S8x13, .f32⟩
  | 8 => ⟨S8x13x1, .f32⟩
  | 9 => ⟨S8x13x1, .f32⟩
  | 10 => ⟨S8x13x262144, .f32⟩
  | 11 => ⟨S8x13x262144, .f32⟩
  | 12 => ⟨S_, .f32⟩
  | 13 => ⟨S8x13, .f32⟩
  | 14 => ⟨S_, .f32⟩
  | 15 => ⟨S8x13, .f32⟩
  | 16 => ⟨S8x13, .f32⟩
  | 17 => ⟨S8x13x1, .f32⟩
  | 18 => ⟨S8x13x262144, .f32⟩
  | 19 => ⟨S8x13x262144, .f32⟩
  | 20 => ⟨S8x13x262144, .f32⟩
  | 21 => ⟨S_, .f32⟩
  | 22 => ⟨S8x13, .f32⟩
  | 23 => ⟨S8x13x1, .f32⟩
  | 24 => ⟨S8x13x1, .f32⟩
  | 25 => ⟨S8x13x262144, .f32⟩
  | 26 => ⟨S8x13x262144, .f32⟩
  | 27 => ⟨S8x13x262144, .f32⟩
  | 28 => ⟨S8x13x262144, .f32⟩
  | 29 => ⟨S8x13x262144, .f32⟩
  | 30 => ⟨S_, .f32⟩
  | 31 => ⟨S8x13, .f32⟩
  | 32 => ⟨S_, .f32⟩
  | 33 => ⟨S8x13, .f32⟩
  | 34 => ⟨S8x13, .f32⟩
  | 35 => ⟨S_, .f32⟩
  | 36 => ⟨S_, .f32⟩
  | 37 => ⟨S8x13, .f32⟩
  | 38 => ⟨S8x13, .f32⟩
  | 39 => ⟨S_, .f32⟩
  | 40 => ⟨S8, .f32⟩
  | 41 => ⟨S_, .f32⟩
  | 42 => ⟨S8, .f32⟩
  | 43 => ⟨S_, .i32⟩
  | 44 => ⟨S8, .i32⟩
  | 45 => ⟨S8, .i32⟩
  | 46 => ⟨S8, .f32⟩
  | 47 => ⟨S_, .i32⟩
  | 48 => ⟨S8, .i32⟩
  | 49 => ⟨S8, .i32⟩
  | 50 => ⟨S8, .f32⟩
  | 51 => ⟨S_, .i32⟩
  | 52 => ⟨S8, .i32⟩
  | 53 => ⟨S8, .i1⟩
  | 54 => ⟨S8, .f32⟩
  | 55 => ⟨S_, .f32⟩
  | 56 => ⟨S_, .f32⟩
  | 57 => ⟨S8, .f32⟩
  | 58 => ⟨S8, .f32⟩
  | 59 => ⟨S_, .i32⟩
  | 60 => ⟨S8, .i32⟩
  | 61 => ⟨S8, .i1⟩
  | 62 => ⟨S8, .f32⟩
  | 63 => ⟨S_, .f32⟩
  | 64 => ⟨S_, .f32⟩
  | 65 => ⟨S8, .f32⟩
  | 66 => ⟨S8, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | _ => ⟨S8x14x512x512, .f32⟩

abbrev hbmTy (i : Nat) : BufTy := match i / 128 with
  | 0 => hbmTy0_0 i
  | 1 => hbmTy0_1 i
  | _ => ⟨S8x14x512x512, .f32⟩

abbrev bufTy : (tb : Table) → Fin (tcTables nBuf tb) → BufTy
  | .hbm, ⟨i, _⟩ => hbmTy i
  | _, _ => ⟨S8x14x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_1 : Ref sig .tc := ⟨.hbm, 35, rfl⟩
abbrev main_v26 : Ref sig .tc := ⟨.hbm, 36, rfl⟩
abbrev main_v27 : Ref sig .tc := ⟨.hbm, 37, rfl⟩
abbrev main_c_2 : Ref sig .tc := ⟨.hbm, 38, rfl⟩
abbrev main_v28 : Ref sig .tc := ⟨.hbm, 39, rfl⟩
abbrev main_c_3 : Ref sig .tc := ⟨.hbm, 40, rfl⟩
abbrev main_v29 : Ref sig .tc := ⟨.hbm, 41, rfl⟩
abbrev main_v30 : Ref sig .tc := ⟨.hbm, 42, rfl⟩
abbrev main_c_4 : Ref sig .tc := ⟨.hbm, 43, rfl⟩
abbrev main_call1_v0 : Ref sig .tc := ⟨.hbm, 44, rfl⟩
abbrev main_call1_v1 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_c_6 : Ref sig .tc := ⟨.hbm, 49, rfl⟩
abbrev main_call2_v0 : Ref sig .tc := ⟨.hbm, 50, rfl⟩
abbrev main_call2_v1 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_call3_cst : Ref sig .tc := ⟨.hbm, 69, rfl⟩
abbrev main_call3_v0 : Ref sig .tc := ⟨.hbm, 70, rfl⟩
abbrev main_call3_cst_0 : Ref sig .tc := ⟨.hbm, 71, rfl⟩
abbrev main_call3_v1 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_v5 : Ref sig .tc := ⟨.hbm, 76, rfl⟩
abbrev main_call3_v6 : Ref sig .tc := ⟨.hbm, 77, rfl⟩
abbrev main_call3_cst_1 : Ref sig .tc := ⟨.hbm, 78, rfl⟩
abbrev main_call3_v7 : Ref sig .tc := ⟨.hbm, 79, rfl⟩
abbrev main_call3_v8 : Ref sig .tc := ⟨.hbm, 80, rfl⟩
abbrev main_call3_v9 : Ref sig .tc := ⟨.hbm, 81, rfl⟩
abbrev main_call3_v10 : Ref sig .tc := ⟨.hbm, 82, rfl⟩
abbrev main_v47 : Ref sig .tc := ⟨.hbm, 83, rfl⟩
abbrev main_call4_cst : Ref sig .tc := ⟨.hbm, 84, rfl⟩
abbrev main_call4_v0 : Ref sig .tc := ⟨.hbm, 85, rfl⟩
abbrev main_call4_cst_0 : Ref sig .tc := ⟨.hbm, 86, rfl⟩
abbrev main_call4_v1 : Ref sig .tc := ⟨.hbm, 87, rfl⟩
abbrev main_call4_v2 : Ref sig .tc := ⟨.hbm, 88, rfl⟩
abbrev main_call4_v3 : Ref sig .tc := ⟨.hbm, 89, rfl⟩
abbrev main_call4_v4 : Ref sig .tc := ⟨.hbm, 90, rfl⟩
abbrev main_call4_v5 : Ref sig .tc := ⟨.hbm, 91, rfl⟩
abbrev main_call4_v6 : Ref sig .tc := ⟨.hbm, 92, rfl⟩
abbrev main_call4_cst_1 : Ref sig .tc := ⟨.hbm, 93, rfl⟩
abbrev main_call4_v7 : Ref sig .tc := ⟨.hbm, 94, rfl⟩
abbrev main_call4_v8 : Ref sig .tc := ⟨.hbm, 95, rfl⟩
abbrev main_call4_v9 : Ref sig .tc := ⟨.hbm, 96, rfl⟩
abbrev main_call4_v10 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_cst_9 : Ref sig .tc := ⟨.hbm, 102, rfl⟩
abbrev main_v52 : Ref sig .tc := ⟨.hbm, 103, rfl⟩
abbrev main_cst_10 : Ref sig .tc := ⟨.hbm, 104, rfl⟩
abbrev main_v53 : Ref sig .tc := ⟨.hbm, 105, rfl⟩
abbrev main_v54 : Ref sig .tc := ⟨.hbm, 106, rfl⟩
abbrev main_cst_11 : Ref sig .tc := ⟨.hbm, 107, rfl⟩
abbrev main_call5_v0 : Ref sig .tc := ⟨.hbm, 108, rfl⟩
abbrev main_call5_v1 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_cst_12 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_cst_13 : Ref sig .tc := ⟨.hbm, 122, rfl⟩
abbrev main_v66 : Ref sig .tc := ⟨.hbm, 123, rfl⟩
abbrev main_v67 : Ref sig .tc := ⟨.hbm, 124, rfl⟩
abbrev main_call6_cst : Ref sig .tc := ⟨.hbm, 125, rfl⟩
abbrev main_call6_v0 : Ref sig .tc := ⟨.hbm, 126, rfl⟩
abbrev main_call6_cst_0 : Ref sig .tc := ⟨.hbm, 127, rfl⟩
abbrev main_call6_v1 : Ref sig .tc := ⟨.hbm, 128, rfl⟩
abbrev main_call6_v2 : Ref sig .tc := ⟨.hbm, 129, rfl⟩
abbrev main_call6_v3 : Ref sig .tc := ⟨.hbm, 130, rfl⟩
abbrev main_call6_v4 : Ref sig .tc := ⟨.hbm, 131, rfl⟩
abbrev main_call6_v5 : Ref sig .tc := ⟨.hbm, 132, rfl⟩
abbrev main_call6_v6 : Ref sig .tc := ⟨.hbm, 133, rfl⟩
abbrev main_call6_cst_1 : Ref sig .tc := ⟨.hbm, 134, rfl⟩
abbrev main_call6_v7 : Ref sig .tc := ⟨.hbm, 135, rfl⟩
abbrev main_call6_v8 : Ref sig .tc := ⟨.hbm, 136, rfl⟩
abbrev main_call6_v9 : Ref sig .tc := ⟨.hbm, 137, rfl⟩
abbrev main_call6_v10 : Ref sig .tc := ⟨.hbm, 138, rfl⟩
abbrev main_v68 : Ref sig .tc := ⟨.hbm, 139, rfl⟩
abbrev main_call7_cst : Ref sig .tc := ⟨.hbm, 140, rfl⟩
abbrev main_call7_v0 : Ref sig .tc := ⟨.hbm, 141, rfl⟩
abbrev main_call7_cst_0 : Ref sig .tc := ⟨.hbm, 142, rfl⟩
abbrev main_call7_v1 : Ref sig .tc := ⟨.hbm, 143, rfl⟩
abbrev main_call7_v2 : Ref sig .tc := ⟨.hbm, 144, rfl⟩
abbrev main_call7_v3 : Ref sig .tc := ⟨.hbm, 145, rfl⟩
abbrev main_call7_v4 : Ref sig .tc := ⟨.hbm, 146, rfl⟩
abbrev main_call7_v5 : Ref sig .tc := ⟨.hbm, 147, rfl⟩
abbrev main_call7_v6 : Ref sig .tc := ⟨.hbm, 148, rfl⟩
abbrev main_call7_cst_1 : Ref sig .tc := ⟨.hbm, 149, rfl⟩
abbrev main_call7_v7 : Ref sig .tc := ⟨.hbm, 150, rfl⟩
abbrev main_call7_v8 : Ref sig .tc := ⟨.hbm, 151, rfl⟩
abbrev main_call7_v9 : Ref sig .tc := ⟨.hbm, 152, rfl⟩
abbrev main_call7_v10 : Ref sig .tc := ⟨.hbm, 153, rfl⟩
abbrev main_v69 : Ref sig .tc := ⟨.hbm, 154, rfl⟩
abbrev main_v70 : Ref sig .tc := ⟨.hbm, 155, rfl⟩
abbrev main_v71 : Ref sig .tc := ⟨.hbm, 156, rfl⟩
abbrev main_v72 : Ref sig .tc := ⟨.hbm, 157, rfl⟩
abbrev main_cst_14 : Ref sig .tc := ⟨.hbm, 158, rfl⟩
abbrev main_v73 : Ref sig .tc := ⟨.hbm, 159, rfl⟩
abbrev main_cst_15 : Ref sig .tc := ⟨.hbm, 160, rfl⟩
abbrev main_v74 : Ref sig .tc := ⟨.hbm, 161, rfl⟩
abbrev main_v75 : Ref sig .tc := ⟨.hbm, 162, rfl⟩
abbrev main_cst_16 : Ref sig .tc := ⟨.hbm, 163, rfl⟩
abbrev main_call8_v0 : Ref sig .tc := ⟨.hbm, 164, rfl⟩
abbrev main_call8_v1 : Ref sig .tc := ⟨.hbm, 165, rfl⟩
abbrev main_v76 : Ref sig .tc := ⟨.hbm, 166, rfl⟩
abbrev main_cst_17 : Ref sig .tc := ⟨.hbm, 167, rfl⟩
abbrev main_v77 : Ref sig .tc := ⟨.hbm, 168, rfl⟩
abbrev main_cst_18 : Ref sig .tc := ⟨.hbm, 169, rfl⟩
abbrev main_v78 : Ref sig .tc := ⟨.hbm, 170, rfl⟩
abbrev main_c_19 : Ref sig .tc := ⟨.hbm, 171, rfl⟩
abbrev main_v79 : Ref sig .tc := ⟨.hbm, 172, rfl⟩
abbrev main_v80 : Ref sig .tc := ⟨.hbm, 173, rfl⟩
abbrev main_v81 : Ref sig .tc := ⟨.hbm, 174, rfl⟩
abbrev main_c_20 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩
abbrev main_c_21 : Ref sig .tc := ⟨.hbm, 179, rfl⟩
abbrev main_v85 : Ref sig .tc := ⟨.hbm, 180, rfl⟩
abbrev main_v86 : Ref sig .tc := ⟨.hbm, 181, rfl⟩
abbrev main_v87 : Ref sig .tc := ⟨.hbm, 182, rfl⟩
abbrev main_cst_22 : Ref sig .tc := ⟨.hbm, 183, rfl⟩
abbrev main_call9_v0 : Ref sig .tc := ⟨.hbm, 184, rfl⟩
abbrev main_call9_v1 : Ref sig .tc := ⟨.hbm, 185, rfl⟩
abbrev main_v88 : Ref sig .tc := ⟨.hbm, 186, rfl⟩
abbrev main_c_23 : Ref sig .tc := ⟨.hbm, 187, rfl⟩
abbrev main_v89 : Ref sig .tc := ⟨.hbm, 188, rfl⟩
abbrev main_v90 : Ref sig .tc := ⟨.hbm, 189, rfl⟩
abbrev main_v91 : Ref sig .tc := ⟨.hbm, 190, rfl⟩
abbrev main_cst_24 : Ref sig .tc := ⟨.hbm, 191, rfl⟩
abbrev main_call10_v0 : Ref sig .tc := ⟨.hbm, 192, rfl⟩
abbrev main_call10_v1 : Ref sig .tc := ⟨.hbm, 193, rfl⟩
abbrev main_v92 : Ref sig .tc := ⟨.hbm, 194, rfl⟩
abbrev main_cst_25 : Ref sig .tc := ⟨.hbm, 195, rfl⟩
abbrev main_v93 : Ref sig .tc := ⟨.hbm, 196, rfl⟩
abbrev main_cst_26 : Ref sig .tc := ⟨.hbm, 197, rfl⟩
abbrev main_v94 : Ref sig .tc := ⟨.hbm, 198, rfl⟩
abbrev main_cst_27 : Ref sig .tc := ⟨.hbm, 199, rfl⟩
abbrev main_v95 : Ref sig .tc := ⟨.hbm, 200, rfl⟩
abbrev main_cst_28 : Ref sig .tc := ⟨.hbm, 201, rfl⟩
abbrev main_v96 : Ref sig .tc := ⟨.hbm, 202, rfl⟩
abbrev main_cst_29 : Ref sig .tc := ⟨.hbm, 203, rfl⟩
abbrev main_v97 : Ref sig .tc := ⟨.hbm, 204, rfl⟩
abbrev main_cst_30 : Ref sig .tc := ⟨.hbm, 205, rfl⟩
abbrev main_v98 : Ref sig .tc := ⟨.hbm, 206, rfl⟩

abbrev nD : Nat := 1
abbrev τ : Topo := Topo.v7x

variable {F : FTy → Type} [FloatOps F]

class Facts₀ : Prop where
  shapeCasts_S8x1x512x512_S8x512x512 : S8x1x512x512.ShapeCasts S8x512x512
  bcast_S_S13 : S_.BroadcastsInDim S13 (![] : Fin 0 → Fin S13.rank)
  bcast_S8x512x512_S8x1x512x512_0_2_3 : S8x512x512.BroadcastsInDim S8x1x512x512 (![0, 2, 3] : Fin 3 → Fin S8x1x512x512.rank)
  bcast_S13_S1x13x1x1_1 : S13.BroadcastsInDim S1x13x1x1 (![1] : Fin 1 → Fin S1x13x1x1.rank)
  bcast_S8x1x512x512_S8x13x512x512_0_1_2_3 : S8x1x512x512.BroadcastsInDim S8x13x512x512 (![0, 1, 2, 3] : Fin 4 → Fin S8x13x512x512.rank)
  bcast_S1x13x1x1_S8x13x512x512_0_1_2_3 : S1x13x1x1.BroadcastsInDim S8x13x512x512 (![0, 1, 2, 3] : Fin 4 → Fin S8x13x512x512.rank)
  bcast_S_S_ : S_.BroadcastsInDim S_ (![] : Fin 0 → Fin S_.rank)
  pads_S8x13x512x512_S8x13x514x514_000_000_110_110 : S8x13x512x512.Pads (![0, 0, 1, 1] : Fin 4 → Nat) ![0, 0, 1, 1] ![0, 0, 0, 0] S8x13x514x514
  h_S_ : 0 < S_.numel
  slices_S8x13x514x514_S8x13x512x512_0_0_0_1 : S8x13x514x514.Slices ![0, 0, 0, 1] S8x13x512x512
  slices_S8x13x514x514_S8x13x512x512_0_0_2_1 : S8x13x514x514.Slices ![0, 0, 2, 1] S8x13x512x512
  slices_S8x13x514x514_S8x13x512x512_0_0_1_0 : S8x13x514x514.Slices ![0, 0, 1, 0] S8x13x512x512
  slices_S8x13x514x514_S8x13x512x512_0_0_1_2 : S8x13x514x514.Slices ![0, 0, 1, 2] S8x13x512x512
  natLt_1_32 : 1 < 32
  reducesTo_S8x13x512x512_S8x13_d2_3 : S8x13x512x512.ReducesTo [2, 3] S8x13
  bcast_S_S8x13 : S_.BroadcastsInDim S8x13 (![] : Fin 0 → Fin S8x13.rank)
  reducesTo_S8x13_S8_d1 : S8x13.ReducesTo [1] S8
  shapeCasts_S8x13x512x512_S8x13x262144 : S8x13x512x512.ShapeCasts S8x13x262144
  slices_S8x14x512x512_S8x13x512x512_0_1_0_0 : S8x14x512x512.Slices ![0, 1, 0, 0] S8x13x512x512
  bcast_S_S8x13x262144 : S_.BroadcastsInDim S8x13x262144 (![] : Fin 0 → Fin S8x13x262144.rank)
  reducesTo_S8x13x262144_S8x13_d2 : S8x13x262144.ReducesTo [2] S8x13
  bcast_S8x13_S8x13x1_0_1 : S8x13.BroadcastsInDim S8x13x1 (![0, 1] : Fin 2 → Fin S8x13x1.rank)
  bcast_S8x13x1_S8x13x262144_0_1_2 : S8x13x1.BroadcastsInDim S8x13x262144 (![0, 1, 2] : Fin 3 → Fin S8x13x262144.rank)
  bcast_S_S8 : S_.BroadcastsInDim S8 (![] : Fin 0 → Fin S8.rank)
  reducesTo_S8_S_d0 : S8.ReducesTo [0] S_

variable [Facts₀]

class Facts : Prop extends Facts₀ where

variable [Facts]
-- ==== Proof.KerTerms.lean ====
/-
  The body of the kernel at one grid point as pure terms of what it loads: the label plane `x0`, the two logit planes
  `x1`, `x2`, and the four running totals it carries between the points of a batch (the edge divergence, the body
  divergence, the edge count, the body count). Each term is the composition of the body's printed operations, in the
  program's order; nothing is computed here.
-/
import proofs.«177475_j24979529793864_2_alg».proof.Proof.Gen.KernelIdeal.Skeleton

set_option synthInstance.maxSize 4096

noncomputable section

namespace Cert.KernelIdeal.Terms

open Idealize.ShloMosaic Idealize.SL.Sem Cert.KernelIdeal Cert.KernelIdeal.Gen

variable {F : FTy → Type} [FloatOps F]

/-- The class mask of the plane as 0/1 floats. -/
def maskF (i : grid0.Coords) (x0 : Vec F S1x1x512x512 .i32) : FVec F S512x512 .f32 := k0_pay9 i x0
/-- The edge positions as 0/1 floats: dilation minus erosion. -/
def edgeF (i : grid0.Coords) (x0 : Vec F S1x1x512x512 .i32) : FVec F S512x512 .f32 := k0_pay10 i x0
/-- The body positions as 0/1 floats. -/
def bodyF (i : grid0.Coords) (x0 : Vec F S1x1x512x512 .i32) : FVec F S512x512 .f32 := k0_pay11 i x0
/-- The number of edge positions (rows summed, then the column of row sums). -/
def ecnt (i : grid0.Coords) (x0 : Vec F S1x1x512x512 .i32) : FVec F S1x1 .f32 := k0_pay12 i x0
/-- The number of body positions. -/
def bcnt (i : grid0.Coords) (x0 : Vec F S1x1x512x512 .i32) : FVec F S1x1 .f32 := k0_pay14 (k0_pay13 i x0)
/-- Whether the class has an edge position. -/
def validW (i : grid0.Coords) (x0 : Vec F S1x1x512x512 .i32) : IVec S1x1 1 := k0_pay15 (ecnt i x0)

/-- The edge divergence of the point's class. -/
def klE (i : grid0.Coords) (x0 : Vec F S1x1x512x512 .i32) (x1 x2 : Vec F S1x1x512x512 .f32) : FVec F S1x1 .f32 :=
  k0_pay26 (ecnt i x0) (k0_pay18 x1) (k0_pay19 x2) (k0_pay20 x1) (k0_pay21 x2) (k0_pay22 x1 x2) (k0_pay23 x1) (k0_pay24 x2)
    (k0_pay25 (edgeF i x0)) (Scalar.ofBits .f32 0x48800000#32)

/-- The running edge divergence after the point. -/
def newKlE (i : grid0.Coords) (x0 : Vec F S1x1x512x512 .i32) (x1 x2 : Vec F S1x1x512x512 .f32) (xs0 : Vec F S1x1 .f32) :
    FVec F S1x1 .f32 :=
  k0_pay31 (validW i x0) (klE i x0 x1 x2) xs0

/-- The running body divergence after the point. -/
def newKlB (i : grid0.Coords) (x0 : Vec F S1x1x512x512 .i32) (x1 x2 : Vec F S1x1x512x512 .f32) (xs1 : Vec F S1x1 .f32) :
    FVec F S1x1 .f32 :=
  k0_pay32 (validW i x0) (k0_pay18 x1) (k0_pay19 x2) (k0_pay21 x2) (k0_pay22 x1 x2) (k0_pay23 x1) (k0_pay24 x2)
    (k0_pay27 (bodyF i x0)) (k0_pay28 (bcnt i x0)) (k0_pay29 (bodyF i x0) (k0_pay20 x1)) k0_pay30 xs1

/-- The running edge count after the point. -/
def newCntE (i : grid0.Coords) (x0 : Vec F S1x1x512x512 .i32) (xs2 : Vec F S1x1 .f32) : FVec F S1x1 .f32 :=
  k0_pay1 (ecnt i x0) (validW i x0) xs2 (Scalar.ofBits .f32 0x00000000#32)

/-- The running body count after the point. -/
def newCntB (i : grid0.Coords) (x0 : Vec F S1x1x512x512 .i32) (xs3 : Vec F S1x1 .f32) : FVec F S1x1 .f32 :=
  k0_pay2 (bcnt i x0) (validW i x0) xs3

/-- The row the last point of a batch writes for the edges: the divergence over the clamped count, 0 at count 0. -/
def outE (cntE klE : Vec F S1x1 .f32) : FVec F S1x8x128 .f32 := k0_pay3 cntE cntE klE
/-- The row the last point of a batch writes for the bodies. -/
def outB (cntB klB : Vec F S1x1 .f32) : FVec F S1x8x128 .f32 := k0_pay4 cntB cntB klB

end Cert.KernelIdeal.Terms

end
-- ==== Proof.KerPieces.lean ====
/-
  What one run of the kernel's body leaves in the four running totals it carries between the points of a batch, and in
  the two output blocks, as the pure terms of KerTerms: at the first class of a batch the totals restart from zero
  (the stored zero is read back), at the other classes they continue from what the point before left, and at the last
  class the two output rows are written from the totals just stored.
-/
import proofs.«177475_j24979529793864_2_alg».proof.Proof.Gen.KernelIdeal.Frame
import proofs.«177475_j24979529793864_2_alg».proof.Proof.KerTerms
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.Pieces

open Cert.KernelIdeal Cert.KernelIdeal.Gen

variable {F : FTy → Type} [FloatOps F]

/-- The zero offsets of a rank-2 access. -/
theorem hz2 : (![0, 0] : Fin 2 → Nat) = fun _ => 0 := funext fun a => by fin_cases a <;> rfl
/-- The zero offsets of a rank-3 access. -/
theorem hz3 : (![0, 0, 0] : Fin 3 → Nat) = fun _ => 0 := funext fun a => by fin_cases a <;> rfl
/-- The zero offsets of a rank-4 access. -/
theorem hz4 : (![0, 0, 0, 0] : Fin 4 → Nat) = fun _ => 0 := funext fun a => by fin_cases a <;> rfl

/-- First class of a batch: the edge divergence restarts from the stored zero. -/
theorem sout_A_0 (c : Dev nD) (i : grid0.Coords) (arg2 : Memref sig .tc .vmem S1x1x512x512 .i32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i)
    (x0 : Vec F S1x1x512x512 .i32) (x1 : Vec F S1x1x512x512 .f32) (x2 : Vec F S1x1x512x512 .f32) :
    sout0_A_0 c i arg2 harg2 arg3 harg3 arg4 harg4 arg5 harg5 arg6 harg6 arg7 harg7 arg8 harg8 arg9 harg9 arg10 harg10 hc0 hc1 x0 x1 x2 = Terms.newKlE i x0 x1 x2 k0_pay5 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread, harg7.read_unread, harg8.read_unread, harg9.read_unread, harg10.read_unread,
    View.ld_unit_zero (S := S1x1) hz2, View.ld_unit_zero (S := S1x1x512x512) hz4, View.ld_unit_zero (S := S1x8x128) hz3]
  rfl

/-- First class of a batch: the body divergence restarts from the stored zero. -/
theorem sout_A_1 (c : Dev nD) (i : grid0.Coords) (arg2 : Memref sig .tc .vmem S1x1x512x512 .i32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i)
    (x0 : Vec F S1x1x512x512 .i32) (x1 : Vec F S1x1x512x512 .f32) (x2 : Vec F S1x1x512x512 .f32) :
    sout0_A_1 c i arg2 harg2 arg3 harg3 arg4 harg4 arg5 harg5 arg6 harg6 arg7 harg7 arg8 harg8 arg9 harg9 arg10 harg10 hc0 hc1 x0 x1 x2 = Terms.newKlB i x0 x1 x2 k0_pay6 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread, harg7.read_unread, harg8.read_unread, harg9.read_unread, harg10.read_unread,
    View.ld_unit_zero (S := S1x1) hz2, View.ld_unit_zero (S := S1x1x512x512) hz4, View.ld_unit_zero (S := S1x8x128) hz3]
  rfl

/-- First class of a batch: the edge count restarts from the stored zero. -/
theorem sout_A_2 (c : Dev nD) (i : grid0.Coords) (arg2 : Memref sig .tc .vmem S1x1x512x512 .i32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i)
    (x0 : Vec F S1x1x512x512 .i32) (x1 : Vec F S1x1x512x512 .f32) (x2 : Vec F S1x1x512x512 .f32) :
    sout0_A_2 c i arg2 harg2 arg3 harg3 arg4 harg4 arg5 harg5 arg6 harg6 arg7 harg7 arg8 harg8 arg9 harg9 arg10 harg10 hc0 hc1 x0 x1 x2 = Terms.newCntE i x0 k0_pay7 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread, harg7.read_unread, harg8.read_unread, harg9.read_unread, harg10.read_unread,
    View.ld_unit_zero (S := S1x1) hz2, View.ld_unit_zero (S := S1x1x512x512) hz4, View.ld_unit_zero (S := S1x8x128) hz3]
  rfl

/-- First class of a batch: the body count restarts from the stored zero. -/
theorem sout_A_3 (c : Dev nD) (i : grid0.Coords) (arg2 : Memref sig .tc .vmem S1x1x512x512 .i32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i)
    (x0 : Vec F S1x1x512x512 .i32) (x1 : Vec F S1x1x512x512 .f32) (x2 : Vec F S1x1x512x512 .f32) :
    sout0_A_3 c i arg2 harg2 arg3 harg3 arg4 harg4 arg5 harg5 arg6 harg6 arg7 harg7 arg8 harg8 arg9 harg9 arg10 harg10 hc0 hc1 x0 x1 x2 = Terms.newCntB i x0 k0_pay8 := by
  unfold sout0_A_3
  rw [View.read_writes_eq_canon _ _ _ (scover0_A_3 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread, harg7.read_unread, harg8.read_unread, harg9.read_unread, harg10.read_unread,
    View.ld_unit_zero (S := S1x1) hz2, View.ld_unit_zero (S := S1x1x512x512) hz4, View.ld_unit_zero (S := S1x8x128) hz3]
  rfl

/-- A later class: the edge divergence continues from the total before. -/
theorem sout_B_0 (c : Dev nD) (i : grid0.Coords) (arg2 : Memref sig .tc .vmem S1x1x512x512 .i32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i)
    (x0 : Vec F S1x1x512x512 .i32) (x1 : Vec F S1x1x512x512 .f32) (x2 : Vec F S1x1x512x512 .f32) (xs0 : Vec F S1x1 .f32) (xs1 : Vec F S1x1 .f32) (xs2 : Vec F S1x1 .f32) (xs3 : Vec F S1x1 .f32) :
    sout0_B_0 c i arg2 harg2 arg3 harg3 arg4 harg4 arg5 harg5 arg6 harg6 arg7 harg7 arg8 harg8 arg9 harg9 arg10 harg10 hc0 hc1 x0 x1 x2 xs0 xs1 xs2 xs3 = Terms.newKlE i x0 x1 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 xs0 xs1 xs2 xs3)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread,
    View.ld_unit_zero (S := S1x1) hz2, View.ld_unit_zero (S := S1x1x512x512) hz4, View.ld_unit_zero (S := S1x8x128) hz3]
  rfl

/-- A later class: the body divergence continues from the total before. -/
theorem sout_B_1 (c : Dev nD) (i : grid0.Coords) (arg2 : Memref sig .tc .vmem S1x1x512x512 .i32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i)
    (x0 : Vec F S1x1x512x512 .i32) (x1 : Vec F S1x1x512x512 .f32) (x2 : Vec F S1x1x512x512 .f32) (xs0 : Vec F S1x1 .f32) (xs1 : Vec F S1x1 .f32) (xs2 : Vec F S1x1 .f32) (xs3 : Vec F S1x1 .f32) :
    sout0_B_1 c i arg2 harg2 arg3 harg3 arg4 harg4 arg5 harg5 arg6 harg6 arg7 harg7 arg8 harg8 arg9 harg9 arg10 harg10 hc0 hc1 x0 x1 x2 xs0 xs1 xs2 xs3 = Terms.newKlB i x0 x1 x2 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 xs0 xs1 xs2 xs3)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread,
    View.ld_unit_zero (S := S1x1) hz2, View.ld_unit_zero (S := S1x1x512x512) hz4, View.ld_unit_zero (S := S1x8x128) hz3]
  rfl

/-- A later class: the edge count continues from the total before. -/
theorem sout_B_2 (c : Dev nD) (i : grid0.Coords) (arg2 : Memref sig .tc .vmem S1x1x512x512 .i32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i)
    (x0 : Vec F S1x1x512x512 .i32) (x1 : Vec F S1x1x512x512 .f32) (x2 : Vec F S1x1x512x512 .f32) (xs0 : Vec F S1x1 .f32) (xs1 : Vec F S1x1 .f32) (xs2 : Vec F S1x1 .f32) (xs3 : Vec F S1x1 .f32) :
    sout0_B_2 c i arg2 harg2 arg3 harg3 arg4 harg4 arg5 harg5 arg6 harg6 arg7 harg7 arg8 harg8 arg9 harg9 arg10 harg10 hc0 hc1 x0 x1 x2 xs0 xs1 xs2 xs3 = Terms.newCntE i x0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 xs0 xs1 xs2 xs3)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread,
    View.ld_unit_zero (S := S1x1) hz2, View.ld_unit_zero (S := S1x1x512x512) hz4, View.ld_unit_zero (S := S1x8x128) hz3]
  rfl

/-- A later class: the body count continues from the total before. -/
theorem sout_B_3 (c : Dev nD) (i : grid0.Coords) (arg2 : Memref sig .tc .vmem S1x1x512x512 .i32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i)
    (x0 : Vec F S1x1x512x512 .i32) (x1 : Vec F S1x1x512x512 .f32) (x2 : Vec F S1x1x512x512 .f32) (xs0 : Vec F S1x1 .f32) (xs1 : Vec F S1x1 .f32) (xs2 : Vec F S1x1 .f32) (xs3 : Vec F S1x1 .f32) :
    sout0_B_3 c i arg2 harg2 arg3 harg3 arg4 harg4 arg5 harg5 arg6 harg6 arg7 harg7 arg8 harg8 arg9 harg9 arg10 harg10 hc0 hc1 x0 x1 x2 xs0 xs1 xs2 xs3 = Terms.newCntB i x0 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 hc0 hc1 x0 x1 x2 xs0 xs1 xs2 xs3)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread,
    View.ld_unit_zero (S := S1x1) hz2, View.ld_unit_zero (S := S1x1x512x512) hz4, View.ld_unit_zero (S := S1x8x128) hz3]
  rfl

/-- A later class: the edge divergence continues from the total before. -/
theorem sout_C_0 (c : Dev nD) (i : grid0.Coords) (arg2 : Memref sig .tc .vmem S1x1x512x512 .i32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i)
    (x0 : Vec F S1x1x512x512 .i32) (x1 : Vec F S1x1x512x512 .f32) (x2 : Vec F S1x1x512x512 .f32) (xs0 : Vec F S1x1 .f32) (xs1 : Vec F S1x1 .f32) (xs2 : Vec F S1x1 .f32) (xs3 : Vec F S1x1 .f32) :
    sout0_C_0 c i arg2 harg2 arg3 harg3 arg4 harg4 arg5 harg5 arg6 harg6 arg7 harg7 arg8 harg8 arg9 harg9 arg10 harg10 hc0 hc1 x0 x1 x2 xs0 xs1 xs2 xs3 = Terms.newKlE i x0 x1 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread,
    View.ld_unit_zero (S := S1x1) hz2, View.ld_unit_zero (S := S1x1x512x512) hz4, View.ld_unit_zero (S := S1x8x128) hz3]
  rfl

/-- A later class: the body divergence continues from the total before. -/
theorem sout_C_1 (c : Dev nD) (i : grid0.Coords) (arg2 : Memref sig .tc .vmem S1x1x512x512 .i32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i)
    (x0 : Vec F S1x1x512x512 .i32) (x1 : Vec F S1x1x512x512 .f32) (x2 : Vec F S1x1x512x512 .f32) (xs0 : Vec F S1x1 .f32) (xs1 : Vec F S1x1 .f32) (xs2 : Vec F S1x1 .f32) (xs3 : Vec F S1x1 .f32) :
    sout0_C_1 c i arg2 harg2 arg3 harg3 arg4 harg4 arg5 harg5 arg6 harg6 arg7 harg7 arg8 harg8 arg9 harg9 arg10 harg10 hc0 hc1 x0 x1 x2 xs0 xs1 xs2 xs3 = Terms.newKlB i x0 x1 x2 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread,
    View.ld_unit_zero (S := S1x1) hz2, View.ld_unit_zero (S := S1x1x512x512) hz4, View.ld_unit_zero (S := S1x8x128) hz3]
  rfl

/-- A later class: the edge count continues from the total before. -/
theorem sout_C_2 (c : Dev nD) (i : grid0.Coords) (arg2 : Memref sig .tc .vmem S1x1x512x512 .i32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i)
    (x0 : Vec F S1x1x512x512 .i32) (x1 : Vec F S1x1x512x512 .f32) (x2 : Vec F S1x1x512x512 .f32) (xs0 : Vec F S1x1 .f32) (xs1 : Vec F S1x1 .f32) (xs2 : Vec F S1x1 .f32) (xs3 : Vec F S1x1 .f32) :
    sout0_C_2 c i arg2 harg2 arg3 harg3 arg4 harg4 arg5 harg5 arg6 harg6 arg7 harg7 arg8 harg8 arg9 harg9 arg10 harg10 hc0 hc1 x0 x1 x2 xs0 xs1 xs2 xs3 = Terms.newCntE i x0 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread,
    View.ld_unit_zero (S := S1x1) hz2, View.ld_unit_zero (S := S1x1x512x512) hz4, View.ld_unit_zero (S := S1x8x128) hz3]
  rfl

/-- A later class: the body count continues from the total before. -/
theorem sout_C_3 (c : Dev nD) (i : grid0.Coords) (arg2 : Memref sig .tc .vmem S1x1x512x512 .i32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i)
    (x0 : Vec F S1x1x512x512 .i32) (x1 : Vec F S1x1x512x512 .f32) (x2 : Vec F S1x1x512x512 .f32) (xs0 : Vec F S1x1 .f32) (xs1 : Vec F S1x1 .f32) (xs2 : Vec F S1x1 .f32) (xs3 : Vec F S1x1 .f32) :
    sout0_C_3 c i arg2 harg2 arg3 harg3 arg4 harg4 arg5 harg5 arg6 harg6 arg7 harg7 arg8 harg8 arg9 harg9 arg10 harg10 hc0 hc1 x0 x1 x2 xs0 xs1 xs2 xs3 = Terms.newCntB i x0 xs3 := by
  unfold sout0_C_3
  rw [View.read_writes_eq_canon _ _ _ (scover0_C_3 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread,
    View.ld_unit_zero (S := S1x1) hz2, View.ld_unit_zero (S := S1x1x512x512) hz4, View.ld_unit_zero (S := S1x8x128) hz3]
  rfl

/-- Last class of a batch: the edge row is written from the totals just stored. -/
theorem out_C_3 (c : Dev nD) (i : grid0.Coords) (arg2 : Memref sig .tc .vmem S1x1x512x512 .i32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i)
    (x0 : Vec F S1x1x512x512 .i32) (x1 : Vec F S1x1x512x512 .f32) (x2 : Vec F S1x1x512x512 .f32) (xs0 : Vec F S1x1 .f32) (xs1 : Vec F S1x1 .f32) (xs2 : Vec F S1x1 .f32) (xs3 : Vec F S1x1 .f32) :
    out0_C_3 c i arg2 harg2 arg3 harg3 arg4 harg4 arg5 harg5 arg6 harg6 arg7 harg7 arg8 harg8 arg9 harg9 arg10 harg10 hc0 hc1 x0 x1 x2 xs0 xs1 xs2 xs3 = Terms.outE (Terms.newCntE i x0 xs2) (Terms.newKlE i x0 x1 x2 xs0) := by
  unfold out0_C_3
  rw [View.read_writes_eq_canon _ _ _ (cover0_C_3 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz3]
  simp only [View.readCov_unit_zero (S := S1x1) _ hz2]
  simp only [View.readAt_eq_ld, harg2.read_unread, harg3.read_unread, harg4.read_unread, harg5.read_unread, harg6.read_unread, harg7.read_unread, harg8.read_unread, harg9.read_unread, harg10.read_unread,
    View.ld_unit_zero (S := S1x1) hz2, View.ld_unit_zero (S := S1x1x512x512) hz4, View.ld_unit_zero (S := S1x8x128) hz3]
  rfl

/-- Last class of a batch: the body row is written from the totals just stored. -/
theorem out_C_4 (c : Dev nD) (i : grid0.Coords) (arg2 : Memref sig .tc .vmem S1x1x512x512 .i32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i)
    (x0 : Vec F S1x1x512x512 .i32) (x1 : Vec F S1x1x512x512 .f32) (x2 : Vec F S1x1x512x512 .f32) (xs0 : Vec F S1x1 .f32) (xs1 : Vec F S1x1 .f32) (xs2 : Vec F S1x1 .f32) (xs3 : Vec F S1x1 .f32) :
    out0_C_4 c i arg2 harg2 arg3 harg3 arg4 harg4 arg5 harg5 arg6 harg6 arg7 harg7 arg8 harg8 arg9 harg9 arg10 harg10 hc0 hc1 x0 x1 x2 xs0 xs1 xs2 xs3 = Terms.outB (Terms.newCntB i x0 xs3) (Terms.newKlB i x0 x1 x2 xs1) := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 xs0 xs1 xs2 xs3)]
  unfold kernelRun0_C
  dsimp only
  sl_unfold_words
  rw [View.canon_unit_zero hz3]
  simp only [View.readCov_unit_zero (S := S1x1) _ hz2]
  simp only [View.readAt_eq_ld, harg2.read_unread, harg3.read_unread, harg4.read_unread, harg5.read_unread, harg6.read_unread, harg7.read_unread, harg8.read_unread, harg9.read_unread, harg10.read_unread,
    View.ld_unit_zero (S := S1x1) hz2, View.ld_unit_zero (S := S1x1x512x512) hz4, View.ld_unit_zero (S := S1x8x128) hz3]
  rfl

end Cert.KernelIdeal.Pieces

end
-- ==== Proof.KerSteps.lean ====
/-
  The running totals point by point: what the four carried totals hold after a grid point, from what they held after
  the point before (or from zero at the first class of a batch), and what the two output rows hold after the last class
  of a batch — the case analysis of the grid position done once, over the pure terms of KerTerms.
-/
import proofs.«177475_j24979529793864_2_alg».proof.Proof.KerPieces

set_option maxRecDepth 16384

noncomputable section

open Idealize.ShloMosaic Idealize.ShloMosaic.TcCoe Idealize.SL.Sem
open Idealize.ShloMosaic.Pipeline (Dat)

namespace Cert.KernelIdeal.Steps

open Cert.KernelIdeal Cert.KernelIdeal.Gen Cert.KernelIdeal.Pieces

variable {F : FTy → Type} [FloatOps F]
variable (m : (ℓ : Loc nD τ sig) → Buf (Elt F) ℓ)

/-- At the first class of a batch the edge divergence restarts from zero. -/
theorem first0 (c : Dev nD) (t : Fin cfg0.N) (h0 : t.val % 13 = 0) :
    (outsAt0 m c t.val t.isLt).2.2.1 = Terms.newKlE (grid0.coords t) (iblk m c 0 t) (iblk m c 1 t) (iblk m c 2 t) k0_pay5 := by
  have h1 : ¬t.val % 13 = 12 := by omega
  (have e := congrArg (fun p => p.2.2.1) (outsAt0_A m c t h0 h1); dsimp only at e; exact e.trans (sout_A_0 ..))

/-- At a later class the edge divergence continues from the point before. -/
theorem later0 (c : Dev nD) (t : Fin cfg0.N) (h0 : ¬t.val % 13 = 0) :
    (outsAt0 m c t.val t.isLt).2.2.1 = Terms.newKlE (grid0.coords t) (iblk m c 0 t) (iblk m c 1 t) (iblk m c 2 t) (outsAt0 m c (t.val - 1) (Nat.lt_of_le_of_lt (Nat.sub_le _ _) t.isLt)).2.2.1 := by
  by_cases h1 : t.val % 13 = 12
  · (have e := congrArg (fun p => p.2.2.1) (outsAt0_C m c t h0 h1); dsimp only at e; exact e.trans (sout_C_0 ..))
  · (have e := congrArg (fun p => p.2.2.1) (outsAt0_B m c t h0 h1); dsimp only at e; exact e.trans (sout_B_0 ..))

/-- At the first class of a batch the body divergence restarts from zero. -/
theorem first1 (c : Dev nD) (t : Fin cfg0.N) (h0 : t.val % 13 = 0) :
    (outsAt0 m c t.val t.isLt).2.2.2.1 = Terms.newKlB (grid0.coords t) (iblk m c 0 t) (iblk m c 1 t) (iblk m c 2 t) k0_pay6 := by
  have h1 : ¬t.val % 13 = 12 := by omega
  (have e := congrArg (fun p => p.2.2.2.1) (outsAt0_A m c t h0 h1); dsimp only at e; exact e.trans (sout_A_1 ..))

/-- At a later class the body divergence continues from the point before. -/
theorem later1 (c : Dev nD) (t : Fin cfg0.N) (h0 : ¬t.val % 13 = 0) :
    (outsAt0 m c t.val t.isLt).2.2.2.1 = Terms.newKlB (grid0.coords t) (iblk m c 0 t) (iblk m c 1 t) (iblk m c 2 t) (outsAt0 m c (t.val - 1) (Nat.lt_of_le_of_lt (Nat.sub_le _ _) t.isLt)).2.2.2.1 := by
  by_cases h1 : t.val % 13 = 12
  · (have e := congrArg (fun p => p.2.2.2.1) (outsAt0_C m c t h0 h1); dsimp only at e; exact e.trans (sout_C_1 ..))
  · (have e := congrArg (fun p => p.2.2.2.1) (outsAt0_B m c t h0 h1); dsimp only at e; exact e.trans (sout_B_1 ..))

/-- At the first class of a batch the edge count restarts from zero. -/
theorem first2 (c : Dev nD) (t : Fin cfg0.N) (h0 : t.val % 13 = 0) :
    (outsAt0 m c t.val t.isLt).2.2.2.2.1 = Terms.newCntE (grid0.coords t) (iblk m c 0 t) k0_pay7 := by
  have h1 : ¬t.val % 13 = 12 := by omega
  (have e := congrArg (fun p => p.2.2.2.2.1) (outsAt0_A m c t h0 h1); dsimp only at e; exact e.trans (sout_A_2 ..))

/-- At a later class the edge count continues from the point before. -/
theorem later2 (c : Dev nD) (t : Fin cfg0.N) (h0 : ¬t.val % 13 = 0) :
    (outsAt0 m c t.val t.isLt).2.2.2.2.1 = Terms.newCntE (grid0.coords t) (iblk m c 0 t) (outsAt0 m c (t.val - 1) (Nat.lt_of_le_of_lt (Nat.sub_le _ _) t.isLt)).2.2.2.2.1 := by
  by_cases h1 : t.val % 13 = 12
  · (have e := congrArg (fun p => p.2.2.2.2.1) (outsAt0_C m c t h0 h1); dsimp only at e; exact e.trans (sout_C_2 ..))
  · (have e := congrArg (fun p => p.2.2.2.2.1) (outsAt0_B m c t h0 h1); dsimp only at e; exact e.trans (sout_B_2 ..))

/-- At the first class of a batch the body count restarts from zero. -/
theorem first3 (c : Dev nD) (t : Fin cfg0.N) (h0 : t.val % 13 = 0) :
    (outsAt0 m c t.val t.isLt).2.2.2.2.2 = Terms.newCntB (grid0.coords t) (iblk m c 0 t) k0_pay8 := by
  have h1 : ¬t.val % 13 = 12 := by omega
  (have e := congrArg (fun p => p.2.2.2.2.2) (outsAt0_A m c t h0 h1); dsimp only at e; exact e.trans (sout_A_3 ..))

/-- At a later class the body count continues from the point before. -/
theorem later3 (c : Dev nD) (t : Fin cfg0.N) (h0 : ¬t.val % 13 = 0) :
    (outsAt0 m c t.val t.isLt).2.2.2.2.2 = Terms.newCntB (grid0.coords t) (iblk m c 0 t) (outsAt0 m c (t.val - 1) (Nat.lt_of_le_of_lt (Nat.sub_le _ _) t.isLt)).2.2.2.2.2 := by
  by_cases h1 : t.val % 13 = 12
  · (have e := congrArg (fun p => p.2.2.2.2.2) (outsAt0_C m c t h0 h1); dsimp only at e; exact e.trans (sout_C_3 ..))
  · (have e := congrArg (fun p => p.2.2.2.2.2) (outsAt0_B m c t h0 h1); dsimp only at e; exact e.trans (sout_B_3 ..))

/-- At the last class of a batch the edge row is written from the totals the point has just stored. -/
theorem rowE (c : Dev nD) (t : Fin cfg0.N) (h1 : t.val % 13 = 12) :
    (outsAt0 m c t.val t.isLt).1 = Terms.outE (outsAt0 m c t.val t.isLt).2.2.2.2.1 (outsAt0 m c t.val t.isLt).2.2.1 := by
  have h0 : ¬t.val % 13 = 0 := by omega
  rw [later2 m c t h0, later0 m c t h0]
  (have e := congrArg (fun p => p.1) (outsAt0_C m c t h0 h1); dsimp only at e; exact e.trans (out_C_3 ..))

/-- At the last class of a batch the body row is written from the totals the point has just stored. -/
theorem rowB (c : Dev nD) (t : Fin cfg0.N) (h1 : t.val % 13 = 12) :
    (outsAt0 m c t.val t.isLt).2.1 = Terms.outB (outsAt0 m c t.val t.isLt).2.2.2.2.2 (outsAt0 m c t.val t.isLt).2.2.2.1 := by
  have h0 : ¬t.val % 13 = 0 := by omega
  rw [later3 m c t h0, later1 m c t h0]
  (have e := congrArg (fun p => p.2.1) (outsAt0_C m c t h0 h1); dsimp only at e; exact e.trans (out_C_4 ..))

end Cert.KernelIdeal.Steps

end
-- ==== Proof.KerBlocks.lean ====
/-
  Which elements of the argument arrays a grid point's input blocks hold. Point `t` of the 8 × 13 grid is batch
  `t / 13` and class `t % 13 + 1`: the label block is plane `(t / 13, 0)` of the label array, and the two logit blocks
  are plane `(t / 13, t % 13 + 1)` of the two logit arrays.
-/
import proofs.«177475_j24979529793864_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The grid point's coordinates: batch and class index. -/
theorem coords_facts : ∀ t : Fin grid0.N, ((grid0.coords t) 0).val = t.val / 13 ∧ ((grid0.coords t) 1).val = t.val % 13 := by
  decide +kernel

/-- The label window's block index at a point. -/
theorem idx_facts0 : ∀ t : Fin grid0.N, win0_0.index t 0 = t.val / 13 ∧ win0_0.index t 1 = 0 ∧ win0_0.index t 2 = 0 ∧ win0_0.index t 3 = 0 := by
  decide +kernel

/-- The first logit window's block index at a point. -/
theorem idx_facts1 : ∀ t : Fin grid0.N, win0_1.index t 0 = t.val / 13 ∧ win0_1.index t 1 = t.val % 13 + 1 ∧ win0_1.index t 2 = 0 ∧ win0_1.index t 3 = 0 := by
  decide +kernel

/-- The second logit window's block index at a point. -/
theorem idx_facts2 : ∀ t : Fin grid0.N, win0_2.index t 0 = t.val / 13 ∧ win0_2.index t 1 = t.val % 13 + 1 ∧ win0_2.index t 2 = 0 ∧ win0_2.index t 3 = 0 := by
  decide +kernel

/-- The batch of a point. -/
def bat (t : Fin cfg0.N) : Fin 8 := ⟨t.val / 13, by have h : t.val < 104 := lt_of_lt_of_eq t.isLt N_0; omega⟩
/-- The class index of a point (class `cls t + 1`). -/
def cls (t : Fin cfg0.N) : Fin 13 := ⟨t.val % 13, Nat.mod_lt _ (by norm_num)⟩
/-- The channel of a point. -/
def chan (t : Fin cfg0.N) : Fin 14 := ⟨t.val % 13 + 1, by have := Nat.mod_lt t.val (show 0 < 13 by norm_num); omega⟩

/-- The label block of a point, element by element. -/
theorem iblk0_apply (c : Dev nD) (t : Fin cfg0.N) (r q : Fin 512) :
    (iblk m c 0 t : Vec F S1x1x512x512 .i32) (ix4 0 0 r q) = m ((c.tc : Thread nD τ).loc main_arg2) (ix4 (bat t) 0 r q) := by
  unfold iblk
  rw [View.read_apply]
  show V m c main_arg2 _ = V m c main_arg2 _
  congr 1
  funext a
  apply Fin.ext
  have hi := idx_facts0 t
  match a with
  | ⟨0, _⟩ => show win0_0.index t 0 * 1 + 1 * 0 = t.val / 13; rw [hi.1] <;> omega
  | ⟨1, _⟩ => show win0_0.index t 1 * 1 + 1 * 0 = 0; rw [hi.2.1] <;> omega
  | ⟨2, _⟩ => show win0_0.index t 2 * 512 + 1 * r.val = r.val; rw [hi.2.2.1]; omega
  | ⟨3, _⟩ => show win0_0.index t 3 * 512 + 1 * q.val = q.val; rw [hi.2.2.2]; omega

/-- The first logit block of a point, element by element. -/
theorem iblk1_apply (c : Dev nD) (t : Fin cfg0.N) (r q : Fin 512) :
    (iblk m c 1 t : Vec F S1x1x512x512 .f32) (ix4 0 0 r q) = m ((c.tc : Thread nD τ).loc main_arg0) (ix4 (bat t) (chan t) r q) := by
  unfold iblk
  rw [View.read_apply]
  show V m c main_arg0 _ = V m c main_arg0 _
  congr 1
  funext a
  apply Fin.ext
  have hi := idx_facts1 t
  match a with
  | ⟨0, _⟩ => show win0_1.index t 0 * 1 + 1 * 0 = t.val / 13; rw [hi.1] <;> omega
  | ⟨1, _⟩ => show win0_1.index t 1 * 1 + 1 * 0 = t.val % 13 + 1; rw [hi.2.1] <;> omega
  | ⟨2, _⟩ => show win0_1.index t 2 * 512 + 1 * r.val = r.val; rw [hi.2.2.1]; omega
  | ⟨3, _⟩ => show win0_1.index t 3 * 512 + 1 * q.val = q.val; rw [hi.2.2.2]; omega

/-- The second logit block of a point, element by element. -/
theorem iblk2_apply (c : Dev nD) (t : Fin cfg0.N) (r q : Fin 512) :
    (iblk m c 2 t : Vec F S1x1x512x512 .f32) (ix4 0 0 r q) = m ((c.tc : Thread nD τ).loc main_arg1) (ix4 (bat t) (chan t) r q) := by
  unfold iblk
  rw [View.read_apply]
  show V m c main_arg1 _ = V m c main_arg1 _
  congr 1
  funext a
  apply Fin.ext
  have hi := idx_facts2 t
  match a with
  | ⟨0, _⟩ => show win0_2.index t 0 * 1 + 1 * 0 = t.val / 13; rw [hi.1] <;> omega
  | ⟨1, _⟩ => show win0_2.index t 1 * 1 + 1 * 0 = t.val % 13 + 1; rw [hi.2.1] <;> omega
  | ⟨2, _⟩ => show win0_2.index t 2 * 512 + 1 * r.val = r.val; rw [hi.2.2.1]; omega
  | ⟨3, _⟩ => show win0_2.index t 3 * 512 + 1 * q.val = q.val; rw [hi.2.2.2]; omega

end Cert.KernelIdeal.Blocks

end
-- ==== Proof.LibMaskedKL.lean ====
/-
  The masked-softmax Kullback–Leibler divergence of two logit families over a finite index set, in two spellings,
  and the law that joins them — all over the real numbers.

  REFERENCE spelling (`klRef`): the logits are first multiplied by a 0/1 mask (`mlog`: the logit on the mask, 0 off it),
  both families go through a log-softmax over ALL positions (`logSoftmax`, shifted by any real number: the value of a
  log-softmax does not depend on the shift), and the divergence is Σ exp(logq)·(logq − logp).

  KERNEL spelling (`klKer`): exp(s − a), exp(t − b) are computed once for shifts a, b (any reals); the positions off the mask
  contribute the closed-form term (n − cnt)·exp(0 − a) to the partition sum (their masked logit is 0), and since the
  difference of the masked logits vanishes off the mask, the cross term is Σ_mask exp(t − b)(t − s) / sum_t; the
  divergence is cross + (log sum_s + a) − (log sum_t + b).

  `klKer_eq_klRef`: for n the number of positions and ANY real shifts on either side the two are equal.
-/
import Mathlib

noncomputable section

namespace MaskedKL

open Finset

variable {ι : Type*} [Fintype ι]

/-- The masked logit: the logit on the mask, 0 off it. -/
def mlog (M : ι → Bool) (s : ι → ℝ) (i : ι) : ℝ := if M i then s i else 0

/-- The partition sum of a log-softmax shifted by `a`. -/
def partSum (x : ι → ℝ) (a : ℝ) : ℝ := ∑ j, Real.exp (x j - a)

/-- A log-softmax over all positions, computed with the shift `a`. -/
def logSoftmax (x : ι → ℝ) (a : ℝ) (i : ι) : ℝ := (x i - a) - Real.log (partSum x a)

/-- The reference's divergence: Σ exp(logq)·(logq − logp), `p` from `x` (shift `a`), `q` from `y` (shift `b`). -/
def klRef (x y : ι → ℝ) (a b : ℝ) : ℝ :=
  ∑ i, Real.exp (logSoftmax y b i) * (logSoftmax y b i - logSoftmax x a i)

/-- How many positions are on the mask, as a real number. -/
def cnt (M : ι → Bool) : ℝ := ∑ i, (if M i then (1 : ℝ) else 0)

/-- The kernel's partition sum: the mask's exponentials plus the closed-form term of the positions off the mask. -/
def kerSum (M : ι → Bool) (s : ι → ℝ) (n a : ℝ) : ℝ :=
  (∑ i, (if M i then Real.exp (s i - a) else 0)) + (n - cnt M) * Real.exp (0 - a)

/-- The kernel's cross term before the division: Σ over the mask of exp(t − b)·(t − s). -/
def kerCross (M : ι → Bool) (s t : ι → ℝ) (b : ℝ) : ℝ :=
  ∑ i, (if M i then Real.exp (t i - b) * (t i - s i) else 0)

/-- The kernel's divergence. -/
def klKer (M : ι → Bool) (s t : ι → ℝ) (n a b : ℝ) : ℝ :=
  (kerCross M s t b / kerSum M t n b + (Real.log (kerSum M s n a) + a)) - (Real.log (kerSum M t n b) + b)

/-- The reference's partition sum is positive. -/
theorem partSum_pos [Nonempty ι] (x : ι → ℝ) (a : ℝ) : 0 < partSum x a := by
  unfold partSum
  exact Finset.sum_pos (fun j _ => Real.exp_pos _) Finset.univ_nonempty

/-- The number of positions off the mask: card ι − cnt M = Σ (if on the mask then 0 else 1). -/
theorem card_sub_cnt (M : ι → Bool) :
    ((Fintype.card ι : ℝ) - cnt M) = ∑ i : ι, (if M i then (0 : ℝ) else 1) := by
  unfold cnt
  have h : (Fintype.card ι : ℝ) = ∑ _i : ι, (1 : ℝ) := by simp
  rw [h, ← Finset.sum_sub_distrib]
  refine Finset.sum_congr rfl (fun i _ => ?_)
  cases M i <;> simp

/-- The kernel's partition sum, with `n` the number of positions, is the reference's of the masked logits. -/
theorem kerSum_eq_partSum (M : ι → Bool) (s : ι → ℝ) (a : ℝ) :
    kerSum M s (Fintype.card ι) a = partSum (mlog M s) a := by
  unfold kerSum partSum
  rw [card_sub_cnt, Finset.sum_mul, ← Finset.sum_add_distrib]
  refine Finset.sum_congr rfl (fun i _ => ?_)
  unfold mlog
  cases M i <;> simp

/-- The kernel's partition sum is positive. -/
theorem kerSum_pos [Nonempty ι] (M : ι → Bool) (s : ι → ℝ) (a : ℝ) : 0 < kerSum M s (Fintype.card ι) a := by
  rw [kerSum_eq_partSum]; exact partSum_pos _ _

/-- Changing the shift multiplies the partition sum by an exponential:
Σ exp(x j − a) = exp(a' − a) · Σ exp(x j − a'). -/
theorem partSum_shift (x : ι → ℝ) (a a' : ℝ) :
    partSum x a = Real.exp (a' - a) * partSum x a' := by
  unfold partSum
  rw [Finset.mul_sum]
  refine Finset.sum_congr rfl (fun j _ => ?_)
  rw [← Real.exp_add]
  congr 1
  ring

/-- The value of a log-softmax does not depend on the shift. -/
theorem logSoftmax_shift [Nonempty ι] (x : ι → ℝ) (a a' : ℝ) (i : ι) :
    logSoftmax x a i = logSoftmax x a' i := by
  unfold logSoftmax
  rw [partSum_shift x a a', Real.log_mul (Real.exp_pos _).ne' (partSum_pos x a').ne', Real.log_exp]
  ring

/-- The softmax weight: exp(logSoftmax y b i) = exp(y i − b) / Σ exp(y j − b). -/
theorem exp_logSoftmax [Nonempty ι] (y : ι → ℝ) (b : ℝ) (i : ι) :
    Real.exp (logSoftmax y b i) = Real.exp (y i - b) / partSum y b := by
  unfold logSoftmax
  rw [Real.exp_sub, Real.exp_log (partSum_pos y b)]

/-- The softmax weights sum to one. -/
theorem sum_exp_logSoftmax [Nonempty ι] (y : ι → ℝ) (b : ℝ) :
    ∑ i, Real.exp (logSoftmax y b i) = 1 := by
  simp only [exp_logSoftmax]
  rw [← Finset.sum_div]
  exact div_self (partSum_pos y b).ne'

/-- The reference's divergence, expanded: with q i = exp(y i − b)/Zy and Σ q = 1,
Σ q i · (logq i − logp i) = (Σ exp(y i − b)(y i − x i))/Zy + (log Zx + a) − (log Zy + b). -/
theorem klRef_expand [Nonempty ι] (x y : ι → ℝ) (a b : ℝ) :
    klRef x y a b
      = (∑ i, Real.exp (y i - b) * (y i - x i)) / partSum y b
          + (Real.log (partSum x a) + a) - (Real.log (partSum y b) + b) := by
  have hZ := partSum_pos y b
  have hsum : (∑ i, Real.exp (y i - b)) = partSum y b := rfl
  unfold klRef
  simp only [exp_logSoftmax]
  unfold logSoftmax
  have h : ∀ i, Real.exp (y i - b) / partSum y b
        * ((y i - b) - Real.log (partSum y b) - ((x i - a) - Real.log (partSum x a)))
      = (Real.exp (y i - b) * (y i - x i)) / partSum y b
        + Real.exp (y i - b) / partSum y b
            * ((Real.log (partSum x a) + a) - (Real.log (partSum y b) + b)) := by
    intro i; ring
  simp only [h]
  rw [Finset.sum_add_distrib, ← Finset.sum_div, ← Finset.sum_mul, ← Finset.sum_div, hsum,
    div_self hZ.ne']
  ring

/-- The cross term of the masked logits is the kernel's: off the mask both masked logits are 0. -/
theorem sum_cross_mlog (M : ι → Bool) (s t : ι → ℝ) (b : ℝ) :
    (∑ i, Real.exp (mlog M t i - b) * (mlog M t i - mlog M s i)) = kerCross M s t b := by
  unfold kerCross
  refine Finset.sum_congr rfl (fun i _ => ?_)
  unfold mlog
  cases M i <;> simp

/-- THE LAW: the kernel's spelling and the reference's are one number, whatever the shifts. -/
theorem klKer_eq_klRef [Nonempty ι] (M : ι → Bool) (s t : ι → ℝ) (a b a' b' : ℝ) :
    klKer M s t (Fintype.card ι) a b = klRef (mlog M s) (mlog M t) a' b' := by
  have hshift : klRef (mlog M s) (mlog M t) a' b' = klRef (mlog M s) (mlog M t) a b := by
    unfold klRef
    refine Finset.sum_congr rfl (fun i _ => ?_)
    rw [logSoftmax_shift (mlog M t) b' b i, logSoftmax_shift (mlog M s) a' a i]
  rw [hshift, klRef_expand, sum_cross_mlog]
  unfold klKer
  rw [kerSum_eq_partSum, kerSum_eq_partSum]

/-- The reference's spelling transported along a bijection of the index sets. -/
theorem klRef_equiv {κ : Type*} [Fintype κ] (e : κ ≃ ι) (x y : ι → ℝ) (a b : ℝ) :
    klRef (fun k => x (e k)) (fun k => y (e k)) a b = klRef x y a b := by
  have hp : ∀ (z : ι → ℝ) (c : ℝ), partSum (fun k => z (e k)) c = partSum z c := by
    intro z c
    unfold partSum
    exact Equiv.sum_comp e (fun j => Real.exp (z j - c))
  have hl : ∀ (z : ι → ℝ) (c : ℝ) (k : κ),
      logSoftmax (fun k => z (e k)) c k = logSoftmax z c (e k) := by
    intro z c k
    unfold logSoftmax
    rw [hp]
  unfold klRef
  simp only [hl]
  exact Equiv.sum_comp e
    (fun i => Real.exp (logSoftmax y b i) * (logSoftmax y b i - logSoftmax x a i))

end MaskedKL

end
-- ==== Proof.Spec.lean ====
/-
  THE SPECIFICATION: the two losses as real numbers, functions of the label array and of the two logit arrays (all
  entries real), spelled once with the divergence of a class left as a parameter `K`.

  For a batch `b` and a class `c + 1` (`c : Fin 13`; class 0 is skipped) the class mask of the 512 × 512 label plane
  is `msk`; its 4-neighbour dilation and erosion (the plane padded with `false`) differ exactly on the EDGE positions
  (`edgeB`), and the BODY positions are the mask's positions that are not edges (`bodyB`). A class is counted only
  if it has an edge position (`valid`). Per batch the divergences of the valid classes are summed and divided by the
  number of edge (body) positions of the valid classes, clamped below by 1, and the result is 0 when that number is 0;
  the loss is the weight times the sum over the batches divided by 8.

  `kl` is the divergence in the kernel's spelling (shifts `max (max of the plane) 0`), `klR` in the reference's
  (the positions flattened row-major, the shift the maximum of the masked logits); `kl_eq_klR` joins them.
-/
import proofs.«177475_j24979529793864_2_alg».proof.Proof.LibMaskedKL

noncomputable section

namespace Cert.Spec

open Finset

/-- The labels: batch, row, column. -/
abbrev Lab := Fin 8 → Fin 512 → Fin 512 → BitVec 32
/-- The logits: batch, channel, row, column. -/
abbrev Logits := Fin 8 → Fin 14 → Fin 512 → Fin 512 → ℝ
/-- A position of a plane: row, column. -/
abbrev Pos := Fin 512 × Fin 512

/-- The class mask at row `r`, column `q`: `false` outside the plane. -/
def msk (L : Lab) (b : Fin 8) (c : Fin 13) (r q : ℕ) : Bool :=
  if h : r < 512 ∧ q < 512 then decide (L b ⟨r, h.1⟩ ⟨q, h.2⟩ = BitVec.ofNat 32 (c.val + 1)) else false

/-- The neighbour above (`false` in the first row). -/
def mskUp (L : Lab) (b : Fin 8) (c : Fin 13) (r q : ℕ) : Bool := decide (1 ≤ r) && msk L b c (r - 1) q
/-- The neighbour below. -/
def mskDn (L : Lab) (b : Fin 8) (c : Fin 13) (r q : ℕ) : Bool := msk L b c (r + 1) q
/-- The neighbour to the left (`false` in the first column). -/
def mskLf (L : Lab) (b : Fin 8) (c : Fin 13) (r q : ℕ) : Bool := decide (1 ≤ q) && msk L b c r (q - 1)
/-- The neighbour to the right. -/
def mskRt (L : Lab) (b : Fin 8) (c : Fin 13) (r q : ℕ) : Bool := msk L b c r (q + 1)

/-- Dilation by the 4-neighbour cross. -/
def dilB (L : Lab) (b : Fin 8) (c : Fin 13) (r q : ℕ) : Bool :=
  msk L b c r q || mskUp L b c r q || mskDn L b c r q || mskLf L b c r q || mskRt L b c r q
/-- Erosion by the 4-neighbour cross. -/
def eroB (L : Lab) (b : Fin 8) (c : Fin 13) (r q : ℕ) : Bool :=
  msk L b c r q && mskUp L b c r q && mskDn L b c r q && mskLf L b c r q && mskRt L b c r q
/-- An edge position: in the dilation and not in the erosion. -/
def edgeB (L : Lab) (b : Fin 8) (c : Fin 13) (r q : ℕ) : Bool := xor (dilB L b c r q) (eroB L b c r q)
/-- A body position: on the mask and not an edge. -/
def bodyB (L : Lab) (b : Fin 8) (c : Fin 13) (r q : ℕ) : Bool := !(edgeB L b c r q) && msk L b c r q

/-- The edge mask of a plane. -/
def edgeM (L : Lab) (b : Fin 8) (c : Fin 13) : Pos → Bool := fun p => edgeB L b c p.1.val p.2.val
/-- The body mask of a plane. -/
def bodyM (L : Lab) (b : Fin 8) (c : Fin 13) : Pos → Bool := fun p => bodyB L b c p.1.val p.2.val

/-- How many positions a mask has. -/
def cntN (M : Pos → Bool) : ℕ := ∑ p, (if M p then 1 else 0)

/-- A class counts only if it has an edge position. -/
def valid (L : Lab) (b : Fin 8) (c : Fin 13) : Bool := decide (0 < cntN (edgeM L b c))

/-- The edge positions of the valid classes of a batch. -/
def numE (L : Lab) (b : Fin 8) : ℕ := ∑ c : Fin 13, (if valid L b c then cntN (edgeM L b c) else 0)
/-- The body positions of the valid classes of a batch. -/
def numB (L : Lab) (b : Fin 8) : ℕ := ∑ c : Fin 13, (if valid L b c then cntN (bodyM L b c) else 0)

/-- The plane of class `c + 1` of batch `b`. -/
def plane (S : Logits) (b : Fin 8) (c : Fin 13) : Pos → ℝ :=
  fun p => S b ⟨c.val + 1, Nat.succ_lt_succ c.isLt⟩ p.1 p.2

/-- The kernel's shift: the larger of the plane's maximum and 0. -/
def shift (s : Pos → ℝ) : ℝ := max (Finset.univ.sup' Finset.univ_nonempty s) 0

/-- The divergence in the kernel's spelling. -/
def kl (M : Pos → Bool) (s t : Pos → ℝ) : ℝ := MaskedKL.klKer M s t 262144 (shift s) (shift t)

/-- Position `k` of the row-major flattening of a plane. -/
def unflat (k : Fin 262144) : Pos :=
  (⟨k.val / 512, by have := k.isLt; omega⟩, ⟨k.val % 512, Nat.mod_lt _ (by norm_num)⟩)

/-- The flattened masked logits. -/
def flatLog (M : Pos → Bool) (s : Pos → ℝ) : Fin 262144 → ℝ := fun k => MaskedKL.mlog M s (unflat k)

/-- The reference's shift: the maximum of the masked logits. -/
def shiftR (x : Fin 262144 → ℝ) : ℝ := Finset.univ.sup' Finset.univ_nonempty x

/-- The divergence in the reference's spelling. -/
def klR (M : Pos → Bool) (s t : Pos → ℝ) : ℝ :=
  MaskedKL.klRef (flatLog M s) (flatLog M t) (shiftR (flatLog M s)) (shiftR (flatLog M t))

/-- The divergences of a batch's valid classes, summed. -/
def accOf (K : (Pos → Bool) → (Pos → ℝ) → (Pos → ℝ) → ℝ) (Msk : Lab → Fin 8 → Fin 13 → Pos → Bool)
    (S T : Logits) (L : Lab) (b : Fin 8) : ℝ :=
  ∑ c : Fin 13, (if valid L b c then K (Msk L b c) (plane S b c) (plane T b c) else 0)

/-- A batch's normalised divergence: 0 when the valid classes have no position. -/
def perOf (K : (Pos → Bool) → (Pos → ℝ) → (Pos → ℝ) → ℝ) (Msk : Lab → Fin 8 → Fin 13 → Pos → Bool)
    (num : Lab → Fin 8 → ℕ) (S T : Logits) (L : Lab) (b : Fin 8) : ℝ :=
  if 0 < num L b then accOf K Msk S T L b / max (num L b : ℝ) 1 else 0

/-- A loss: the weight times the batches' sum, divided by 8. -/
def lossOf (w : ℝ) (K : (Pos → Bool) → (Pos → ℝ) → (Pos → ℝ) → ℝ) (Msk : Lab → Fin 8 → Fin 13 → Pos → Bool)
    (num : Lab → Fin 8 → ℕ) (S T : Logits) (L : Lab) : ℝ :=
  w * (∑ b : Fin 8, perOf K Msk num S T L b) / 8

/-- The row-major flattening as a bijection. -/
def unflatEquiv : Fin 262144 ≃ Pos where
  toFun := unflat
  invFun p := ⟨p.1.val * 512 + p.2.val, by have := p.1.isLt; have := p.2.isLt; omega⟩
  left_inv k := by
    apply Fin.ext
    show k.val / 512 * 512 + k.val % 512 = k.val
    omega
  right_inv p := by
    have h1 := p.1.isLt; have h2 := p.2.isLt
    apply Prod.ext <;> apply Fin.ext
    · show (p.1.val * 512 + p.2.val) / 512 = p.1.val
      omega
    · show (p.1.val * 512 + p.2.val) % 512 = p.2.val
      omega

/-- The two spellings of a class's divergence are one number. -/
theorem kl_eq_klR (M : Pos → Bool) (s t : Pos → ℝ) : kl M s t = klR M s t := by
  have hcard : ((Fintype.card Pos : ℕ) : ℝ) = 262144 := by
    simp [Pos, Fintype.card_prod, Fintype.card_fin]
  unfold kl klR
  rw [← hcard, MaskedKL.klKer_eq_klRef M s t (shift s) (shift t) (shiftR (flatLog M s)) (shiftR (flatLog M t))]
  exact (MaskedKL.klRef_equiv unflatEquiv (MaskedKL.mlog M s) (MaskedKL.mlog M t) _ _).symm

/-- The two spellings of a loss are one number. -/
theorem lossOf_kl_eq_klR (w : ℝ) (Msk : Lab → Fin 8 → Fin 13 → Pos → Bool) (num : Lab → Fin 8 → ℕ)
    (S T : Logits) (L : Lab) : lossOf w kl Msk num S T L = lossOf w klR Msk num S T L := by
  have : kl = klR := by funext M s t; exact kl_eq_klR M s t
  rw [this]

end Cert.Spec

end
-- ==== Proof.SpecIdx.lean ====
/-
  The program's arrays as the specification's curried families: a rank-4 array of logits read at the index built from
  (batch, channel, row, column), the label array at (batch, 0, row, column).
-/
import Idealize.ShloMosaic.Lib.ValueIdx
import proofs.«177475_j24979529793864_2_alg».proof.Proof.Spec

noncomputable section

namespace Cert.Spec

open Idealize.ShloMosaic Idealize.ShloMosaic.ValueIdx

/-- The shape of a logit array. -/
abbrev SLog : Shape := ⟨4, ![8, 14, 512, 512]⟩
/-- The shape of the label array. -/
abbrev SLab : Shape := ⟨4, ![8, 1, 512, 512]⟩

/-- A real-valued logit array as the specification's family. -/
def logitsOf (A : SLog.Idx → ℝ) : Logits := fun b ch r q => A (ix4 b ch r q)

/-- The label array as the specification's family. -/
def labOf (A : SLab.Idx → BitVec 32) : Lab := fun b r q => A (ix4 b 0 r q)

end Cert.Spec

end
-- ==== Proof.KerLaws.lean ====
/-
  What the arithmetic of the kernel's body at one grid point amounts to at the ideal instance, stated once: for the point
  of batch `b` and class `c + 1`, from a label block holding that batch's plane and two logit blocks holding real
  numbers, the running counts grow by the class's edge (body) positions when the class is valid, the running
  divergences by the class's edge (body) divergence when it is valid, and the rows written at the last class hold the
  divergence over the count clamped below by 1, or 0 at count 0.
-/
import proofs.«177475_j24979529793864_2_alg».proof.Proof.KerTerms
import proofs.«177475_j24979529793864_2_alg».proof.Proof.SpecIdx

noncomputable section

namespace Cert.KerLaws

open Idealize.ShloMosaic Idealize.ShloMosaic.ValueIdx Cert.KernelIdeal Cert.KernelIdeal.Gen Cert.Spec

/-- The point laws: the body's pure terms read at the ideal instance. -/
structure PointLaws : Prop where
  /-- The running edge count after the point. -/
  newCntE : ∀ (i : grid0.Coords) (b : Fin 8) (c : Fin 13), (i 0).val = b.val → (i 1).val = c.val →
    ∀ (L : Lab) (x0 : Vec Ideal S1x1x512x512 .i32), (∀ r q : Fin 512, x0 (ix4 0 0 r q) = L b r q) →
    ∀ n : ℕ, Terms.newCntE (F := Ideal) i x0 (fun _ => ((n : ℝ) : EReal))
      = fun _ => (((n + (if valid L b c then cntN (edgeM L b c) else 0) : ℕ) : ℝ) : EReal)
  /-- The running body count after the point. -/
  newCntB : ∀ (i : grid0.Coords) (b : Fin 8) (c : Fin 13), (i 0).val = b.val → (i 1).val = c.val →
    ∀ (L : Lab) (x0 : Vec Ideal S1x1x512x512 .i32), (∀ r q : Fin 512, x0 (ix4 0 0 r q) = L b r q) →
    ∀ n : ℕ, Terms.newCntB (F := Ideal) i x0 (fun _ => ((n : ℝ) : EReal))
      = fun _ => (((n + (if valid L b c then cntN (bodyM L b c) else 0) : ℕ) : ℝ) : EReal)
  /-- The running edge divergence after the point. -/
  newKlE : ∀ (i : grid0.Coords) (b : Fin 8) (c : Fin 13), (i 0).val = b.val → (i 1).val = c.val →
    ∀ (L : Lab) (s t : Pos → ℝ) (x0 : Vec Ideal S1x1x512x512 .i32), (∀ r q : Fin 512, x0 (ix4 0 0 r q) = L b r q) →
    ∀ (x1 x2 : Vec Ideal S1x1x512x512 .f32), (∀ r q : Fin 512, x1 (ix4 0 0 r q) = ((s (r, q) : ℝ) : EReal)) →
    (∀ r q : Fin 512, x2 (ix4 0 0 r q) = ((t (r, q) : ℝ) : EReal)) →
    ∀ a : ℝ, Terms.newKlE (F := Ideal) i x0 x1 x2 (fun _ => (a : EReal))
      = fun _ => ((a + (if valid L b c then kl (edgeM L b c) s t else 0) : ℝ) : EReal)
  /-- The running body divergence after the point. -/
  newKlB : ∀ (i : grid0.Coords) (b : Fin 8) (c : Fin 13), (i 0).val = b.val → (i 1).val = c.val →
    ∀ (L : Lab) (s t : Pos → ℝ) (x0 : Vec Ideal S1x1x512x512 .i32), (∀ r q : Fin 512, x0 (ix4 0 0 r q) = L b r q) →
    ∀ (x1 x2 : Vec Ideal S1x1x512x512 .f32), (∀ r q : Fin 512, x1 (ix4 0 0 r q) = ((s (r, q) : ℝ) : EReal)) →
    (∀ r q : Fin 512, x2 (ix4 0 0 r q) = ((t (r, q) : ℝ) : EReal)) →
    ∀ a : ℝ, Terms.newKlB (F := Ideal) i x0 x1 x2 (fun _ => (a : EReal))
      = fun _ => ((a + (if valid L b c then kl (bodyM L b c) s t else 0) : ℝ) : EReal)
  /-- The edge row written at the last class of a batch. -/
  outE : ∀ (n : ℕ) (a : ℝ), Terms.outE (F := Ideal) (fun _ => ((n : ℝ) : EReal)) (fun _ => (a : EReal))
      = fun _ => (((if 0 < n then a / max (n : ℝ) 1 else 0) : ℝ) : EReal)
  /-- The body row written at the last class of a batch. -/
  outB : ∀ (n : ℕ) (a : ℝ), Terms.outB (F := Ideal) (fun _ => ((n : ℝ) : EReal)) (fun _ => (a : EReal))
      = fun _ => (((if 0 < n then a / max (n : ℝ) 1 else 0) : ℝ) : EReal)
  /-- The zero a batch's totals restart from. -/
  zero5 : (k0_pay5 (F := Ideal)) = fun _ => ((0 : ℝ) : EReal)
  zero6 : (k0_pay6 (F := Ideal)) = fun _ => ((0 : ℝ) : EReal)
  zero7 : (k0_pay7 (F := Ideal)) = fun _ => (((0 : ℕ) : ℝ) : EReal)
  zero8 : (k0_pay8 (F := Ideal)) = fun _ => (((0 : ℕ) : ℝ) : EReal)

end Cert.KerLaws

end
-- ==== Proof.KerAcc.lean ====
/-
  The running totals of a batch at the ideal instance, as real numbers. After the point of batch `b` and class index
  `k` the four totals are the sums, over the class indices up to `k`, of the classes' divergences and counts (a class
  without an edge position contributes nothing): an induction over the grid, each step one application of the point
  laws to the point's blocks. At the last class the rows written are the batch's normalised divergences.
-/
import proofs.«177475_j24979529793864_2_alg».proof.Proof.KerSteps
import proofs.«177475_j24979529793864_2_alg».proof.Proof.KerBlocks
import proofs.«177475_j24979529793864_2_alg».proof.Proof.KerLaws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.KernelIdeal.Blocks Cert.KernelIdeal.Steps Cert.Spec Cert.KerLaws Finset

variable (m : (ℓ : Loc nD τ sig) → Buf (Elt Ideal) ℓ) (c : Dev nD) (A0 A1 : SLog.Idx → ℝ)

/-- The labels the memory holds. -/
def labs : Lab := labOf (m ((c.tc : Thread nD τ).loc main_arg2))

/-- The edge divergence class index `k` of batch `b` contributes. -/
def gKlE (b : Fin 8) (k : ℕ) : ℝ :=
  if h : k < 13 then (if valid (labs m c) b ⟨k, h⟩ then kl (edgeM (labs m c) b ⟨k, h⟩) (plane (logitsOf A0) b ⟨k, h⟩) (plane (logitsOf A1) b ⟨k, h⟩) else 0) else 0
/-- The body divergence class index `k` of batch `b` contributes. -/
def gKlB (b : Fin 8) (k : ℕ) : ℝ :=
  if h : k < 13 then (if valid (labs m c) b ⟨k, h⟩ then kl (bodyM (labs m c) b ⟨k, h⟩) (plane (logitsOf A0) b ⟨k, h⟩) (plane (logitsOf A1) b ⟨k, h⟩) else 0) else 0
/-- The edge positions class index `k` of batch `b` contributes. -/
def gCntE (b : Fin 8) (k : ℕ) : ℕ :=
  if h : k < 13 then (if valid (labs m c) b ⟨k, h⟩ then cntN (edgeM (labs m c) b ⟨k, h⟩) else 0) else 0
/-- The body positions class index `k` of batch `b` contributes. -/
def gCntB (b : Fin 8) (k : ℕ) : ℕ :=
  if h : k < 13 then (if valid (labs m c) b ⟨k, h⟩ then cntN (bodyM (labs m c) b ⟨k, h⟩) else 0) else 0

variable (H : PointLaws)
  (hS : ∀ j, m ((c.tc : Thread nD τ).loc main_arg0) j = ((A0 j : ℝ) : EReal))
  (hT : ∀ j, m ((c.tc : Thread nD τ).loc main_arg1) j = ((A1 j : ℝ) : EReal))

include H hS hT in
/-- One point's edge divergence step. -/
theorem pt_klE (t : Fin cfg0.N) (a : ℝ) :
    Terms.newKlE (F := Ideal) (grid0.coords t) (iblk m c 0 t) (iblk m c 1 t) (iblk m c 2 t) (fun _ => (a : EReal))
      = fun _ => ((a + gKlE m c A0 A1 (bat t) (t.val % 13) : ℝ) : EReal) := by
  have hk : t.val % 13 < 13 := Nat.mod_lt _ (by norm_num)
  have h := H.newKlE (grid0.coords t) (bat t) (cls t) (coords_facts t).1 (coords_facts t).2 (labs m c)
    (plane (logitsOf A0) (bat t) (cls t)) (plane (logitsOf A1) (bat t) (cls t)) (iblk m c 0 t) (fun r q => iblk0_apply m c t r q)
    (iblk m c 1 t) (iblk m c 2 t) (fun r q => (iblk1_apply m c t r q).trans (hS _)) (fun r q => (iblk2_apply m c t r q).trans (hT _)) a
  rw [h]
  unfold gKlE
  rw [dif_pos hk]
  rfl

include H hS hT in
/-- One point's body divergence step. -/
theorem pt_klB (t : Fin cfg0.N) (a : ℝ) :
    Terms.newKlB (F := Ideal) (grid0.coords t) (iblk m c 0 t) (iblk m c 1 t) (iblk m c 2 t) (fun _ => (a : EReal))
      = fun _ => ((a + gKlB m c A0 A1 (bat t) (t.val % 13) : ℝ) : EReal) := by
  have hk : t.val % 13 < 13 := Nat.mod_lt _ (by norm_num)
  have h := H.newKlB (grid0.coords t) (bat t) (cls t) (coords_facts t).1 (coords_facts t).2 (labs m c)
    (plane (logitsOf A0) (bat t) (cls t)) (plane (logitsOf A1) (bat t) (cls t)) (iblk m c 0 t) (fun r q => iblk0_apply m c t r q)
    (iblk m c 1 t) (iblk m c 2 t) (fun r q => (iblk1_apply m c t r q).trans (hS _)) (fun r q => (iblk2_apply m c t r q).trans (hT _)) a
  rw [h]
  unfold gKlB
  rw [dif_pos hk]
  rfl

include H in
/-- One point's edge count step. -/
theorem pt_cntE (t : Fin cfg0.N) (n : ℕ) :
    Terms.newCntE (F := Ideal) (grid0.coords t) (iblk m c 0 t) (fun _ => ((n : ℝ) : EReal))
      = fun _ => (((n + gCntE m c (bat t) (t.val % 13) : ℕ) : ℝ) : EReal) := by
  have hk : t.val % 13 < 13 := Nat.mod_lt _ (by norm_num)
  have h := H.newCntE (grid0.coords t) (bat t) (cls t) (coords_facts t).1 (coords_facts t).2 (labs m c)
    (iblk m c 0 t) (fun r q => iblk0_apply m c t r q) n
  rw [h]
  unfold gCntE
  rw [dif_pos hk]
  rfl

include H in
/-- One point's body count step. -/
theorem pt_cntB (t : Fin cfg0.N) (n : ℕ) :
    Terms.newCntB (F := Ideal) (grid0.coords t) (iblk m c 0 t) (fun _ => ((n : ℝ) : EReal))
      = fun _ => (((n + gCntB m c (bat t) (t.val % 13) : ℕ) : ℝ) : EReal) := by
  have hk : t.val % 13 < 13 := Nat.mod_lt _ (by norm_num)
  have h := H.newCntB (grid0.coords t) (bat t) (cls t) (coords_facts t).1 (coords_facts t).2 (labs m c)
    (iblk m c 0 t) (fun r q => iblk0_apply m c t r q) n
  rw [h]
  unfold gCntB
  rw [dif_pos hk]
  rfl

/-- Consecutive points of one batch: the batch stays, the class index grows by one. -/
theorem bat_succ (n : ℕ) (hn : n + 1 < cfg0.N) (h0 : ¬(n + 1) % 13 = 0) :
    bat ⟨n + 1, hn⟩ = bat ⟨n, Nat.lt_of_succ_lt hn⟩ := Fin.ext (by show (n + 1) / 13 = n / 13; omega)

include H hS hT in
/-- The running edge divergence after point `n`. -/
theorem tot0 : ∀ (n : ℕ) (hn : n < cfg0.N), (outsAt0 m c n hn).2.2.1
      = fun _ => ((∑ k ∈ range (n % 13 + 1), gKlE m c A0 A1 (bat ⟨n, hn⟩) k : ℝ) : EReal)
  | 0, hn => by
    refine (first0 m c ⟨0, hn⟩ rfl).trans ?_
    rw [H.zero5]
    refine (pt_klE m c A0 A1 H hS hT ⟨0, hn⟩ 0).trans ?_
    simp only [Nat.zero_mod, Nat.zero_add, zero_add, Finset.sum_range_one]
  | n + 1, hn => by
    by_cases h0 : (n + 1) % 13 = 0
    · refine (first0 m c ⟨n + 1, hn⟩ h0).trans ?_
      rw [H.zero5]
      refine (pt_klE m c A0 A1 H hS hT ⟨n + 1, hn⟩ 0).trans ?_
      simp only [h0, Nat.zero_add, zero_add, Finset.sum_range_one]
    · refine (later0 m c ⟨n + 1, hn⟩ h0).trans ?_
      have ih : (outsAt0 m c ((⟨n + 1, hn⟩ : Fin cfg0.N).val - 1) (Nat.lt_of_le_of_lt (Nat.sub_le _ _) (⟨n + 1, hn⟩ : Fin cfg0.N).isLt)).2.2.1 = _ :=
        tot0 n (Nat.lt_of_succ_lt hn)
      rw [ih]
      refine (pt_klE m c A0 A1 H hS hT ⟨n + 1, hn⟩ _).trans ?_
      have hm : (n + 1) % 13 = n % 13 + 1 := by omega
      rw [bat_succ n hn h0]
      simp only [hm]
      rw [Finset.sum_range_succ _ (n % 13 + 1)]

include H hS hT in
/-- The running body divergence after point `n`. -/
theorem tot1 : ∀ (n : ℕ) (hn : n < cfg0.N), (outsAt0 m c n hn).2.2.2.1
      = fun _ => ((∑ k ∈ range (n % 13 + 1), gKlB m c A0 A1 (bat ⟨n, hn⟩) k : ℝ) : EReal)
  | 0, hn => by
    refine (first1 m c ⟨0, hn⟩ rfl).trans ?_
    rw [H.zero6]
    refine (pt_klB m c A0 A1 H hS hT ⟨0, hn⟩ 0).trans ?_
    simp only [Nat.zero_mod, Nat.zero_add, zero_add, Finset.sum_range_one]
  | n + 1, hn => by
    by_cases h0 : (n + 1) % 13 = 0
    · refine (first1 m c ⟨n + 1, hn⟩ h0).trans ?_
      rw [H.zero6]
      refine (pt_klB m c A0 A1 H hS hT ⟨n + 1, hn⟩ 0).trans ?_
      simp only [h0, Nat.zero_add, zero_add, Finset.sum_range_one]
    · refine (later1 m c ⟨n + 1, hn⟩ h0).trans ?_
      have ih : (outsAt0 m c ((⟨n + 1, hn⟩ : Fin cfg0.N).val - 1) (Nat.lt_of_le_of_lt (Nat.sub_le _ _) (⟨n + 1, hn⟩ : Fin cfg0.N).isLt)).2.2.2.1 = _ :=
        tot1 n (Nat.lt_of_succ_lt hn)
      rw [ih]
      refine (pt_klB m c A0 A1 H hS hT ⟨n + 1, hn⟩ _).trans ?_
      have hm : (n + 1) % 13 = n % 13 + 1 := by omega
      rw [bat_succ n hn h0]
      simp only [hm]
      rw [Finset.sum_range_succ _ (n % 13 + 1)]

include H in
/-- The running edge count after point `n`. -/
theorem tot2 : ∀ (n : ℕ) (hn : n < cfg0.N), (outsAt0 m c n hn).2.2.2.2.1
      = fun _ => (((∑ k ∈ range (n % 13 + 1), gCntE m c (bat ⟨n, hn⟩) k : ℕ) : ℝ) : EReal)
  | 0, hn => by
    refine (first2 m c ⟨0, hn⟩ rfl).trans ?_
    rw [H.zero7]
    refine (pt_cntE m c H ⟨0, hn⟩ 0).trans ?_
    simp only [Nat.zero_mod, Nat.zero_add, zero_add, Finset.sum_range_one]
  | n + 1, hn => by
    by_cases h0 : (n + 1) % 13 = 0
    · refine (first2 m c ⟨n + 1, hn⟩ h0).trans ?_
      rw [H.zero7]
      refine (pt_cntE m c H ⟨n + 1, hn⟩ 0).trans ?_
      simp only [h0, Nat.zero_add, zero_add, Finset.sum_range_one]
    · refine (later2 m c ⟨n + 1, hn⟩ h0).trans ?_
      have ih : (outsAt0 m c ((⟨n + 1, hn⟩ : Fin cfg0.N).val - 1) (Nat.lt_of_le_of_lt (Nat.sub_le _ _) (⟨n + 1, hn⟩ : Fin cfg0.N).isLt)).2.2.2.2.1 = _ :=
        tot2 n (Nat.lt_of_succ_lt hn)
      rw [ih]
      refine (pt_cntE m c H ⟨n + 1, hn⟩ _).trans ?_
      have hm : (n + 1) % 13 = n % 13 + 1 := by omega
      rw [bat_succ n hn h0]
      simp only [hm]
      rw [Finset.sum_range_succ _ (n % 13 + 1)]

include H in
/-- The running body count after point `n`. -/
theorem tot3 : ∀ (n : ℕ) (hn : n < cfg0.N), (outsAt0 m c n hn).2.2.2.2.2
      = fun _ => (((∑ k ∈ range (n % 13 + 1), gCntB m c (bat ⟨n, hn⟩) k : ℕ) : ℝ) : EReal)
  | 0, hn => by
    refine (first3 m c ⟨0, hn⟩ rfl).trans ?_
    rw [H.zero8]
    refine (pt_cntB m c H ⟨0, hn⟩ 0).trans ?_
    simp only [Nat.zero_mod, Nat.zero_add, zero_add, Finset.sum_range_one]
  | n + 1, hn => by
    by_cases h0 : (n + 1) % 13 = 0
    · refine (first3 m c ⟨n + 1, hn⟩ h0).trans ?_
      rw [H.zero8]
      refine (pt_cntB m c H ⟨n + 1, hn⟩ 0).trans ?_
      simp only [h0, Nat.zero_add, zero_add, Finset.sum_range_one]
    · refine (later3 m c ⟨n + 1, hn⟩ h0).trans ?_
      have ih : (outsAt0 m c ((⟨n + 1, hn⟩ : Fin cfg0.N).val - 1) (Nat.lt_of_le_of_lt (Nat.sub_le _ _) (⟨n + 1, hn⟩ : Fin cfg0.N).isLt)).2.2.2.2.2 = _ :=
        tot3 n (Nat.lt_of_succ_lt hn)
      rw [ih]
      refine (pt_cntB m c H ⟨n + 1, hn⟩ _).trans ?_
      have hm : (n + 1) % 13 = n % 13 + 1 := by omega
      rw [bat_succ n hn h0]
      simp only [hm]
      rw [Finset.sum_range_succ _ (n % 13 + 1)]

/-- A sum over the 13 class indices as the sum over the classes. -/
theorem sum13 {M : Type} [AddCommMonoid M] (f : Fin 13 → M) :
    (∑ k ∈ range 13, (if h : k < 13 then f ⟨k, h⟩ else 0)) = ∑ k : Fin 13, f k := by
  rw [Finset.sum_range]
  exact Finset.sum_congr rfl fun k _ => by rw [dif_pos k.isLt]

include H hS hT in
/-- The edge row written at the last class of a batch: the batch's normalised edge divergence. -/
theorem rowE_val (t : Fin cfg0.N) (h1 : t.val % 13 = 12) :
    (outsAt0 m c t.val t.isLt).1 = fun _ => ((perOf kl edgeM numE (logitsOf A0) (logitsOf A1) (labs m c) (bat t) : ℝ) : EReal) := by
  rw [rowE m c t h1, tot2 m c H t.val t.isLt, tot0 m c A0 A1 H hS hT t.val t.isLt, H.outE]
  simp only [h1]
  have e1 : (∑ k ∈ range (12 + 1), gCntE m c (bat ⟨t.val, t.isLt⟩) k) = numE (labs m c) (bat t) := by
    show (∑ k ∈ range 13, gCntE m c (bat t) k) = numE (labs m c) (bat t)
    unfold gCntE numE
    exact sum13 (fun k => if valid (labs m c) (bat t) k then cntN (edgeM (labs m c) (bat t) k) else 0)
  have e2 : (∑ k ∈ range (12 + 1), gKlE m c A0 A1 (bat ⟨t.val, t.isLt⟩) k) = accOf kl edgeM (logitsOf A0) (logitsOf A1) (labs m c) (bat t) := by
    show (∑ k ∈ range 13, gKlE m c A0 A1 (bat t) k) = accOf kl edgeM (logitsOf A0) (logitsOf A1) (labs m c) (bat t)
    unfold gKlE accOf
    exact sum13 (fun k => if valid (labs m c) (bat t) k then kl (edgeM (labs m c) (bat t) k) (plane (logitsOf A0) (bat t) k) (plane (logitsOf A1) (bat t) k) else 0)
  rw [e1, e2]
  rfl

include H hS hT in
/-- The body row written at the last class of a batch: the batch's normalised body divergence. -/
theorem rowB_val (t : Fin cfg0.N) (h1 : t.val % 13 = 12) :
    (outsAt0 m c t.val t.isLt).2.1 = fun _ => ((perOf kl bodyM numB (logitsOf A0) (logitsOf A1) (labs m c) (bat t) : ℝ) : EReal) := by
  rw [rowB m c t h1, tot3 m c H t.val t.isLt, tot1 m c A0 A1 H hS hT t.val t.isLt, H.outB]
  simp only [h1]
  have e1 : (∑ k ∈ range (12 + 1), gCntB m c (bat ⟨t.val, t.isLt⟩) k) = numB (labs m c) (bat t) := by
    show (∑ k ∈ range 13, gCntB m c (bat t) k) = numB (labs m c) (bat t)
    unfold gCntB numB
    exact sum13 (fun k => if valid (labs m c) (bat t) k then cntN (bodyM (labs m c) (bat t) k) else 0)
  have e2 : (∑ k ∈ range (12 + 1), gKlB m c A0 A1 (bat ⟨t.val, t.isLt⟩) k) = accOf kl bodyM (logitsOf A0) (logitsOf A1) (labs m c) (bat t) := by
    show (∑ k ∈ range 13, gKlB m c A0 A1 (bat t) k) = accOf kl bodyM (logitsOf A0) (logitsOf A1) (labs m c) (bat t)
    unfold gKlB accOf
    exact sum13 (fun k => if valid (labs m c) (bat t) k then kl (bodyM (labs m c) (bat t) k) (plane (logitsOf A0) (bat t) k) (plane (logitsOf A1) (bat t) k) else 0)
  rw [e1, e2]
  rfl

end Cert.KernelIdeal.Acc

end
-- ==== Proof.Consts.lean ====
/-
  The float constants the two programs spell, as the extended reals their patterns denote at the ideal instance.
-/
import Idealize.ShloMosaic.PureOps.Ideal

noncomputable section

namespace Cert.Consts

open Idealize.ShloMosaic

/-- `+0.0` denotes 0. -/
theorem ofBits_zero : Ideal.ofBits .f32 0x00000000#32 = ((0 : ℝ) : EReal) := by
  simp [Ideal.ofBits, Ideal.ieee]

/-- `1.0` denotes 1. -/
theorem ofBits_one : Ideal.ofBits .f32 0x3F800000#32 = ((1 : ℝ) : EReal) := by
  simp [Ideal.ofBits, Ideal.ieee, -EReal.coe_mul]; norm_num

/-- `8.0` denotes 8. -/
theorem ofBits_8 : Ideal.ofBits .f32 0x41000000#32 = ((8 : ℝ) : EReal) := by
  simp [Ideal.ofBits, Ideal.ieee, -EReal.coe_mul]; norm_num

/-- `200.0` denotes 200. -/
theorem ofBits_200 : Ideal.ofBits .f32 0x43480000#32 = ((200 : ℝ) : EReal) := by
  simp [Ideal.ofBits, Ideal.ieee, -EReal.coe_mul]; norm_num

/-- `500.0` denotes 500. -/
theorem ofBits_500 : Ideal.ofBits .f32 0x43FA0000#32 = ((500 : ℝ) : EReal) := by
  simp [Ideal.ofBits, Ideal.ieee, -EReal.coe_mul]; norm_num

/-- `262144.0`, the number of positions of a plane, denotes 262144. -/
theorem ofBits_262144 : Ideal.ofBits .f32 0x48800000#32 = ((262144 : ℝ) : EReal) := by
  simp [Ideal.ofBits, Ideal.ieee, -EReal.coe_mul]; norm_num

/-- The pattern of minus infinity denotes the least extended real. -/
theorem ofBits_neg_inf : Ideal.ofBits .f32 0xFF800000#32 = (⊥ : EReal) := by
  simp [Ideal.ofBits, Ideal.ieee]

end Cert.Consts

end
-- ==== Proof.LibIdealReal.lean ====
/-
  Transfer lemmas on the extended reals for REAL arguments: the idealized operations (exponential, logarithm,
  division, maximum, minimum, finite sums, the fold of a maximum from −∞) applied to coercions of real numbers are
  the coercions of the corresponding real operations. They push a coercion ℝ → EReal through a value built
  from these operations.
-/
import Idealize.ShloMosaic.PureOps.Ideal
import Mathlib

namespace IdealReal

open Idealize.ShloMosaic

/-- The idealized exponential of a real is the real exponential. -/
theorem exp_coe (r : ℝ) : Ideal.exp (r : EReal) = ((Real.exp r : ℝ) : EReal) := rfl

/-- The idealized logarithm of a positive real is the real logarithm. -/
theorem log_coe {r : ℝ} (h : 0 < r) : Ideal.log (r : EReal) = ((Real.log r : ℝ) : EReal) := by
  rw [Ideal.log_coe, if_neg (not_le.mpr h)]

/-- The idealized quotient of a real by a nonzero real is the real quotient. -/
theorem div_coe (r : ℝ) {r' : ℝ} (h : r' ≠ 0) :
    Ideal.div (r : EReal) (r' : EReal) = ((r / r' : ℝ) : EReal) := by
  rw [Ideal.div_coe h, ← EReal.coe_mul, mul_one_div]

/-- The maximum of two reals, in the extended reals. -/
theorem max_coe (r r' : ℝ) : max (r : EReal) (r' : EReal) = ((max r r' : ℝ) : EReal) :=
  (EReal.coe_strictMono.monotone.map_max).symm

/-- The minimum of two reals, in the extended reals. -/
theorem min_coe (r r' : ℝ) : min (r : EReal) (r' : EReal) = ((min r r' : ℝ) : EReal) :=
  (EReal.coe_strictMono.monotone.map_min).symm

/-- The sum of two reals, in the extended reals. -/
theorem add_coe (r r' : ℝ) : (r : EReal) + (r' : EReal) = ((r + r' : ℝ) : EReal) :=
  (EReal.coe_add r r').symm

/-- The difference of two reals, in the extended reals. -/
theorem sub_coe (r r' : ℝ) : (r : EReal) - (r' : EReal) = ((r - r' : ℝ) : EReal) :=
  (EReal.coe_sub r r').symm

/-- The product of two reals, in the extended reals. -/
theorem mul_coe (r r' : ℝ) : (r : EReal) * (r' : EReal) = ((r * r' : ℝ) : EReal) :=
  (EReal.coe_mul r r').symm

/-- The opposite of a real, in the extended reals. -/
theorem neg_coe (r : ℝ) : -(r : EReal) = ((-r : ℝ) : EReal) :=
  (EReal.coe_neg r).symm

/-- A finite sum of reals, in the extended reals. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The real zero is neutral on the left for the addition of the extended reals. -/
theorem coe_zero_add (x : EReal) : ((0 : ℝ) : EReal) + x = x := by
  rw [EReal.coe_zero, zero_add]

/-- The real zero is neutral on the right for the addition of the extended reals. -/
theorem add_coe_zero (x : EReal) : x + ((0 : ℝ) : EReal) = x := by
  rw [EReal.coe_zero, add_zero]

/-- The fold of the maximum from −∞ over a NONEMPTY finite set of reals is the real supremum. -/
theorem fold_max_bot_coe {ι : Type*} (s : Finset ι) (hs : s.Nonempty) (f : ι → ℝ) :
    s.fold max (⊥ : EReal) (fun i => ((f i : ℝ) : EReal)) = ((s.sup' hs f : ℝ) : EReal) := by
  classical
  induction hs using Finset.Nonempty.cons_induction with
  | singleton a => simp
  | cons a s ha hs ih =>
    rw [Finset.fold_cons, ih, Finset.sup'_cons hs, max_coe]

/-- The fold of the maximum from −∞ over a nonempty finite index type of reals: the real supremum. -/
theorem fold_max_bot_univ_coe {ι : Type*} [Fintype ι] [Nonempty ι] (f : ι → ℝ) :
    Finset.univ.fold max (⊥ : EReal) (fun i => ((f i : ℝ) : EReal))
      = ((Finset.univ.sup' Finset.univ_nonempty f : ℝ) : EReal) :=
  fold_max_bot_coe Finset.univ Finset.univ_nonempty f

/-- The fold of the maximum from −∞ over a nonempty finite index type of reals is (the coercion of) a real. -/
theorem exists_fold_max_bot_univ_coe {ι : Type*} [Fintype ι] [Nonempty ι] (f : ι → ℝ) :
    ∃ a : ℝ, Finset.univ.fold max (⊥ : EReal) (fun i => ((f i : ℝ) : EReal)) = (a : EReal) :=
  ⟨_, fold_max_bot_univ_coe f⟩

/-- The fold of the minimum from +∞ over a NONEMPTY finite set of reals is the real infimum. -/
theorem fold_min_top_coe {ι : Type*} (s : Finset ι) (hs : s.Nonempty) (f : ι → ℝ) :
    s.fold min (⊤ : EReal) (fun i => ((f i : ℝ) : EReal)) = ((s.inf' hs f : ℝ) : EReal) := by
  classical
  induction hs using Finset.Nonempty.cons_induction with
  | singleton a => simp
  | cons a s ha hs ih =>
    rw [Finset.fold_cons, ih, Finset.inf'_cons hs, min_coe]

end IdealReal
-- ==== Proof.KerFinal.lean ====
/-
  The two result arrays of the kernel's region, and the two numbers the lines after it compute from them. Row block
  `b` of each [8, 8, 128] array is written once, at the last class of batch `b`, with the batch's normalised divergence
  in every position; the eight blocks tile the array. The lines after the region take position (b, 0, 0) of each, sum
  over the batches from 0, multiply by the weight and divide by 8: the loss of the specification.
-/
import proofs.«177475_j24979529793864_2_alg».proof.Proof.KerAcc
import proofs.«177475_j24979529793864_2_alg».proof.Proof.Consts
import proofs.«177475_j24979529793864_2_alg».proof.Proof.LibIdealReal
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks Cert.KernelIdeal.Acc Cert.Spec Cert.KerLaws Finset

variable (m : (ℓ : Loc nD τ sig) → Buf (Elt Ideal) ℓ) (ρ : Dev nD → PrngReg) (c : Dev nD) (A0 A1 : SLog.Idx → ℝ)

/-- The block index of the two output windows at a point: the batch. -/
theorem idx_facts3 : ∀ t : Fin grid0.N, win0_3.index t 0 = t.val / 13 ∧ win0_3.index t 1 = 0 ∧ win0_3.index t 2 = 0
    ∧ win0_4.index t 0 = t.val / 13 ∧ win0_4.index t 1 = 0 ∧ win0_4.index t 2 = 0 := by
  decide +kernel

/-- The edge array after the region: the batch's normalised edge divergence in every position of its block. -/
def arrE : Buf (Elt Ideal) ((c.tc : Thread nD τ).loc main_v0_0) :=
  fun j => ((perOf kl edgeM numE (logitsOf A0) (logitsOf A1) (labs m c) (j 0) : ℝ) : EReal)

/-- The body array after the region. -/
def arrB : Buf (Elt Ideal) ((c.tc : Thread nD τ).loc main_v0_1) :=
  fun j => ((perOf kl bodyM numB (logitsOf A0) (logitsOf A1) (labs m c) (j 0) : ℝ) : EReal)

variable (H : PointLaws)
  (hS : ∀ j, m ((c.tc : Thread nD τ).loc main_arg0) j = ((A0 j : ℝ) : EReal))
  (hT : ∀ j, m ((c.tc : Thread nD τ).loc main_arg1) j = ((A1 j : ℝ) : EReal))

include H hS hT in
/-- What the last class of a batch writes back is the batch's block of the edge array. -/
theorem flushedE (t : Fin cfg0.N) (hf : (cfg0.win 3).flush t = true) :
    (dats m 0 c).flushed 3 t = ((cfg0.win 3).blk t).view.read (Elt Ideal) (arrE m c A0 A1) := by
  have h1 : t.val % 13 = 12 := (flush0_3 t).mp hf
  show (cfg0.win 3).cut (grid0.coords t) ((dats m 0 c).after 3 t) = _
  rw [after0_3, rowE_val m c A0 A1 H hS hT t h1]
  funext j
  rw [View.read_apply]
  show ((perOf kl edgeM numE (logitsOf A0) (logitsOf A1) (labs m c) (bat t) : ℝ) : EReal) = arrE m c A0 A1 (((cfg0.win 3).blk t).view.emb j)
  unfold arrE
  have hb : bat t = (((cfg0.win 3).blk t).view.emb j) 0 := by
    apply Fin.ext
    show t.val / 13 = win0_3.index t 0 * 1 + 1 * (j 0).val
    have hj : (j 0).val < 1 := (j 0).isLt
    rw [(idx_facts3 t).1]; omega
  rw [hb]

include H hS hT in
/-- What the last class of a batch writes back is the batch's block of the body array. -/
theorem flushedB (t : Fin cfg0.N) (hf : (cfg0.win 4).flush t = true) :
    (dats m 0 c).flushed 4 t = ((cfg0.win 4).blk t).view.read (Elt Ideal) (arrB m c A0 A1) := by
  have h1 : t.val % 13 = 12 := (flush0_4 t).mp hf
  show (cfg0.win 4).cut (grid0.coords t) ((dats m 0 c).after 4 t) = _
  rw [after0_4, rowB_val m c A0 A1 H hS hT t h1]
  funext j
  rw [View.read_apply]
  show ((perOf kl bodyM numB (logitsOf A0) (logitsOf A1) (labs m c) (bat t) : ℝ) : EReal) = arrB m c A0 A1 (((cfg0.win 4).blk t).view.emb j)
  unfold arrB
  have hb : bat t = (((cfg0.win 4).blk t).view.emb j) 0 := by
    apply Fin.ext
    show t.val / 13 = win0_4.index t 0 * 1 + 1 * (j 0).val
    have hj : (j 0).val < 1 := (j 0).isLt
    rw [(idx_facts3 t).2.2.2.1]; omega
  rw [hb]

/-- The last point of batch `b`. -/
def lastPt (b : ℕ) (hb : b < 8) : Fin cfg0.N := ⟨13 * b + 12, by have h : cfg0.N = 104 := N_0; omega⟩

/-- Every position of the edge array is in the block of its batch's last point. -/
theorem coverE (i : S8x8x128.Idx) :
    ∃ t : Fin cfg0.N, (cfg0.win 3).flush t = true ∧ i ∈ ((cfg0.win 3).blk t).view.set := by
  have hi0 : (i 0).val < 8 := (i 0).isLt
  have hi1 : (i 1).val < 8 := (i 1).isLt
  have hi2 : (i 2).val < 128 := (i 2).isLt
  refine ⟨lastPt (i 0).val hi0, (flush0_3 _).mpr (by show (13 * (i 0).val + 12) % 13 = 12; omega), ?_⟩
  show i ∈ ((View.whole main_v0_0).slice (win0_3.rect (lastPt (i 0).val hi0))).set
  rw [View.set_slice_whole, Rect.mem_set_unit]
  obtain ⟨e0, e1, e2, -, -, -⟩ := idx_facts3 (lastPt (i 0).val hi0)
  have ev : (lastPt (i 0).val hi0).val = 13 * (i 0).val + 12 := rfl
  intro a
  match a with
  | ⟨0, _⟩ =>
    show win0_3.index (lastPt (i 0).val hi0) 0 * 1 ≤ (i 0).val ∧ (i 0).val < win0_3.index (lastPt (i 0).val hi0) 0 * 1 + 1
    rw [e0, ev]; omega
  | ⟨1, _⟩ =>
    show win0_3.index (lastPt (i 0).val hi0) 1 * 8 ≤ (i 1).val ∧ (i 1).val < win0_3.index (lastPt (i 0).val hi0) 1 * 8 + 8
    rw [e1]; omega
  | ⟨2, _⟩ =>
    show win0_3.index (lastPt (i 0).val hi0) 2 * 128 ≤ (i 2).val ∧ (i 2).val < win0_3.index (lastPt (i 0).val hi0) 2 * 128 + 128
    rw [e2]; omega

/-- Every position of the body array is in the block of its batch's last point. -/
theorem coverB (i : S8x8x128.Idx) :
    ∃ t : Fin cfg0.N, (cfg0.win 4).flush t = true ∧ i ∈ ((cfg0.win 4).blk t).view.set := by
  have hi0 : (i 0).val < 8 := (i 0).isLt
  have hi1 : (i 1).val < 8 := (i 1).isLt
  have hi2 : (i 2).val < 128 := (i 2).isLt
  refine ⟨lastPt (i 0).val hi0, (flush0_4 _).mpr (by show (13 * (i 0).val + 12) % 13 = 12; omega), ?_⟩
  show i ∈ ((View.whole main_v0_1).slice (win0_4.rect (lastPt (i 0).val hi0))).set
  rw [View.set_slice_whole, Rect.mem_set_unit]
  obtain ⟨-, -, -, e0, e1, e2⟩ := idx_facts3 (lastPt (i 0).val hi0)
  have ev : (lastPt (i 0).val hi0).val = 13 * (i 0).val + 12 := rfl
  intro a
  match a with
  | ⟨0, _⟩ =>
    show win0_4.index (lastPt (i 0).val hi0) 0 * 1 ≤ (i 0).val ∧ (i 0).val < win0_4.index (lastPt (i 0).val hi0) 0 * 1 + 1
    rw [e0, ev]; omega
  | ⟨1, _⟩ =>
    show win0_4.index (lastPt (i 0).val hi0) 1 * 8 ≤ (i 1).val ∧ (i 1).val < win0_4.index (lastPt (i 0).val hi0) 1 * 8 + 8
    rw [e1]; omega
  | ⟨2, _⟩ =>
    show win0_4.index (lastPt (i 0).val hi0) 2 * 128 ≤ (i 2).val ∧ (i 2).val < win0_4.index (lastPt (i 0).val hi0) 2 * 128 + 128
    rw [e2]; omega

include H hS hT in
/-- The edge array after the region. -/
theorem finalE : (dats m 0 c).arrAt 3 cfg0.N = arrE m c A0 A1 :=
  (dats m 0 c).arrAt_eq_of_cover 3 (arrE m c A0 A1) (fun t hf => flushedE m c A0 A1 H hS hT t hf) coverE

include H hS hT in
/-- The body array after the region. -/
theorem finalB : (dats m 0 c).arrAt 4 cfg0.N = arrB m c A0 A1 :=
  (dats m 0 c).arrAt_eq_of_cover 4 (arrB m c A0 A1) (fun t hf => flushedB m c A0 A1 H hS hT t hf) coverB

end Cert.KernelIdeal.Final

end
-- ==== Proof.KerTail.lean ====
/-
  The lines after the region: from the two result arrays to the two losses. Position (b, 0, 0) of a result array is
  the batch's normalised divergence; the sum over the eight batches from 0, times the weight, divided by 8, is the
  loss of the specification — every step on real numbers.
-/
import proofs.«177475_j24979529793864_2_alg».proof.Proof.KerFinal

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Tail

open Cert.KernelIdeal Cert.KernelIdeal.Gen Cert.KernelIdeal.Blocks Cert.KernelIdeal.Acc Cert.KernelIdeal.Final Cert.Spec Cert.KerLaws Finset

/-- A sum over the index set of a vector as the sum over its one coordinate. -/
theorem sum_idx1 {M : Type} [AddCommMonoid M] {n : ℕ} (f : (⟨1, ![n]⟩ : Shape).Idx → M) :
    ∑ i, f i = ∑ k : Fin n, f (ix1 k) :=
  Fintype.sum_equiv ⟨fun i => i 0, ix1, fun i => (eq_ix1 i).symm, fun _ => rfl⟩ _ _ fun i => congrArg f (eq_ix1 i)

/-- Position (b, 0, 0) of a [8, 8, 128] array, sliced out and flattened to a vector of 8. -/
theorem firstOf_apply (G : S8x8x128.Idx → EReal) (h1 : S8x8x128.Slices ![0, 0, 0] S8x1x1) (h2 : S8x1x1.ShapeCasts S8) (b : Fin 8) :
    shapeCast S8 (extractStridedSlice S8x1x1 ![0, 0, 0] G h1) h2 (ix1 b) = G (ix3 b 0 0) := by
  rw [shapeCast_apply _ h2 (ix1 b) (ix3 b 0 0) (by rw [Shape.rowMajor_val_three, Shape.rowMajor_val_one]; show (b.val * 1 + 0) * 1 + 0 = b.val; omega)]
  unfold extractStridedSlice
  refine congrArg G (funext fun a => Fin.ext ?_)
  match a with
  | ⟨0, _⟩ => show 0 + b.val = b.val; omega
  | ⟨1, _⟩ => rfl
  | ⟨2, _⟩ => rfl

/-- The lines after the region on an array whose block `b` holds the real number `p b` everywhere: the weight times the
    sum over the batches, divided by 8. -/
theorem tail_value (w : BitVec 32) (wr : ℝ) (hw : Ideal.ofBits .f32 w = ((wr : ℝ) : EReal)) (p : Fin 8 → ℝ)
    (G : S8x8x128.Idx → EReal) (hG : ∀ j, G j = ((p (j 0) : ℝ) : EReal))
    (h1 : S8x8x128.Slices ![0, 0, 0] S8x1x1) (h2 : S8x1x1.ShapeCasts S8) (h3 : S8.ReducesTo [0] S_) (h4 : 0 < S_.numel) :
    Host.divf (F := Ideal) (mulf (constant S_ .f32 w)
        (Host.reduceAdd (shapeCast S8 (extractStridedSlice S8x1x1 ![0, 0, 0] G h1) h2) (constant S_ .f32 0x00000000#32) h3 h4))
      (constant S_ .f32 0x41000000#32)
    = fun _ => ((wr * (∑ b : Fin 8, p b) / 8 : ℝ) : EReal) := by
  funext x
  simp only [Host.divf, mulf, constant, Host.reduceAdd, Ideal.hostDivf_def, Ideal.mulf_def, Ideal.ofBits_def, Ideal.hostReduceAdd_def]
  rw [Ideal.hostReduceAdd_total h3 (fun b => b.elim0), sum_idx1]
  simp only [firstOf_apply, hG]
  rw [hw, Cert.Consts.ofBits_8, Cert.Consts.ofBits_zero, IdealReal.sum_coe, IdealReal.coe_zero_add, IdealReal.mul_coe,
    IdealReal.div_coe _ (by norm_num : (8 : ℝ) ≠ 0)]

variable (m : (ℓ : Loc nD τ sig) → Buf (Elt Ideal) ℓ) (ρ : Dev nD → PrngReg) (c : Dev nD) (A0 A1 : SLog.Idx → ℝ)
variable (H : PointLaws)
  (hS : ∀ j, m ((c.tc : Thread nD τ).loc main_arg0) j = ((A0 j : ℝ) : EReal))
  (hT : ∀ j, m ((c.tc : Thread nD τ).loc main_arg1) j = ((A1 j : ℝ) : EReal))

include H hS hT in
/-- The first result: the edge loss. -/
theorem tail_v7 : Pipeline.afterTail₀ cfgs (dats m) 0 (V0 m) [hostOps1] c main_v7
    = fun _ => ((lossOf 500 kl edgeM numE (logitsOf A0) (logitsOf A1) (labs m c) : ℝ) : EReal) := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.tc.devRef main_v0_0) = arrE m c A0 A1 :=
    (Pipeline.withArrays_arr spec0 launch0.win.arr_inj c _ _ 3).trans (finalE m c A0 A1 H hS hT)
  rw [hw]
  exact tail_value 0x43FA0000#32 500 Cert.Consts.ofBits_500 (fun b => perOf kl edgeM numE (logitsOf A0) (logitsOf A1) (labs m c) b)
    (arrE m c A0 A1) (fun j => rfl) _ _ _ _

include H hS hT in
/-- The second result: the body loss. -/
theorem tail_v10 : Pipeline.afterTail₀ cfgs (dats m) 0 (V0 m) [hostOps1] c main_v10
    = fun _ => ((lossOf 200 kl bodyM numB (logitsOf A0) (logitsOf A1) (labs m c) : ℝ) : EReal) := by
  unfold Pipeline.afterTail₀
  show StableHlo.after hostOps1 _ (Proc.devRef .tc main_v10) = _
  after_results
  have hw : Pipeline.withArrays (cfgs 0).spec c (V0 m c) (fun w => (dats m 0 c).arrAt w (cfgs 0).N) (Proc.tc.devRef main_v0_1) = arrB m c A0 A1 :=
    (Pipeline.withArrays_arr spec0 launch0.win.arr_inj c _ _ 4).trans (finalB m c A0 A1 H hS hT)
  rw [hw]
  exact tail_value 0x43480000#32 200 Cert.Consts.ofBits_200 (fun b => perOf kl bodyM numB (logitsOf A0) (logitsOf A1) (labs m c) b)
    (arrB m c A0 A1) (fun j => rfl) _ _ _ _

end Cert.KernelIdeal.Tail

end
-- ==== Proof.KerRun.lean ====
/-
  The kernel's run at the ideal instance with its two results named: under real-valued logit arrays every weakly fair
  execution terminates with the first result at the edge loss of the specification, the second at the body loss, and
  the three argument arrays unchanged.
-/
import proofs.«177475_j24979529793864_2_alg».proof.Proof.KerTail

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.KernelIdeal.Acc Cert.KernelIdeal.Tail Cert.Spec Cert.KerLaws

variable (m : (ℓ : Loc nD τ sig) → Buf (Elt Ideal) ℓ) (ρ : Dev nD → PrngReg)

/-- The kernel's run, read. -/
theorem run (H : PointLaws) (A0 A1 : Dev nD → SLog.Idx → ℝ)
    (hS : ∀ (c : Dev nD) j, m ((c.tc : Thread nD τ).loc main_arg0) j = ((A0 c j : ℝ) : EReal))
    (hT : ∀ (c : Dev nD) j, m ((c.tc : Thread nD τ).loc main_arg1) j = ((A1 c j : ℝ) : EReal)) :
    θ_run defs (onTc (τ := τ) (main (F := Ideal))) ⟨m, fun _ => 0, ρ⟩ fun r => ∀ c : Dev nD,
      r.2.mem ((c.tc : Thread nD τ).loc main_v7)
          = (fun _ => ((lossOf 500 kl edgeM numE (logitsOf (A0 c)) (logitsOf (A1 c)) (labs m c) : ℝ) : EReal))
      ∧ r.2.mem ((c.tc : Thread nD τ).loc main_v10)
          = (fun _ => ((lossOf 200 kl bodyM numB (logitsOf (A0 c)) (logitsOf (A1 c)) (labs m c) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 rfl (by decide))).trans (tail_v7 m c (A0 c) (A1 c) H (hS c) (hT c)),
      ((h c).2 main_v10 (Pipeline.mem_restRefs_of main_v10 rfl (by decide))).trans (tail_v10 m c (A0 c) (A1 c) H (hS c) (hT c)),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 0).trans (((dats m 0 c).arrAt_in 0 rfl _).trans ((A_eq m c 0).trans (V_main_arg2 m c)))⟩)
    (run_main m ρ)

end Cert.KernelIdeal.Run

end
-- ==== Proof.KerBasics.lean ====
/-
  The vocabulary of the body's arithmetic at the ideal instance: the one index of a `[1, 1]` value, the float constants
  as reals, the elementwise operations on constant vectors of reals (a sum of coercions is the coercion of the sum, and
  so on), the two-step sum and the two-step maximum of a 512 × 512 plane of reals (each row over its lanes, then the
  column of row values) as the sum and the maximum over the positions, the rows written at the last class of a batch,
  and the zeros a batch restarts from.
-/
import proofs.«177475_j24979529793864_2_alg».proof.Proof.KerTerms
import proofs.«177475_j24979529793864_2_alg».proof.Proof.LibIdealReal
import proofs.«177475_j24979529793864_2_alg».proof.Proof.Consts
import Idealize.ShloMosaic.Lib.ValueLayout
import Idealize.ShloMosaic.PureOps.Ideal.Laws

set_option synthInstance.maxSize 4096

noncomputable section

namespace Cert.KerPoint

open Idealize.ShloMosaic Idealize.SL.Sem Cert.KernelIdeal Cert.KernelIdeal.Gen Cert.KernelIdeal.Terms
open Idealize.ShloMosaic.ValueIdx

/-- The shape `[1, 1]` has one index. -/
theorem idx11_eq (j k : S1x1.Idx) : j = k := by
  funext a
  match a with
  | ⟨0, _⟩ => exact (Subsingleton.elim (α := Fin 1) _ _)
  | ⟨1, _⟩ => exact (Subsingleton.elim (α := Fin 1) _ _)

/-- A `[1, 1]` value cast, broadcast to `[8, 128]` and cast to `[1, 8, 128]` reads its one element everywhere. -/
theorem read_row {α : Type} (x : S1x1.Idx → α) (j : S1x8x128.Idx) (k : S1x1.Idx) :
    shapeCast S1x8x128 (broadcastTo S8x128 (shapeCast S1x1 x shapeCasts_S1x1_S1x1) broadcasts_S1x1_S8x128)
      shapeCasts_S8x128_S1x8x128 j = x k := by
  unfold shapeCast broadcastTo
  exact congrArg x (idx11_eq _ _)

/-- A `[1, 1]` value cast to `[1, 1]` is itself. -/
theorem cast11 {α : Type} (x : S1x1.Idx → α) : shapeCast S1x1 x shapeCasts_S1x1_S1x1 = x := by
  funext j
  unfold shapeCast
  exact congrArg x (idx11_eq _ _)

/-- A select on a decided condition is the `if`. -/
theorem select_ite {α : Type} (p : Prop) [Decidable p] (a b : α) :
    Scalar.select (if p then 1#1 else 0#1) a b = if p then a else b := by
  by_cases h : p
  · rw [if_pos h, if_pos h]; exact select_one a b
  · rw [if_neg h, if_neg h]; exact select_zero a b

/-- The comparison "greater than" of two reals at the ideal instance. -/
theorem cmpf_ogt_coe (x y : ℝ) :
    FloatOps.cmpf (F := Ideal) (φ := .f32) .ogt ((x : ℝ) : EReal) ((y : ℝ) : EReal)
      = if y < x then 1#1 else 0#1 := by
  rw [Ideal.cmpf_def]
  unfold Ideal.cmp
  by_cases h : y < x
  · rw [if_pos h]
    have : ((y : ℝ) : EReal) < ((x : ℝ) : EReal) := EReal.coe_lt_coe_iff.mpr h
    simp only [this, decide_true]; rfl
  · rw [if_neg h]
    have : ¬ ((y : ℝ) : EReal) < ((x : ℝ) : EReal) := fun h' => h (EReal.coe_lt_coe_iff.mp h')
    simp only [this, decide_false]; rfl

/-- The word of the float zero is the real zero. -/
theorem ofBits_zero : FloatOps.ofBits (F := Ideal) .f32 0x00000000#32 = ((0 : ℝ) : EReal) := by
  rw [Ideal.ofBits_def, Cert.Consts.ofBits_zero]

/-- The word of the float one is the real one. -/
theorem ofBits_one : FloatOps.ofBits (F := Ideal) .f32 0x3F800000#32 = ((1 : ℝ) : EReal) := by
  rw [Ideal.ofBits_def, Cert.Consts.ofBits_one]

/-- The word of the number of positions of a plane. -/
theorem ofBits_card : FloatOps.ofBits (F := Ideal) .f32 0x48800000#32 = ((262144 : ℝ) : EReal) := by
  rw [Ideal.ofBits_def, Cert.Consts.ofBits_262144]

/-! ## The elementwise operations on constant vectors of reals -/

section ConstOps
variable {s : Shape}

/-- A broadcast scalar is the constant vector. -/
theorem broadcast_eq {α : Type} (c : α) : broadcast s c = fun _ => c := rfl

theorem addf_const (x y : ℝ) :
    addf (F := Ideal) (φ := .f32) (fun _ : s.Idx => ((x : ℝ) : EReal)) (fun _ => ((y : ℝ) : EReal))
      = fun _ => ((x + y : ℝ) : EReal) := by
  funext j; rw [addf_apply]; exact IdealReal.add_coe x y

theorem subf_const (x y : ℝ) :
    subf (F := Ideal) (φ := .f32) (fun _ : s.Idx => ((x : ℝ) : EReal)) (fun _ => ((y : ℝ) : EReal))
      = fun _ => ((x - y : ℝ) : EReal) := by
  funext j; rw [subf_apply]; exact IdealReal.sub_coe x y

theorem mulf_const (x y : ℝ) :
    mulf (F := Ideal) (φ := .f32) (fun _ : s.Idx => ((x : ℝ) : EReal)) (fun _ => ((y : ℝ) : EReal))
      = fun _ => ((x * y : ℝ) : EReal) := by
  funext j; rw [mulf_apply]; exact IdealReal.mul_coe x y

theorem divf_const (x : ℝ) {y : ℝ} (hy : y ≠ 0) :
    divf (F := Ideal) (φ := .f32) (fun _ : s.Idx => ((x : ℝ) : EReal)) (fun _ => ((y : ℝ) : EReal))
      = fun _ => ((x / y : ℝ) : EReal) := by
  funext j; rw [divf_apply]; exact IdealReal.div_coe x hy

theorem maximumf_const (x y : ℝ) :
    maximumf (F := Ideal) (φ := .f32) (fun _ : s.Idx => ((x : ℝ) : EReal)) (fun _ => ((y : ℝ) : EReal))
      = fun _ => ((max x y : ℝ) : EReal) := by
  funext j; rw [maximumf_apply]; exact IdealReal.max_coe x y

theorem exp_const (x : ℝ) :
    exp (F := Ideal) (φ := .f32) (fun _ : s.Idx => ((x : ℝ) : EReal)) = fun _ => ((Real.exp x : ℝ) : EReal) := by
  funext j; exact IdealReal.exp_coe x

theorem log_const {x : ℝ} (hx : 0 < x) :
    log (F := Ideal) (φ := .f32) (fun _ : s.Idx => ((x : ℝ) : EReal)) = fun _ => ((Real.log x : ℝ) : EReal) := by
  funext j; exact IdealReal.log_coe hx

/-- The comparison "greater than zero" of a constant vector of reals. -/
theorem cmpf_ogt_const (x y : ℝ) :
    cmpf (F := Ideal) (φ := .f32) .ogt (fun _ : s.Idx => ((x : ℝ) : EReal)) (fun _ => ((y : ℝ) : EReal))
      = fun _ => if y < x then 1#1 else 0#1 := by
  funext j; rw [cmpf_apply]; exact cmpf_ogt_coe x y

/-- A select between constant vectors on a constant decided condition. -/
theorem select_const {α : Type} (p : Prop) [Decidable p] (a b : α) :
    select (fun _ : s.Idx => if p then 1#1 else 0#1) (fun _ => a) (fun _ => b) = fun _ => if p then a else b := by
  funext j; rw [select_apply]; exact select_ite p a b

end ConstOps

/-! ## The two-step reductions -/

/-- The index over row `j` with lane `q` inserted. -/
theorem lift_lane (j : S512.Idx) (q : Fin 512) : reduces_S512x512_S512.lift j q = ix2 (j 0) q := by
  funext c
  match c with
  | ⟨0, _⟩ => exact Fin.ext rfl
  | ⟨1, _⟩ => exact Fin.ext rfl

/-- The index of the column of row values with row `r` inserted. -/
theorem lift_row (j : S1.Idx) (r : Fin 512) : reduces_S512x1_S1.lift j r = ix2 r (0 : Fin 1) := by
  funext c
  match c with
  | ⟨0, _⟩ => exact Fin.ext rfl
  | ⟨1, _⟩ => exact (Subsingleton.elim (α := Fin 1) _ _)

/-- A vector of row values cast to a column reads the row's value. -/
theorem castCol_apply {α : Type} (v : S512.Idx → α) (r : Fin 512) (u : Fin 1) :
    shapeCast S512x1 v shapeCasts_S512_S512x1 (ix2 r u) = v (ix1 r) :=
  shapeCast_apply v shapeCasts_S512_S512x1 _ _ (by
    have hu : u.val = 0 := by omega
    rw [Shape.rowMajor_val_two, Shape.rowMajor_val_one]
    show r.val = r.val * 1 + u.val
    omega)

/-- A one-element vector cast to `[1, 1]` reads its element. -/
theorem cast1_apply {α : Type} (v : S1.Idx → α) (j : S1x1.Idx) :
    shapeCast S1x1 v shapeCasts_S1_S1x1 j = v (ix1 (0 : Fin 1)) := by
  unfold shapeCast
  refine congrArg v ?_
  funext c
  match c with
  | ⟨0, _⟩ => exact (Subsingleton.elim (α := Fin 1) _ _)

/-- The lane sums of a plane, read at a row. -/
theorem laneSum_apply (g : FVec Ideal S512x512 .f32) (j : S512.Idx) :
    multiReduction (F := Ideal) .add [1] S512 g 0x00000000#32 reduces_S512x512_S512 (.inl rfl) rfl j
      = ∑ q : Fin 512, g (ix2 (j 0) q) := by
  refine (Ideal.multiReduction_add_single g 0x00000000#32 reduces_S512x512_S512 (.inl rfl) rfl j).trans ?_
  show (∑ q : Fin 512, g (reduces_S512x512_S512.lift j q)) = _
  exact Finset.sum_congr rfl fun q _ => congrArg g (lift_lane j q)

/-- The sum of a column of row values. -/
theorem rowSum_apply (v : FVec Ideal S512x1 .f32) (j : S1.Idx) :
    multiReduction (F := Ideal) .add [0] S1 v 0x00000000#32 reduces_S512x1_S1 (.inl rfl) rfl j
      = ∑ r : Fin 512, v (ix2 r (0 : Fin 1)) := by
  refine (Ideal.multiReduction_add_single v 0x00000000#32 reduces_S512x1_S1 (.inl rfl) rfl j).trans ?_
  show (∑ r : Fin 512, v (reduces_S512x1_S1.lift j r)) = _
  exact Finset.sum_congr rfl fun r _ => congrArg v (lift_row j r)

/-- The kernel's two-step sum of a plane: each row over its lanes, then the column of row sums. -/
def twoSum (g : FVec Ideal S512x512 .f32) : FVec Ideal S1x1 .f32 :=
  shapeCast S1x1
    (multiReduction (F := Ideal) .add [0] S1
      (shapeCast S512x1
        (multiReduction (F := Ideal) .add [1] S512 g 0x00000000#32 reduces_S512x512_S512 (.inl rfl) rfl)
        shapeCasts_S512_S512x1)
      0x00000000#32 reduces_S512x1_S1 (.inl rfl) rfl)
    shapeCasts_S1_S1x1

/-- The two-step sum of a plane of reals is the sum over the positions. -/
theorem twoSum_coe (g : FVec Ideal S512x512 .f32) (f : Fin 512 × Fin 512 → ℝ)
    (hg : ∀ r q : Fin 512, g (ix2 r q) = ((f (r, q) : ℝ) : EReal)) :
    twoSum g = fun _ => ((∑ p : Fin 512 × Fin 512, f p : ℝ) : EReal) := by
  funext j
  unfold twoSum
  rw [cast1_apply, rowSum_apply]
  have hrow : ∀ r : Fin 512,
      shapeCast S512x1
        (multiReduction (F := Ideal) .add [1] S512 g 0x00000000#32 reduces_S512x512_S512 (.inl rfl) rfl)
        shapeCasts_S512_S512x1 (ix2 r (0 : Fin 1)) = ((∑ q : Fin 512, f (r, q) : ℝ) : EReal) := by
    intro r
    rw [castCol_apply, laneSum_apply, ← IdealReal.sum_coe]
    exact Finset.sum_congr rfl fun q _ => hg r q
  rw [Fintype.sum_prod_type, ← IdealReal.sum_coe]
  exact Finset.sum_congr rfl fun r _ => hrow r

/-- The index over row `j` with lane `q` inserted, for the maximum's fold. -/
theorem laneMax_apply (g : FVec Ideal S512x512 .f32) (j : S512.Idx) :
    multiReduction (F := Ideal) .maximumf [1] S512 g 0xFF800000#32 reduces_S512x512_S512 (.inl rfl) rfl j
      = (Finset.univ : Finset (Fin 512)).fold max (⊥ : EReal) (fun q => g (ix2 (j 0) q)) := by
  refine (Ideal.multiReduction_maximumf_single g 0xFF800000#32 reduces_S512x512_S512 (.inl rfl) rfl j).trans ?_
  rw [Ideal.ofBits_def, Cert.Consts.ofBits_neg_inf]
  show (Finset.univ : Finset (Fin 512)).fold max (⊥ : EReal) (fun q => g (reduces_S512x512_S512.lift j q)) = _
  exact congrArg (fun h => (Finset.univ : Finset (Fin 512)).fold max (⊥ : EReal) h) (funext fun q => congrArg g (lift_lane j q))

/-- The maximum of a column of row values. -/
theorem rowMax_apply (v : FVec Ideal S512x1 .f32) (j : S1.Idx) :
    multiReduction (F := Ideal) .maximumf [0] S1 v 0xFF800000#32 reduces_S512x1_S1 (.inl rfl) rfl j
      = (Finset.univ : Finset (Fin 512)).fold max (⊥ : EReal) (fun r => v (ix2 r (0 : Fin 1))) := by
  refine (Ideal.multiReduction_maximumf_single v 0xFF800000#32 reduces_S512x1_S1 (.inl rfl) rfl j).trans ?_
  rw [Ideal.ofBits_def, Cert.Consts.ofBits_neg_inf]
  show (Finset.univ : Finset (Fin 512)).fold max (⊥ : EReal) (fun r => v (reduces_S512x1_S1.lift j r)) = _
  exact congrArg (fun h => (Finset.univ : Finset (Fin 512)).fold max (⊥ : EReal) h) (funext fun r => congrArg v (lift_row j r))

/-- The kernel's two-step maximum of a plane, from minus infinity. -/
def twoMax (g : FVec Ideal S512x512 .f32) : FVec Ideal S1x1 .f32 :=
  shapeCast S1x1
    (multiReduction (F := Ideal) .maximumf [0] S1
      (shapeCast S512x1
        (multiReduction (F := Ideal) .maximumf [1] S512 g 0xFF800000#32 reduces_S512x512_S512 (.inl rfl) rfl)
        shapeCasts_S512_S512x1)
      0xFF800000#32 reduces_S512x1_S1 (.inl rfl) rfl)
    shapeCasts_S1_S1x1

/-- The two-step maximum of a plane of reals is the maximum over the positions. -/
theorem twoMax_coe (g : FVec Ideal S512x512 .f32) (f : Fin 512 × Fin 512 → ℝ)
    (hg : ∀ r q : Fin 512, g (ix2 r q) = ((f (r, q) : ℝ) : EReal)) :
    twoMax g = fun _ => ((Finset.univ.sup' Finset.univ_nonempty f : ℝ) : EReal) := by
  funext j
  unfold twoMax
  rw [cast1_apply, rowMax_apply]
  have hrow : ∀ r : Fin 512,
      shapeCast S512x1
        (multiReduction (F := Ideal) .maximumf [1] S512 g 0xFF800000#32 reduces_S512x512_S512 (.inl rfl) rfl)
        shapeCasts_S512_S512x1 (ix2 r (0 : Fin 1))
        = ((Finset.univ.sup' Finset.univ_nonempty (fun q : Fin 512 => f (r, q)) : ℝ) : EReal) := by
    intro r
    rw [castCol_apply, laneMax_apply, ← IdealReal.fold_max_bot_univ_coe]
    exact congrArg (fun h => (Finset.univ : Finset (Fin 512)).fold max (⊥ : EReal) h) (funext fun q => hg r q)
  rw [show (fun r : Fin 512 => shapeCast S512x1
        (multiReduction (F := Ideal) .maximumf [1] S512 g 0xFF800000#32 reduces_S512x512_S512 (.inl rfl) rfl)
        shapeCasts_S512_S512x1 (ix2 r (0 : Fin 1)))
      = fun r : Fin 512 => ((Finset.univ.sup' Finset.univ_nonempty (fun q : Fin 512 => f (r, q)) : ℝ) : EReal)
      from funext hrow, IdealReal.fold_max_bot_univ_coe]
  refine congrArg (fun x : ℝ => (x : EReal)) ?_
  rw [← Finset.sup'_product_left (s := (Finset.univ : Finset (Fin 512))) (t := (Finset.univ : Finset (Fin 512)))
    (h := Finset.univ_nonempty.product Finset.univ_nonempty) (f := f)]
  exact Finset.sup'_congr _ Finset.univ_product_univ (fun _ _ => rfl)

/-! ## The rows written at the last class of a batch, and the zeros a batch restarts from -/

theorem outE_eq (n : ℕ) (a : ℝ) :
    Terms.outE (F := Ideal) (fun _ => ((n : ℝ) : EReal)) (fun _ => (a : EReal))
      = fun _ => (((if 0 < n then a / max (n : ℝ) 1 else 0) : ℝ) : EReal) := by
  funext j
  unfold Terms.outE k0_pay3
  rw [read_row _ j (ix2 0 0)]
  show Scalar.select (FloatOps.cmpf (F := Ideal) (φ := .f32) .ogt (((n : ℝ)) : EReal) (FloatOps.ofBits (F := Ideal) .f32 0x00000000#32))
      (Ideal.div (a : EReal) (max ((n : ℝ) : EReal) (FloatOps.ofBits (F := Ideal) .f32 0x3F800000#32)))
      (FloatOps.ofBits (F := Ideal) .f32 0x00000000#32) = _
  rw [ofBits_zero, ofBits_one, cmpf_ogt_coe, select_ite, IdealReal.max_coe]
  have hne : max (n : ℝ) 1 ≠ 0 := by
    have : (1 : ℝ) ≤ max (n : ℝ) 1 := le_max_right _ _
    linarith
  rw [IdealReal.div_coe a hne]
  have hiff : ((0 : ℝ) < (n : ℝ)) ↔ 0 < n := Nat.cast_pos
  by_cases h : 0 < n
  · rw [if_pos (hiff.mpr h), if_pos h]
  · rw [if_neg (fun h' => h (hiff.mp h')), if_neg h]

theorem outB_eq (n : ℕ) (a : ℝ) :
    Terms.outB (F := Ideal) (fun _ => ((n : ℝ) : EReal)) (fun _ => (a : EReal))
      = fun _ => (((if 0 < n then a / max (n : ℝ) 1 else 0) : ℝ) : EReal) := by
  funext j
  unfold Terms.outB k0_pay4
  rw [read_row _ j (ix2 0 0)]
  show Scalar.select (FloatOps.cmpf (F := Ideal) (φ := .f32) .ogt (((n : ℝ)) : EReal) (FloatOps.ofBits (F := Ideal) .f32 0x00000000#32))
      (Ideal.div (a : EReal) (max ((n : ℝ) : EReal) (FloatOps.ofBits (F := Ideal) .f32 0x3F800000#32)))
      (FloatOps.ofBits (F := Ideal) .f32 0x00000000#32) = _
  rw [ofBits_zero, ofBits_one, cmpf_ogt_coe, select_ite, IdealReal.max_coe]
  have hne : max (n : ℝ) 1 ≠ 0 := by
    have : (1 : ℝ) ≤ max (n : ℝ) 1 := le_max_right _ _
    linarith
  rw [IdealReal.div_coe a hne]
  have hiff : ((0 : ℝ) < (n : ℝ)) ↔ 0 < n := Nat.cast_pos
  by_cases h : 0 < n
  · rw [if_pos (hiff.mpr h), if_pos h]
  · rw [if_neg (fun h' => h (hiff.mp h')), if_neg h]

theorem zero5_eq : (k0_pay5 (F := Ideal)) = fun _ => ((0 : ℝ) : EReal) := by
  show shapeCast S1x1 (broadcast S1x1 (FloatOps.ofBits (F := Ideal) .f32 0x00000000#32)) shapeCasts_S1x1_S1x1 = _
  rw [cast11, broadcast_eq, ofBits_zero]

theorem zero6_eq : (k0_pay6 (F := Ideal)) = fun _ => ((0 : ℝ) : EReal) := by
  show shapeCast S1x1 (broadcast S1x1 (FloatOps.ofBits (F := Ideal) .f32 0x00000000#32)) shapeCasts_S1x1_S1x1 = _
  rw [cast11, broadcast_eq, ofBits_zero]

theorem zero7_eq : (k0_pay7 (F := Ideal)) = fun _ => (((0 : ℕ) : ℝ) : EReal) := by
  show shapeCast S1x1 (broadcast S1x1 (FloatOps.ofBits (F := Ideal) .f32 0x00000000#32)) shapeCasts_S1x1_S1x1 = _
  rw [cast11, broadcast_eq, ofBits_zero, Nat.cast_zero]

theorem zero8_eq : (k0_pay8 (F := Ideal)) = fun _ => (((0 : ℕ) : ℝ) : EReal) := by
  show shapeCast S1x1 (broadcast S1x1 (FloatOps.ofBits (F := Ideal) .f32 0x00000000#32)) shapeCasts_S1x1_S1x1 = _
  rw [cast11, broadcast_eq, ofBits_zero, Nat.cast_zero]

end Cert.KerPoint

end
-- ==== Proof.KerMasks.lean ====
/-
  The 0/1 planes of the body at an index. The class mask as floats (the labels compared with the class's word, widened
  and converted) is 1 on the class's positions; the four planes shifted by one row or column, a zero row or column
  concatenated, read the neighbour's mask or 0 at the border, which is the specification's neighbour off the plane;
  the maximum and the minimum of the five are the dilation and the erosion, their difference is 1 exactly on the edge
  positions, and (1 − edge)·mask is 1 exactly on the body positions.
-/
import proofs.«177475_j24979529793864_2_alg».proof.Proof.KerBasics
import proofs.«177475_j24979529793864_2_alg».proof.Proof.SpecIdx

set_option synthInstance.maxSize 4096

noncomputable section

namespace Cert.KerPoint

open Idealize.ShloMosaic Idealize.SL.Sem Cert.KernelIdeal Cert.KernelIdeal.Gen Cert.KernelIdeal.Terms
open Idealize.ShloMosaic.ValueIdx

open Cert.Spec

/-- The 0/1 real of a Boolean. -/
def ind (p : Bool) : ℝ := if p then 1 else 0

theorem ind_true : ind true = 1 := rfl
theorem ind_false : ind false = 0 := rfl

/-! ## The layout operations of the body at an index -/

/-- The label or logit block cast to its plane reads the block at `(0, 0, r, q)`. -/
theorem castPlane_apply {α : Type} (x : S1x1x512x512.Idx → α) (r q : Fin 512) :
    shapeCast S512x512 x shapeCasts_S1x1x512x512_S512x512 (ix2 r q) = x (ix4 (0 : Fin 1) (0 : Fin 1) r q) :=
  shapeCast_apply x shapeCasts_S1x1x512x512_S512x512 _ _ (by
    rw [Shape.rowMajor_val_four, Shape.rowMajor_val_two]
    show ((0 * 1 + 0) * 512 + r.val) * 512 + q.val = r.val * 512 + q.val
    simp only [Nat.zero_mul, Nat.zero_add])

section Shifts
variable {α : Type} (m : S512x512.Idx → α) (z : α)

/-- The plane shifted down by one row (a row of `z` on top): the first row. -/
theorem up_zero (r q : Fin 512) (h : r.val = 0) :
    concatenate S512x512 0 [⟨S1x512, broadcast S1x512 z⟩,
        ⟨S511x512, extractStridedSlice S511x512 ![0, 0] m slices_S512x512_o0_0_S511x512⟩]
      concatenates_S1x512_S511x512_S512x512_d0 (ix2 r q) = z :=
  concatenate_pair_apply_left _ _ _ concatenates_S1x512_S511x512_S512x512_d0 (ix2 r q) rfl (ix2 (0 : Fin 1) q)
    (fun b => by match b with | ⟨0, _⟩ => exact h.symm | ⟨1, _⟩ => rfl)

/-- The plane shifted down by one row: the other rows read the row above. -/
theorem up_succ (r q r' : Fin 512) (h : r'.val + 1 = r.val) :
    concatenate S512x512 0 [⟨S1x512, broadcast S1x512 z⟩,
        ⟨S511x512, extractStridedSlice S511x512 ![0, 0] m slices_S512x512_o0_0_S511x512⟩]
      concatenates_S1x512_S511x512_S512x512_d0 (ix2 r q) = m (ix2 r' q) := by
  have hlt : r'.val < 511 := by have := r.isLt; omega
  refine (concatenate_pair_apply_right _ _ _ concatenates_S1x512_S511x512_S512x512_d0 (ix2 r q) rfl rfl
    (ix2 (⟨r'.val, hlt⟩ : Fin 511) q) ?_ ?_).trans ?_
  · intro b hb
    match b with
    | ⟨0, _⟩ => exact absurd rfl hb
    | ⟨1, _⟩ => rfl
  · exact h
  · exact slice2_axis0_apply 0 m slices_S512x512_o0_0_S511x512 ⟨r'.val, hlt⟩ q r' (Nat.zero_add _).symm

/-- The plane shifted up by one row (a row of `z` at the bottom): the last row. -/
theorem dn_zero (r q : Fin 512) (h : r.val = 511) :
    concatenate S512x512 0 [⟨S511x512, extractStridedSlice S511x512 ![1, 0] m slices_S512x512_o1_0_S511x512⟩,
        ⟨S1x512, broadcast S1x512 z⟩]
      concatenates_S511x512_S1x512_S512x512_d0 (ix2 r q) = z := by
  refine (concatenate_pair_apply_right _ _ _ concatenates_S511x512_S1x512_S512x512_d0 (ix2 r q) rfl rfl
    (ix2 (0 : Fin 1) q) ?_ ?_).trans rfl
  · intro b hb
    match b with
    | ⟨0, _⟩ => exact absurd rfl hb
    | ⟨1, _⟩ => rfl
  · show 0 + 511 = r.val
    omega

/-- The plane shifted up by one row: the other rows read the row below. -/
theorem dn_succ (r q r' : Fin 512) (h : r'.val = r.val + 1) :
    concatenate S512x512 0 [⟨S511x512, extractStridedSlice S511x512 ![1, 0] m slices_S512x512_o1_0_S511x512⟩,
        ⟨S1x512, broadcast S1x512 z⟩]
      concatenates_S511x512_S1x512_S512x512_d0 (ix2 r q) = m (ix2 r' q) := by
  have hlt : r.val < 511 := by have := r'.isLt; omega
  refine (concatenate_pair_apply_left _ _ _ concatenates_S511x512_S1x512_S512x512_d0 (ix2 r q) rfl
    (ix2 (⟨r.val, hlt⟩ : Fin 511) q) ?_).trans ?_
  · intro b
    match b with
    | ⟨0, _⟩ => rfl
    | ⟨1, _⟩ => rfl
  · exact slice2_axis0_apply 1 m slices_S512x512_o1_0_S511x512 ⟨r.val, hlt⟩ q r' (by show r'.val = 1 + r.val; omega)

/-- The plane shifted right by one column (a column of `z` on the left): the first column. -/
theorem lf_zero (r q : Fin 512) (h : q.val = 0) :
    concatenate S512x512 1 [⟨S512x1, broadcast S512x1 z⟩,
        ⟨S512x511, extractStridedSlice S512x511 ![0, 0] m slices_S512x512_o0_0_S512x511⟩]
      concatenates_S512x1_S512x511_S512x512_d1 (ix2 r q) = z :=
  concatenate_pair_apply_left _ _ _ concatenates_S512x1_S512x511_S512x512_d1 (ix2 r q) rfl (ix2 r (0 : Fin 1))
    (fun b => by match b with | ⟨0, _⟩ => rfl | ⟨1, _⟩ => exact h.symm)

/-- The plane shifted right by one column: the other columns read the column to the left. -/
theorem lf_succ (r q q' : Fin 512) (h : q'.val + 1 = q.val) :
    concatenate S512x512 1 [⟨S512x1, broadcast S512x1 z⟩,
        ⟨S512x511, extractStridedSlice S512x511 ![0, 0] m slices_S512x512_o0_0_S512x511⟩]
      concatenates_S512x1_S512x511_S512x512_d1 (ix2 r q) = m (ix2 r q') := by
  have hlt : q'.val < 511 := by have := q.isLt; omega
  refine (concatenate_pair_apply_right _ _ _ concatenates_S512x1_S512x511_S512x512_d1 (ix2 r q) rfl rfl
    (ix2 r (⟨q'.val, hlt⟩ : Fin 511)) ?_ ?_).trans ?_
  · intro b hb
    match b with
    | ⟨0, _⟩ => rfl
    | ⟨1, _⟩ => exact absurd rfl hb
  · exact h
  · exact slice2_axis1_apply 0 m slices_S512x512_o0_0_S512x511 r ⟨q'.val, hlt⟩ q' (Nat.zero_add _).symm

/-- The plane shifted left by one column (a column of `z` on the right): the last column. -/
theorem rt_zero (r q : Fin 512) (h : q.val = 511) :
    concatenate S512x512 1 [⟨S512x511, extractStridedSlice S512x511 ![0, 1] m slices_S512x512_o0_1_S512x511⟩,
        ⟨S512x1, broadcast S512x1 z⟩]
      concatenates_S512x511_S512x1_S512x512_d1 (ix2 r q) = z := by
  refine (concatenate_pair_apply_right _ _ _ concatenates_S512x511_S512x1_S512x512_d1 (ix2 r q) rfl rfl
    (ix2 r (0 : Fin 1)) ?_ ?_).trans rfl
  · intro b hb
    match b with
    | ⟨0, _⟩ => rfl
    | ⟨1, _⟩ => exact absurd rfl hb
  · show 0 + 511 = q.val
    omega

/-- The plane shifted left by one column: the other columns read the column to the right. -/
theorem rt_succ (r q q' : Fin 512) (h : q'.val = q.val + 1) :
    concatenate S512x512 1 [⟨S512x511, extractStridedSlice S512x511 ![0, 1] m slices_S512x512_o0_1_S512x511⟩,
        ⟨S512x1, broadcast S512x1 z⟩]
      concatenates_S512x511_S512x1_S512x512_d1 (ix2 r q) = m (ix2 r q') := by
  have hlt : q.val < 511 := by have := q'.isLt; omega
  refine (concatenate_pair_apply_left _ _ _ concatenates_S512x511_S512x1_S512x512_d1 (ix2 r q) rfl
    (ix2 r (⟨q.val, hlt⟩ : Fin 511)) ?_).trans ?_
  · intro b
    match b with
    | ⟨0, _⟩ => rfl
    | ⟨1, _⟩ => rfl
  · exact slice2_axis1_apply 1 m slices_S512x512_o0_1_S512x511 r ⟨q.val, hlt⟩ q' (by show q'.val = 1 + q.val; omega)

end Shifts

/-! ## The 0/1 reals of Booleans -/

theorem ind_max (a b : Bool) : max (ind a) (ind b) = ind (a || b) := by
  cases a <;> cases b <;> simp [ind]

theorem ind_min (a b : Bool) : min (ind a) (ind b) = ind (a && b) := by
  cases a <;> cases b <;> simp [ind]

theorem ind_sub (a b : Bool) (h : b = true → a = true) : ind a - ind b = ind (xor a b) := by
  cases a <;> cases b <;> simp [ind] at h ⊢

theorem ind_body (e a : Bool) : (1 - ind e) * ind a = ind (!e && a) := by
  cases e <;> cases a <;> simp [ind]

theorem ind_pos (a : Bool) : (0 < ind a) ↔ a = true := by
  cases a <;> simp [ind]

/-- The word of a one-bit condition, widened and read as a signed integer, is its 0/1 real. -/
theorem word_ind (p : Bool) : ((((BitVec.ofBool p).setWidth 32).toInt : ℤ) : ℝ) = ind p := by
  cases p
  · have : ((BitVec.ofBool false).setWidth 32).toInt = 0 := by decide
    rw [this, ind_false, Int.cast_zero]
  · have : ((BitVec.ofBool true).setWidth 32).toInt = 1 := by decide
    rw [this, ind_true, Int.cast_one]

/-! ## The class mask and its neighbours, on the plane and off it -/

section Masks
variable (i : grid0.Coords) (b : Fin 8) (c : Fin 13) (hc : (i 1).val = c.val) (L : Lab)
  (x0 : Vec Ideal S1x1x512x512 .i32) (h0 : ∀ r q : Fin 512, x0 (ix4 0 0 r q) = L b r q)

theorem msk_fin (r q : Fin 512) :
    msk L b c r.val q.val = decide (L b r q = BitVec.ofNat 32 (c.val + 1)) := by
  unfold msk
  rw [dif_pos ⟨r.isLt, q.isLt⟩]

theorem msk_out_row (r q : ℕ) (h : 512 ≤ r) : msk L b c r q = false := by
  unfold msk
  rw [dif_neg (fun h' => absurd h'.1 (by omega))]

theorem msk_out_col (r q : ℕ) (h : 512 ≤ q) : msk L b c r q = false := by
  unfold msk
  rw [dif_neg (fun h' => absurd h'.2 (by omega))]

include hc h0 in
/-- The class mask as floats: 1 on the class's positions, 0 elsewhere. -/
theorem mask_apply (r q : Fin 512) :
    k0_pay9 (F := Ideal) i x0 (ix2 r q) = ((ind (msk L b c r.val q.val) : ℝ) : EReal) := by
  have hw : Scalar.addi (BitVec.ofNat 32 (i 1).val) 1#32 = BitVec.ofNat 32 (c.val + 1) := by
    show BitVec.ofNat 32 (i 1).val + BitVec.ofNat 32 1 = _
    rw [hc, BitVec.ofNat_add]
  show FloatOps.sitofp (F := Ideal) .f32
      ((IntOp.cmpi .eq (shapeCast S512x512 x0 shapeCasts_S1x1x512x512_S512x512 (ix2 r q))
        (Scalar.addi (BitVec.ofNat 32 (i 1).val) 1#32)).setWidth 32) = _
  rw [castPlane_apply, h0 r q, hw, msk_fin]
  show (((((BitVec.ofBool (L b r q == BitVec.ofNat 32 (c.val + 1))).setWidth 32).toInt : ℤ) : ℝ) : EReal) = _
  rw [word_ind]
  have hbd : (L b r q == BitVec.ofNat 32 (c.val + 1)) = decide (L b r q = BitVec.ofNat 32 (c.val + 1)) := by
    rw [Bool.eq_iff_iff]; simp
  rw [hbd]

end Masks

section Planes
variable (b : Fin 8) (c : Fin 13) (L : Lab)
  (m : FVec Ideal S512x512 .f32) (hm : ∀ r q : Fin 512, m (ix2 r q) = ((ind (msk L b c r.val q.val) : ℝ) : EReal))

include hm in
theorem upV (r q : Fin 512) :
    concatenate S512x512 0 [⟨S1x512, broadcast S1x512 (FloatOps.ofBits (F := Ideal) .f32 0x00000000#32)⟩,
        ⟨S511x512, extractStridedSlice S511x512 ![0, 0] m slices_S512x512_o0_0_S511x512⟩]
      concatenates_S1x512_S511x512_S512x512_d0 (ix2 r q) = ((ind (mskUp L b c r.val q.val) : ℝ) : EReal) := by
  unfold mskUp
  by_cases h : r.val = 0
  · rw [up_zero m _ r q h, ofBits_zero, h]
    simp [ind]
  · have hlt : r.val - 1 < 512 := by have := r.isLt; omega
    rw [up_succ m _ r q ⟨r.val - 1, hlt⟩ (by show r.val - 1 + 1 = r.val; omega), hm]
    have hd : decide (1 ≤ r.val) = true := decide_eq_true (by omega)
    rw [hd, Bool.true_and]

include hm in
theorem dnV (r q : Fin 512) :
    concatenate S512x512 0 [⟨S511x512, extractStridedSlice S511x512 ![1, 0] m slices_S512x512_o1_0_S511x512⟩,
        ⟨S1x512, broadcast S1x512 (FloatOps.ofBits (F := Ideal) .f32 0x00000000#32)⟩]
      concatenates_S511x512_S1x512_S512x512_d0 (ix2 r q) = ((ind (mskDn L b c r.val q.val) : ℝ) : EReal) := by
  unfold mskDn
  by_cases h : r.val = 511
  · rw [dn_zero m _ r q h, ofBits_zero, msk_out_row b c L (r.val + 1) q.val (by omega), ind_false]
  · have hlt : r.val + 1 < 512 := by have := r.isLt; omega
    rw [dn_succ m _ r q ⟨r.val + 1, hlt⟩ rfl, hm]

include hm in
theorem lfV (r q : Fin 512) :
    concatenate S512x512 1 [⟨S512x1, broadcast S512x1 (FloatOps.ofBits (F := Ideal) .f32 0x00000000#32)⟩,
        ⟨S512x511, extractStridedSlice S512x511 ![0, 0] m slices_S512x512_o0_0_S512x511⟩]
      concatenates_S512x1_S512x511_S512x512_d1 (ix2 r q) = ((ind (mskLf L b c r.val q.val) : ℝ) : EReal) := by
  unfold mskLf
  by_cases h : q.val = 0
  · rw [lf_zero m _ r q h, ofBits_zero, h]
    simp [ind]
  · have hlt : q.val - 1 < 512 := by have := q.isLt; omega
    rw [lf_succ m _ r q ⟨q.val - 1, hlt⟩ (by show q.val - 1 + 1 = q.val; omega), hm]
    have hd : decide (1 ≤ q.val) = true := decide_eq_true (by omega)
    rw [hd, Bool.true_and]

include hm in
theorem rtV (r q : Fin 512) :
    concatenate S512x512 1 [⟨S512x511, extractStridedSlice S512x511 ![0, 1] m slices_S512x512_o0_1_S512x511⟩,
        ⟨S512x1, broadcast S512x1 (FloatOps.ofBits (F := Ideal) .f32 0x00000000#32)⟩]
      concatenates_S512x511_S512x1_S512x512_d1 (ix2 r q) = ((ind (mskRt L b c r.val q.val) : ℝ) : EReal) := by
  unfold mskRt
  by_cases h : q.val = 511
  · rw [rt_zero m _ r q h, ofBits_zero, msk_out_col b c L r.val (q.val + 1) (by omega), ind_false]
  · have hlt : q.val + 1 < 512 := by have := q.isLt; omega
    rw [rt_succ m _ r q ⟨q.val + 1, hlt⟩ rfl, hm]

end Planes

section Edges
variable (i : grid0.Coords) (b : Fin 8) (c : Fin 13) (hc : (i 1).val = c.val) (L : Lab)
  (x0 : Vec Ideal S1x1x512x512 .i32) (h0 : ∀ r q : Fin 512, x0 (ix4 0 0 r q) = L b r q)

include hc h0 in
/-- The edge positions as floats: dilation minus erosion is 1 exactly on the edge positions. -/
theorem edge_apply (r q : Fin 512) :
    k0_pay10 (F := Ideal) i x0 (ix2 r q) = ((ind (edgeB L b c r.val q.val) : ℝ) : EReal) := by
  have hm := mask_apply i b c hc L x0 h0
  simp only [k0_pay10, subf_apply, maximumf_apply, minimumf_apply]
  rw [upV b c L _ hm r q, dnV b c L _ hm r q, lfV b c L _ hm r q, rtV b c L _ hm r q, hm r q]
  simp only [IdealReal.max_coe, IdealReal.min_coe, IdealReal.sub_coe, ind_max, ind_min]
  refine congrArg (fun x : ℝ => (x : EReal)) ?_
  unfold edgeB dilB eroB
  refine ind_sub _ _ ?_
  generalize msk L b c r.val q.val = a
  generalize mskUp L b c r.val q.val = u
  generalize mskDn L b c r.val q.val = d
  generalize mskLf L b c r.val q.val = l
  generalize mskRt L b c r.val q.val = rr
  cases a <;> simp

include hc h0 in
/-- The body positions as floats. -/
theorem body_apply (r q : Fin 512) :
    k0_pay11 (F := Ideal) i x0 (ix2 r q) = ((ind (bodyB L b c r.val q.val) : ℝ) : EReal) := by
  simp only [k0_pay11, mulf_apply, subf_apply, broadcast_apply]
  rw [edge_apply i b c hc L x0 h0 r q, mask_apply i b c hc L x0 h0 r q, ofBits_one, IdealReal.sub_coe,
    IdealReal.mul_coe, ind_body]
  rfl

end Edges

end Cert.KerPoint

end
-- ==== Proof.KerPoint.lean ====
/-
  The body's arithmetic at one grid point, read at the ideal instance. For the point of batch `b` and class `c + 1`,
  with the label block holding that batch's plane and the two logit blocks holding real numbers `s`, `t`:
  the two-step sums of the edge and body planes are the numbers of edge and body positions; the class is valid when
  the first is positive; the logits over the temperature 1 are the logits, the shifts are `max (max of the plane) 0`,
  and with the shifted exponentials summed over a mask plus the closed-form term of the positions off the mask
  (262144 − count)·exp(0 − shift), every intermediate of the divergence is the coercion of a real (the partition sums
  are positive), so the divergence is the specification's `kl` of the mask; the running totals grow by the class's
  count and divergence when the class is valid. The last theorem collects the point laws.
-/
import proofs.«177475_j24979529793864_2_alg».proof.Proof.KerMasks
import proofs.«177475_j24979529793864_2_alg».proof.Proof.KerLaws

set_option synthInstance.maxSize 4096

noncomputable section

namespace Cert.KerPoint

open Idealize.ShloMosaic Idealize.SL.Sem Cert.KernelIdeal Cert.KernelIdeal.Gen Cert.KernelIdeal.Terms
open Idealize.ShloMosaic.ValueIdx

open Cert.Spec

/-! ## Counts -/

/-- The number of positions of a mask, as the sum of its 0/1 reals. -/
theorem cntN_cast (M : Pos → Bool) : ((cntN M : ℕ) : ℝ) = ∑ p : Fin 512 × Fin 512, ind (M p) := by
  unfold cntN ind
  rw [Nat.cast_sum]
  refine Finset.sum_congr rfl fun p _ => ?_
  rw [Nat.cast_ite, Nat.cast_one, Nat.cast_zero]

/-- The real count of the divergence's law is the natural count. -/
theorem cnt_eq_cntN (M : Pos → Bool) : MaskedKL.cnt M = ((cntN M : ℕ) : ℝ) := by
  rw [cntN_cast]; rfl

/-- The number of positions of a plane. -/
theorem card_pos : ((Fintype.card Pos : ℕ) : ℝ) = 262144 := by
  rw [show Fintype.card Pos = 262144 from by simp [Pos]]
  norm_num

/-- The two-step sum, spelled as the payloads spell it. -/
theorem twoSum_coe' (g : FVec Ideal S512x512 .f32) (f : Fin 512 × Fin 512 → ℝ)
    (hg : ∀ r q : Fin 512, g (ix2 r q) = ((f (r, q) : ℝ) : EReal)) :
    shapeCast S1x1
      (multiReduction (F := Ideal) .add [0] S1
        (shapeCast S512x1
          (multiReduction (F := Ideal) .add [1] S512 g 0x00000000#32 reduces_S512x512_S512 (.inl rfl) rfl)
          shapeCasts_S512_S512x1)
        0x00000000#32 reduces_S512x1_S1 (.inl rfl) rfl)
      shapeCasts_S1_S1x1 = fun _ => ((∑ p : Fin 512 × Fin 512, f p : ℝ) : EReal) :=
  twoSum_coe g f hg

/-- A `[1, 1]` constant broadcast to the plane is the constant plane. -/
theorem bcast11_const {α : Type} (c : α) :
    broadcastTo S512x512 (fun _ : S1x1.Idx => c) broadcasts_S1x1_S512x512 = fun _ => c := rfl

section Point
variable (i : grid0.Coords) (b : Fin 8) (c : Fin 13) (hc : (i 1).val = c.val) (L : Lab)
  (x0 : Vec Ideal S1x1x512x512 .i32) (h0 : ∀ r q : Fin 512, x0 (ix4 0 0 r q) = L b r q)

include hc h0 in
theorem ecnt_eq : Terms.ecnt (F := Ideal) i x0 = fun _ => (((cntN (edgeM L b c) : ℕ) : ℝ) : EReal) := by
  show twoSum (k0_pay10 (F := Ideal) i x0) = _
  rw [twoSum_coe _ (fun p => ind (edgeM L b c p)) (fun r q => edge_apply i b c hc L x0 h0 r q), cntN_cast]

include hc h0 in
theorem bcnt_eq : Terms.bcnt (F := Ideal) i x0 = fun _ => (((cntN (bodyM L b c) : ℕ) : ℝ) : EReal) := by
  show twoSum (k0_pay11 (F := Ideal) i x0) = _
  rw [twoSum_coe _ (fun p => ind (bodyM L b c p)) (fun r q => body_apply i b c hc L x0 h0 r q), cntN_cast]

include hc h0 in
theorem validW_eq : Terms.validW (F := Ideal) i x0 = fun _ => if valid L b c then 1#1 else 0#1 := by
  show cmpf (F := Ideal) (φ := .f32) .ogt (Terms.ecnt (F := Ideal) i x0)
    (broadcast S1x1 (FloatOps.ofBits (F := Ideal) .f32 0x00000000#32)) = _
  rw [ecnt_eq i b c hc L x0 h0, broadcast_eq, ofBits_zero, cmpf_ogt_const]
  funext j
  unfold valid
  simp only [Nat.cast_pos, decide_eq_true_eq]

include hc h0 in
theorem newCntE_eq (n : ℕ) :
    Terms.newCntE (F := Ideal) i x0 (fun _ => ((n : ℝ) : EReal))
      = fun _ => (((n + (if valid L b c then cntN (edgeM L b c) else 0) : ℕ) : ℝ) : EReal) := by
  show shapeCast S1x1 (addf (F := Ideal) (φ := .f32) (fun _ => ((n : ℝ) : EReal))
    (select (Terms.validW (F := Ideal) i x0) (Terms.ecnt (F := Ideal) i x0)
      (broadcast S1x1 (FloatOps.ofBits (F := Ideal) .f32 0x00000000#32)))) shapeCasts_S1x1_S1x1 = _
  rw [cast11, validW_eq i b c hc L x0 h0, ecnt_eq i b c hc L x0 h0, broadcast_eq, ofBits_zero, select_const]
  funext j
  rw [addf_apply]
  by_cases hv : valid L b c = true
  · rw [if_pos hv, if_pos hv, IdealReal.add_coe, Nat.cast_add]
  · rw [if_neg hv, if_neg hv, IdealReal.add_coe, Nat.cast_add, Nat.cast_zero]

include hc h0 in
theorem newCntB_eq (n : ℕ) :
    Terms.newCntB (F := Ideal) i x0 (fun _ => ((n : ℝ) : EReal))
      = fun _ => (((n + (if valid L b c then cntN (bodyM L b c) else 0) : ℕ) : ℝ) : EReal) := by
  show shapeCast S1x1 (addf (F := Ideal) (φ := .f32) (fun _ => ((n : ℝ) : EReal))
    (select (Terms.validW (F := Ideal) i x0) (Terms.bcnt (F := Ideal) i x0)
      (broadcast S1x1 (FloatOps.ofBits (F := Ideal) .f32 0x00000000#32)))) shapeCasts_S1x1_S1x1 = _
  rw [cast11, validW_eq i b c hc L x0 h0, bcnt_eq i b c hc L x0 h0, broadcast_eq, ofBits_zero, select_const]
  funext j
  rw [addf_apply]
  by_cases hv : valid L b c = true
  · rw [if_pos hv, if_pos hv, IdealReal.add_coe, Nat.cast_add]
  · rw [if_neg hv, if_neg hv, IdealReal.add_coe, Nat.cast_add, Nat.cast_zero]

include hc h0 in
/-- The condition "on the edge mask". -/
theorem selE_apply (r q : Fin 512) :
    k0_pay25 (F := Ideal) (Terms.edgeF (F := Ideal) i x0) (ix2 r q) = if edgeM L b c (r, q) then 1#1 else 0#1 := by
  show FloatOps.cmpf (F := Ideal) (φ := .f32) .ogt (k0_pay10 (F := Ideal) i x0 (ix2 r q))
    (FloatOps.ofBits (F := Ideal) .f32 0x00000000#32) = _
  rw [edge_apply i b c hc L x0 h0, ofBits_zero, cmpf_ogt_coe]
  simp only [ind_pos]
  rfl

include hc h0 in
/-- The condition "on the body mask". -/
theorem selB_apply (r q : Fin 512) :
    k0_pay27 (F := Ideal) (Terms.bodyF (F := Ideal) i x0) (ix2 r q) = if bodyM L b c (r, q) then 1#1 else 0#1 := by
  show FloatOps.cmpf (F := Ideal) (φ := .f32) .ogt (k0_pay11 (F := Ideal) i x0 (ix2 r q))
    (FloatOps.ofBits (F := Ideal) .f32 0x00000000#32) = _
  rw [body_apply i b c hc L x0 h0, ofBits_zero, cmpf_ogt_coe]
  simp only [ind_pos]
  rfl

end Point

/-! ## The shifted exponentials -/

section Softmax
variable (s : Pos → ℝ) (x1 : Vec Ideal S1x1x512x512 .f32)
  (h1 : ∀ r q : Fin 512, x1 (ix4 0 0 r q) = ((s (r, q) : ℝ) : EReal))

include h1 in
/-- The logits over the temperature 1. -/
theorem sT_apply (r q : Fin 512) : k0_pay16 (F := Ideal) x1 (ix2 r q) = ((s (r, q) : ℝ) : EReal) := by
  show Ideal.div (shapeCast S512x512 x1 shapeCasts_S1x1x512x512_S512x512 (ix2 r q))
    (FloatOps.ofBits (F := Ideal) .f32 0x3F800000#32) = _
  rw [castPlane_apply, h1, ofBits_one, IdealReal.div_coe _ one_ne_zero, div_one]

include h1 in
/-- The shift: the larger of the plane's maximum and 0. -/
theorem ms_eq : k0_pay18 (F := Ideal) x1 = fun _ => ((shift s : ℝ) : EReal) := by
  show maximumf (F := Ideal) (φ := .f32) (twoMax (k0_pay16 (F := Ideal) x1))
    (broadcast S1x1 (FloatOps.ofBits (F := Ideal) .f32 0x00000000#32)) = _
  rw [twoMax_coe _ s (sT_apply s x1 h1), broadcast_eq, ofBits_zero, maximumf_const]
  rfl

include h1 in
/-- The shifted exponentials of the plane. -/
theorem es_apply (r q : Fin 512) :
    k0_pay20 (F := Ideal) x1 (ix2 r q) = ((Real.exp (s (r, q) - shift s) : ℝ) : EReal) := by
  show Ideal.exp (k0_pay16 (F := Ideal) x1 (ix2 r q)
    - broadcastTo S512x512 (k0_pay18 (F := Ideal) x1) broadcasts_S1x1_S512x512 (ix2 r q)) = _
  rw [sT_apply s x1 h1, ms_eq s x1 h1, bcast11_const, IdealReal.sub_coe, IdealReal.exp_coe]

include h1 in
/-- The exponential of minus the shift. -/
theorem ens_eq : k0_pay23 (F := Ideal) x1 = fun _ => ((Real.exp (0 - shift s) : ℝ) : EReal) := by
  show exp (F := Ideal) (φ := .f32) (subf (F := Ideal) (φ := .f32)
    (broadcast S1x1 (FloatOps.ofBits (F := Ideal) .f32 0x00000000#32)) (k0_pay18 (F := Ideal) x1)) = _
  rw [ms_eq s x1 h1, broadcast_eq, ofBits_zero, subf_const, exp_const]

end Softmax

section Softmax2
variable (s t : Pos → ℝ) (x1 x2 : Vec Ideal S1x1x512x512 .f32)
  (h1 : ∀ r q : Fin 512, x1 (ix4 0 0 r q) = ((s (r, q) : ℝ) : EReal))
  (h2 : ∀ r q : Fin 512, x2 (ix4 0 0 r q) = ((t (r, q) : ℝ) : EReal))

include h2 in
theorem mt_eq : k0_pay19 (F := Ideal) x2 = fun _ => ((shift t : ℝ) : EReal) := ms_eq t x2 h2

include h2 in
theorem et_apply (r q : Fin 512) :
    k0_pay21 (F := Ideal) x2 (ix2 r q) = ((Real.exp (t (r, q) - shift t) : ℝ) : EReal) := es_apply t x2 h2 r q

include h2 in
theorem ent_eq : k0_pay24 (F := Ideal) x2 = fun _ => ((Real.exp (0 - shift t) : ℝ) : EReal) := ens_eq t x2 h2

include h1 h2 in
/-- The teacher's shifted exponentials times the difference of the logits. -/
theorem etd_apply (r q : Fin 512) :
    k0_pay22 (F := Ideal) x1 x2 (ix2 r q)
      = ((Real.exp (t (r, q) - shift t) * (t (r, q) - s (r, q)) : ℝ) : EReal) := by
  show k0_pay21 (F := Ideal) x2 (ix2 r q)
    * (k0_pay17 (F := Ideal) x2 (ix2 r q) - k0_pay16 (F := Ideal) x1 (ix2 r q)) = _
  rw [et_apply t x2 h2, sT_apply s x1 h1, show k0_pay17 (F := Ideal) x2 (ix2 r q) = _ from sT_apply t x2 h2 r q,
    IdealReal.sub_coe, IdealReal.mul_coe]

end Softmax2

/-! ## The divergence of a mask -/

section Core
variable (M : Pos → Bool)

/-- A plane of reals selected on a mask's condition against the zero plane. -/
theorem selPlane_apply (sel : IVec S512x512 1)
    (hsel : ∀ r q : Fin 512, sel (ix2 r q) = if M (r, q) then 1#1 else 0#1)
    (v : FVec Ideal S512x512 .f32) (f : Pos → ℝ) (hv : ∀ r q : Fin 512, v (ix2 r q) = ((f (r, q) : ℝ) : EReal))
    (r q : Fin 512) :
    select sel v (broadcast S512x512 (FloatOps.ofBits (F := Ideal) .f32 0x00000000#32)) (ix2 r q)
      = (((fun p : Pos => if M p then f p else 0) (r, q) : ℝ) : EReal) := by
  rw [select_apply, hsel, hv, broadcast_apply, ofBits_zero, select_ite]
  show _ = (((if M (r, q) then f (r, q) else 0) : ℝ) : EReal)
  split <;> rfl

/-- The two-step sum of a plane of reals over a mask. -/
theorem selSum_eq (sel : IVec S512x512 1)
    (hsel : ∀ r q : Fin 512, sel (ix2 r q) = if M (r, q) then 1#1 else 0#1)
    (v : FVec Ideal S512x512 .f32) (f : Pos → ℝ) (hv : ∀ r q : Fin 512, v (ix2 r q) = ((f (r, q) : ℝ) : EReal)) :
    twoSum (select sel v (broadcast S512x512 (FloatOps.ofBits (F := Ideal) .f32 0x00000000#32)))
      = fun _ => ((∑ p : Pos, (if M p then f p else 0) : ℝ) : EReal) :=
  twoSum_coe (select sel v (broadcast S512x512 (FloatOps.ofBits (F := Ideal) .f32 0x00000000#32)))
    (fun p : Pos => if M p then f p else 0) (selPlane_apply M sel hsel v f hv)

/-- The divergence's payload with its two-step sums named. -/
theorem pay26_unf (v37 v57 v63 : FVec Ideal S1x1 .f32) (v66 v69 v71 : FVec Ideal S512x512 .f32)
    (v74 v77 : FVec Ideal S1x1 .f32) (v79 : IVec S512x512 1) (cc : Ideal .f32) :
    k0_pay26 (F := Ideal) v37 v57 v63 v66 v69 v71 v74 v77 v79 cc
      = mulf
          (subf
            (addf
              (divf (twoSum (select v79 v71 (broadcast S512x512 (FloatOps.ofBits (F := Ideal) .f32 0x00000000#32))))
                (addf (twoSum (select v79 v69 (broadcast S512x512 (FloatOps.ofBits (F := Ideal) .f32 0x00000000#32))))
                  (mulf (subf (broadcast S1x1 cc) v37) v77)))
              (addf
                (log (addf (twoSum (select v79 v66 (broadcast S512x512 (FloatOps.ofBits (F := Ideal) .f32 0x00000000#32))))
                  (mulf (subf (broadcast S1x1 cc) v37) v74)))
                v57))
            (addf
              (log (addf (twoSum (select v79 v69 (broadcast S512x512 (FloatOps.ofBits (F := Ideal) .f32 0x00000000#32))))
                (mulf (subf (broadcast S1x1 cc) v37) v77)))
              v63))
          (broadcast S1x1 (FloatOps.ofBits (F := Ideal) .f32 0x3F800000#32)) := rfl

/-- The divergence's last steps on constants. -/
theorem core_eq (A Bt Ct off ea eb a b : ℝ) (hs : 0 < A + off * ea) (ht : 0 < Bt + off * eb) :
    mulf (F := Ideal) (φ := .f32)
      (subf
        (addf
          (divf (fun _ : S1x1.Idx => ((Ct : ℝ) : EReal))
            (addf (fun _ => ((Bt : ℝ) : EReal)) (mulf (fun _ => ((off : ℝ) : EReal)) (fun _ => ((eb : ℝ) : EReal)))))
          (addf
            (log (addf (fun _ => ((A : ℝ) : EReal)) (mulf (fun _ => ((off : ℝ) : EReal)) (fun _ => ((ea : ℝ) : EReal)))))
            (fun _ => ((a : ℝ) : EReal))))
        (addf
          (log (addf (fun _ => ((Bt : ℝ) : EReal)) (mulf (fun _ => ((off : ℝ) : EReal)) (fun _ => ((eb : ℝ) : EReal)))))
          (fun _ => ((b : ℝ) : EReal))))
      (fun _ => ((1 : ℝ) : EReal))
    = fun _ => (((Ct / (Bt + off * eb) + (Real.log (A + off * ea) + a)) - (Real.log (Bt + off * eb) + b) : ℝ) : EReal) := by
  simp only [mulf_const, addf_const]
  rw [log_const hs, log_const ht, divf_const _ ht.ne']
  simp only [mulf_const, addf_const, subf_const, mul_one]

/-- The kernel's partition sums at the number of positions of a plane are positive. -/
theorem kerSum_pos' (s : Pos → ℝ) (a : ℝ) :
    0 < (∑ p : Pos, (if M p then Real.exp (s p - a) else 0)) + (262144 - MaskedKL.cnt M) * Real.exp (0 - a) := by
  have h := MaskedKL.kerSum_pos M s a
  rw [card_pos] at h
  exact h

end Core

section Kl
variable (i : grid0.Coords) (b : Fin 8) (c : Fin 13) (hc : (i 1).val = c.val) (L : Lab) (s t : Pos → ℝ)
  (x0 : Vec Ideal S1x1x512x512 .i32) (h0 : ∀ r q : Fin 512, x0 (ix4 0 0 r q) = L b r q)
  (x1 x2 : Vec Ideal S1x1x512x512 .f32)
  (h1 : ∀ r q : Fin 512, x1 (ix4 0 0 r q) = ((s (r, q) : ℝ) : EReal))
  (h2 : ∀ r q : Fin 512, x2 (ix4 0 0 r q) = ((t (r, q) : ℝ) : EReal))

include hc h0 h1 h2 in
/-- The edge divergence of the point's class. -/
theorem klE_eq : Terms.klE (F := Ideal) i x0 x1 x2 = fun _ => ((kl (edgeM L b c) s t : ℝ) : EReal) := by
  unfold Terms.klE
  rw [pay26_unf, selSum_eq (edgeM L b c) _ (selE_apply i b c hc L x0 h0) _ (fun p => Real.exp (s p - shift s)) (es_apply s x1 h1),
    selSum_eq (edgeM L b c) _ (selE_apply i b c hc L x0 h0) _ (fun p => Real.exp (t p - shift t)) (et_apply t x2 h2),
    selSum_eq (edgeM L b c) _ (selE_apply i b c hc L x0 h0) _ (fun p => Real.exp (t p - shift t) * (t p - s p))
      (etd_apply s t x1 x2 h1 h2),
    ecnt_eq i b c hc L x0 h0, ms_eq s x1 h1, mt_eq t x2 h2, ens_eq s x1 h1, ent_eq t x2 h2, ← cnt_eq_cntN]
  simp only [broadcast_eq]
  rw [ofBits_card, ofBits_one, subf_const]
  exact core_eq _ _ _ _ _ _ _ _ (kerSum_pos' (edgeM L b c) s (shift s)) (kerSum_pos' (edgeM L b c) t (shift t))

end Kl

section KlB
variable (i : grid0.Coords) (b : Fin 8) (c : Fin 13) (hc : (i 1).val = c.val) (L : Lab) (s t : Pos → ℝ)
  (x0 : Vec Ideal S1x1x512x512 .i32) (h0 : ∀ r q : Fin 512, x0 (ix4 0 0 r q) = L b r q)
  (x1 x2 : Vec Ideal S1x1x512x512 .f32)
  (h1 : ∀ r q : Fin 512, x1 (ix4 0 0 r q) = ((s (r, q) : ℝ) : EReal))
  (h2 : ∀ r q : Fin 512, x2 (ix4 0 0 r q) = ((t (r, q) : ℝ) : EReal))

include hc h0 h1 h2 in
/-- The running edge divergence after the point. -/
theorem newKlE_eq (a : ℝ) :
    Terms.newKlE (F := Ideal) i x0 x1 x2 (fun _ => (a : EReal))
      = fun _ => ((a + (if valid L b c then kl (edgeM L b c) s t else 0) : ℝ) : EReal) := by
  show shapeCast S1x1 (addf (F := Ideal) (φ := .f32) (fun _ => (a : EReal))
    (select (Terms.validW (F := Ideal) i x0) (Terms.klE (F := Ideal) i x0 x1 x2)
      (broadcast S1x1 (FloatOps.ofBits (F := Ideal) .f32 0x00000000#32)))) shapeCasts_S1x1_S1x1 = _
  rw [cast11, validW_eq i b c hc L x0 h0, klE_eq i b c hc L s t x0 h0 x1 x2 h1 h2, broadcast_eq, ofBits_zero,
    select_const]
  funext j
  rw [addf_apply]
  by_cases hv : valid L b c = true
  · rw [if_pos hv, if_pos hv, IdealReal.add_coe]
  · rw [if_neg hv, if_neg hv, IdealReal.add_coe]

/-- The body divergence's payload with its two-step sums named. -/
theorem pay32_unf (v43 : IVec S1x1 1) (v57 v63 : FVec Ideal S1x1 .f32) (v69 v71 : FVec Ideal S512x512 .f32)
    (v74 v77 : FVec Ideal S1x1 .f32) (v114 : IVec S512x512 1) (v116 v122 : FVec Ideal S1x1 .f32)
    (v123 : FVec Ideal S512x512 .f32) (v155 : FVec Ideal S1x1 .f32) :
    k0_pay32 (F := Ideal) v43 v57 v63 v69 v71 v74 v77 v114 v116 v122 v123 v155
      = shapeCast S1x1
          (addf v155
            (select v43
              (mulf
                (subf
                  (addf
                    (divf (twoSum (select v114 v71 (broadcast S512x512 (FloatOps.ofBits (F := Ideal) .f32 0x00000000#32))))
                      (addf (twoSum (select v114 v69 v123)) (mulf v116 v77)))
                    (addf (log (addf v122 (mulf v116 v74))) v57))
                  (addf (log (addf (twoSum (select v114 v69 v123)) (mulf v116 v77))) v63))
                (broadcast S1x1 (FloatOps.ofBits (F := Ideal) .f32 0x3F800000#32)))
              (broadcast S1x1 (FloatOps.ofBits (F := Ideal) .f32 0x00000000#32))))
          shapeCasts_S1x1_S1x1 := rfl

include hc h0 in
/-- The number of positions off the body mask. -/
theorem offB_eq :
    k0_pay28 (F := Ideal) (Terms.bcnt (F := Ideal) i x0)
      = fun _ => ((262144 - MaskedKL.cnt (bodyM L b c) : ℝ) : EReal) := by
  show subf (F := Ideal) (φ := .f32) (broadcast S1x1 (FloatOps.ofBits (F := Ideal) .f32 0x48800000#32))
    (Terms.bcnt (F := Ideal) i x0) = _
  rw [bcnt_eq i b c hc L x0 h0, broadcast_eq, ofBits_card, subf_const, ← cnt_eq_cntN]

include hc h0 h1 in
/-- The student's shifted exponentials summed over the body mask. -/
theorem sumEsB_eq :
    k0_pay29 (F := Ideal) (Terms.bodyF (F := Ideal) i x0) (k0_pay20 (F := Ideal) x1)
      = fun _ => ((∑ p : Pos, (if bodyM L b c p then Real.exp (s p - shift s) else 0) : ℝ) : EReal) :=
  selSum_eq (bodyM L b c) _ (selB_apply i b c hc L x0 h0) _ (fun p => Real.exp (s p - shift s)) (es_apply s x1 h1)

include hc h0 h1 h2 in
/-- The running body divergence after the point. -/
theorem newKlB_eq (a : ℝ) :
    Terms.newKlB (F := Ideal) i x0 x1 x2 (fun _ => (a : EReal))
      = fun _ => ((a + (if valid L b c then kl (bodyM L b c) s t else 0) : ℝ) : EReal) := by
  unfold Terms.newKlB
  rw [pay32_unf, offB_eq i b c hc L x0 h0, sumEsB_eq i b c hc L s x0 h0 x1 h1,
    show (k0_pay30 (F := Ideal)) = broadcast S512x512 (FloatOps.ofBits (F := Ideal) .f32 0x00000000#32) from rfl,
    selSum_eq (bodyM L b c) _ (selB_apply i b c hc L x0 h0) _ (fun p => Real.exp (t p - shift t)) (et_apply t x2 h2),
    selSum_eq (bodyM L b c) _ (selB_apply i b c hc L x0 h0) _ (fun p => Real.exp (t p - shift t) * (t p - s p))
      (etd_apply s t x1 x2 h1 h2),
    ms_eq s x1 h1, mt_eq t x2 h2, ens_eq s x1 h1, ent_eq t x2 h2, validW_eq i b c hc L x0 h0]
  simp only [broadcast_eq]
  rw [ofBits_one, ofBits_zero,
    core_eq _ _ _ _ _ _ _ _ (kerSum_pos' (bodyM L b c) s (shift s)) (kerSum_pos' (bodyM L b c) t (shift t)),
    cast11, select_const]
  funext j
  rw [addf_apply]
  by_cases hv : valid L b c = true
  · rw [if_pos hv, if_pos hv, IdealReal.add_coe]
    rfl
  · rw [if_neg hv, if_neg hv, IdealReal.add_coe]

end KlB

/-- The point laws. -/
theorem pointLaws : Cert.KerLaws.PointLaws where
  newCntE := fun i b c _ hc L x0 h0 n => newCntE_eq i b c hc L x0 h0 n
  newCntB := fun i b c _ hc L x0 h0 n => newCntB_eq i b c hc L x0 h0 n
  newKlE := fun i b c _ hc L s t x0 h0 x1 x2 h1 h2 a => newKlE_eq i b c hc L s t x0 h0 x1 x2 h1 h2 a
  newKlB := fun i b c _ hc L s t x0 h0 x1 x2 h1 h2 a => newKlB_eq i b c hc L s t x0 h0 x1 x2 h1 h2 a
  outE := outE_eq
  outB := outB_eq
  zero5 := zero5_eq
  zero6 := zero6_eq
  zero7 := zero7_eq
  zero8 := zero8_eq

end Cert.KerPoint

end
-- ==== Proof.LibFiniteAll.lean ====
/-
  A general lemma, for a float array of any shape at the extended reals: when the reduction "all entries have absolute
  value strictly below +∞" comes out 1, every entry of the array is a real number. The test takes |x| entry by entry
  (max x (-x)), compares it with +∞ (the pattern 0x7F800000), strictly below, and folds the results with "and" from 1
  over all axes. The fold being 1, every entry's comparison is 1, so max (x i) (-(x i)) < ⊤, so x i is neither ⊤ nor
  ⊥: it is a real number.
-/
import Idealize.ShloMosaic.PureOps.Ideal
import Idealize.ShloMosaic.Lib.ValueIdx
import Idealize.ShloMosaic.Lib.ReduceAll

noncomputable section

namespace Cert.Lib.FiniteAll

open Idealize.ShloMosaic Idealize.ShloMosaic.ValueIdx

/-- The shape with no axes has one index. -/
instance : Subsingleton (⟨0, ![]⟩ : Shape).Idx := ⟨fun a b => funext fun d => d.elim0⟩

/-- The pattern 0x7F800000 denotes +∞. -/
theorem inf_eq_top : Ideal.ofBits .f32 0x7F800000#32 = (⊤ : EReal) := by simp [Ideal.ofBits, Ideal.ieee]

/-- An extended real whose absolute value is strictly below +∞ is a real number. -/
theorem real_of_abs_lt (x : EReal)
    (h : Ideal.cmp .olt (max x (-x)) (Ideal.ofBits .f32 0x7F800000#32) = 1#1) : ∃ r : ℝ, x = (r : EReal) := by
  rw [inf_eq_top] at h
  unfold Ideal.cmp at h
  induction x using EReal.rec with
  | bot => simp at h
  | coe r => exact ⟨r, rfl⟩
  | top => simp at h

/-- The all-of test of one array: when it comes out 1, every entry of the array is a real number. -/
theorem real_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (cmpf .olt (Host.absf x) (broadcastInDim s ![] hb (constant (F := Ideal) (⟨0, ![]⟩ : Shape) .f32 0x7F800000#32)))
        (constantI (⟨0, ![]⟩ : Shape) 1 1#1) hr hu ix0 = 1#1)
    (i : s.Idx) : ∃ r : ℝ, x i = (r : EReal) :=
  real_of_abs_lt (x i) (Host.reduce_andi_all _ _ hr hu ix0 e i)

end Cert.Lib.FiniteAll

end
-- ==== Proof.PreReal.lean ====
/-
  The precondition read: when both "all entries are finite" tests of the two logit arrays come out 1, every entry of
  both arrays is a real number, so each array is the coercion of a real-valued array.
-/
import proofs.«177475_j24979529793864_2_alg».proof.Pre_finite_inputs
import proofs.«177475_j24979529793864_2_alg».proof.Proof.Gen.Pre_finite_inputs
import proofs.«177475_j24979529793864_2_alg».proof.Proof.LibFiniteAll
import Idealize.ShloMosaic.Lib.Affine

noncomputable section

namespace Cert.PreReal

open Idealize.ShloMosaic Idealize.ShloMosaic.ValueIdx Cert.Pre_finite_inputs Cert.Pre_finite_inputs.Facts

variable [Cert.Pre_finite_inputs.Facts]

/-- Under the precondition both logit arrays hold real numbers only. -/
theorem real_entries (x0 x1 : FVec Ideal S8x14x512x512 .f32) (x2 : IVec S8x1x512x512 32)
    (h : Cert.Pre_finite_inputs.fn (F := Ideal) x0 x1 x2 = fun _ => 1#1) :
    (∀ i, ∃ r : ℝ, x0 i = (r : EReal)) ∧ (∀ i, ∃ r : ℝ, x1 i = (r : EReal)) := by
  have h' := congrFun h ix0
  dsimp only [Cert.Pre_finite_inputs.fn] at h'
  obtain ⟨ha, hb⟩ := IntOp.andi_eq_one.1 h'
  exact ⟨fun i => Cert.Lib.FiniteAll.real_of_all x0 _ _ _ ha i, fun i => Cert.Lib.FiniteAll.real_of_all x1 _ _ _ hb i⟩

/-- Under the precondition each logit array is the coercion of a real-valued array. -/
theorem real_arrays (x0 x1 : FVec Ideal S8x14x512x512 .f32) (x2 : IVec S8x1x512x512 32)
    (h : Cert.Pre_finite_inputs.fn (F := Ideal) x0 x1 x2 = fun _ => 1#1) :
    ∃ A0 A1 : S8x14x512x512.Idx → ℝ, (∀ i, x0 i = ((A0 i : ℝ) : EReal)) ∧ (∀ i, x1 i = ((A1 i : ℝ) : EReal)) := by
  obtain ⟨h0, h1⟩ := real_entries x0 x1 x2 h
  choose A0 hA0 using h0
  choose A1 hA1 using h1
  exact ⟨A0, A1, hA0, hA1⟩

end Cert.PreReal

end
-- ==== Proof.RefWords.lean ====
/-
  Words of the reference run read as Booleans and natural numbers.

  A one-bit word is `BitVec.ofBool` of a Boolean, and the bitwise operations on such words are the Boolean ones; a select
  on such a word is an `if`; its unsigned reading is 0 or 1. A 32-bit word `BitVec.ofNat 32 n` with `n` below 2³¹ reads,
  signed, as `n` itself: the signed comparison with zero, the signed maximum with one and the conversion to a real number
  are those of `n`; a sum of such words is the word of the sum. Last, the float constants of the run as extended reals.
-/
import Idealize.ShloMosaic.Lib.IndicatorCount
import Idealize.ShloMosaic.Lib.ValueIdx
import Idealize.ShloMosaic.Lib.IdealHost

noncomputable section

namespace Cert.RefValue

open Idealize.ShloMosaic

/-! ## One-bit words -/

theorem ori_ofBool (a b : Bool) : IntOp.ori (BitVec.ofBool a) (BitVec.ofBool b) = BitVec.ofBool (a || b) := by
  cases a <;> cases b <;> rfl
theorem andi_ofBool (a b : Bool) : IntOp.andi (BitVec.ofBool a) (BitVec.ofBool b) = BitVec.ofBool (a && b) := by
  cases a <;> cases b <;> rfl
theorem xori_ofBool (a b : Bool) : IntOp.xori (BitVec.ofBool a) (BitVec.ofBool b) = BitVec.ofBool (xor a b) := by
  cases a <;> cases b <;> rfl
theorem not_ofBool (a : Bool) : ~~~(BitVec.ofBool a) = BitVec.ofBool (!a) := by
  cases a <;> rfl
theorem ofBool_eq_one (a : Bool) : BitVec.ofBool a = 1#1 ↔ a = true := by
  cases a <;> decide
theorem select_ofBool {α : Type} (a : Bool) (x y : α) : Scalar.select (BitVec.ofBool a) x y = if a then x else y := by
  cases a
  · exact if_neg (by decide)
  · exact if_pos rfl
/-- The unsigned reading of a one-bit word as an extended real: 1 on `true`, 0 on `false`. -/
theorem uitofp_ofBool (a : Bool) :
    (FloatOps.uitofp (F := Ideal) .f32 (BitVec.ofBool a) : EReal) = (((if a then 1 else 0 : ℝ)) : EReal) := by
  cases a
  · show (((0 : ℕ) : ℝ) : EReal) = ((0 : ℝ) : EReal); norm_num
  · show (((1 : ℕ) : ℝ) : EReal) = ((1 : ℝ) : EReal); norm_num

/-! ## 32-bit words of small natural numbers -/

theorem toNat_ofNat32 (n : ℕ) (h : n < 2147483648) : (BitVec.ofNat 32 n).toNat = n := by
  rw [BitVec.toNat_ofNat]; exact Nat.mod_eq_of_lt (by omega)

/-- Below 2³¹ the signed reading is the number. -/
theorem toInt_ofNat32 (n : ℕ) (h : n < 2147483648) : (BitVec.ofNat 32 n).toInt = (n : ℤ) := by
  rw [BitVec.toInt_eq_toNat_cond, toNat_ofNat32 n h, if_pos (by omega)]

/-- The signed comparison "greater than zero". -/
theorem cmpi_sgt_zero (n : ℕ) (h : n < 2147483648) :
    IntOp.cmpi .sgt (BitVec.ofNat 32 n) 0#32 = BitVec.ofBool (decide (0 < n)) := by
  show BitVec.ofBool ((0#32).slt (BitVec.ofNat 32 n)) = _
  congr 1
  rw [BitVec.slt, toInt_ofNat32 n h]
  simp

/-- The signed maximum with one. -/
theorem maxsi_one (n : ℕ) (h : n < 2147483648) :
    IntOp.maxsi (BitVec.ofNat 32 n) 1#32 = BitVec.ofNat 32 (max n 1) := by
  unfold IntOp.maxsi
  have e : (1#32).slt (BitVec.ofNat 32 n) = decide (1 < n) := by
    rw [BitVec.slt, toInt_ofNat32 n h]; simp
  rw [e]
  by_cases h1 : 1 < n
  · rw [decide_eq_true h1, if_pos rfl, max_eq_left (by omega)]
  · rw [decide_eq_false h1, if_neg (by decide), max_eq_right (by omega)]

/-- The signed conversion to a real number. -/
theorem sitofp_ofNat32 (n : ℕ) (h : n < 2147483648) :
    (FloatOps.sitofp (F := Ideal) .f32 (BitVec.ofNat 32 n) : EReal) = (((n : ℝ)) : EReal) := by
  show ((((BitVec.ofNat 32 n).toInt : ℤ) : ℝ) : EReal) = _
  rw [toInt_ofNat32 n h]; norm_cast

/-- A sum of words is the word of the sum. -/
theorem fold_addi_ofNat {ι : Type} (f : ι → ℕ) (S : Finset ι) :
    S.fold IntOp.addi (0#32) (fun k => BitVec.ofNat 32 (f k)) = BitVec.ofNat 32 (∑ k ∈ S, f k) := by
  classical
  induction S using Finset.induction_on with
  | empty => rfl
  | insert a S ha ih =>
    rw [Finset.fold_insert ha, ih, Finset.sum_insert ha]
    show BitVec.ofNat 32 (f a) + BitVec.ofNat 32 _ = _
    rw [BitVec.ofNat_add]

/-! ## The run's float constants as extended reals -/

theorem ofBits_neg_inf : Ideal.ofBits .f32 0xFF800000#32 = (⊥ : EReal) := by simp [Ideal.ofBits, Ideal.ieee]
theorem ofBits_500 : Ideal.ofBits .f32 0x43FA0000#32 = ((500 : ℝ) : EReal) := by
  simp [Ideal.ofBits, Ideal.ieee, -EReal.coe_mul]; norm_num
theorem ofBits_200 : Ideal.ofBits .f32 0x43480000#32 = ((200 : ℝ) : EReal) := by
  simp [Ideal.ofBits, Ideal.ieee, -EReal.coe_mul]; norm_num
theorem ofBits_8 : Ideal.ofBits .f32 0x41000000#32 = ((8 : ℝ) : EReal) := by
  simp [Ideal.ofBits, Ideal.ieee, -EReal.coe_mul]; norm_num
theorem ofBits_one : Ideal.ofBits .f32 0x3F800000#32 = ((1 : ℝ) : EReal) := by
  rw [Ideal.ofBits_one_f32]; norm_cast
theorem ofBits_zero : Ideal.ofBits .f32 0x00000000#32 = ((0 : ℝ) : EReal) := by
  rw [Ideal.ofBits_zero_f32]; norm_cast

end Cert.RefValue

end
-- ==== Proof.RefMasks.lean ====
/-
  The mask words of the reference run are the specification's Booleans.

  The class mask compares the label (batch, 0, row, column) with the class number `c + 1` (an iota plus one): its word at
  (b, c, r, q) is `msk`. The mask padded with `false` by one position on both plane axes reads, at (r', q') of the
  514 × 514 plane, the mask at (r' − 1, q' − 1) when both coordinates are at least 1, and `false` otherwise (`msk` is
  `false` beyond row or column 511). The four slices of the padded mask are the four neighbours; their disjunction
  and conjunction with the mask are the dilation and the erosion, whose exclusive-or is the edge word; the body word is
  the mask and not the edge.
-/
import proofs.«177475_j24979529793864_2_alg».proof.Proof.RefRead
import proofs.«177475_j24979529793864_2_alg».proof.Proof.SpecIdx
import proofs.«177475_j24979529793864_2_alg».proof.Proof.RefWords
import Idealize.ShloMosaic.Lib.IdealHost
import Idealize.ShloMosaic.Lib.KernelVsHost

noncomputable section

namespace Cert.RefValue

open Cert.ReferenceIdeal Cert.ReferenceIdeal.Gen Idealize.ShloMosaic Idealize.ShloMosaic.ValueIdx Cert.Spec

open Cert.ReferenceIdeal.Read

variable {F : FTy → Type} [FloatOps F]

/-- The padded mask at row `r'`, column `q'` of the 514 × 514 plane. -/
def padB (L : Lab) (b : Fin 8) (c : Fin 13) (r' q' : ℕ) : Bool :=
  decide (1 ≤ r') && decide (1 ≤ q') && msk L b c (r' - 1) (q' - 1)

theorem padB_up (L : Lab) (b : Fin 8) (c : Fin 13) (r q : ℕ) : padB L b c r (1 + q) = mskUp L b c r q := by
  unfold padB mskUp
  have e : 1 + q - 1 = q := by omega
  have h : decide (1 ≤ 1 + q) = true := decide_eq_true (by omega)
  rw [e, h, Bool.and_true]
theorem padB_dn (L : Lab) (b : Fin 8) (c : Fin 13) (r q : ℕ) : padB L b c (2 + r) (1 + q) = mskDn L b c r q := by
  unfold padB mskDn
  have e : 1 + q - 1 = q := by omega
  have e' : 2 + r - 1 = r + 1 := by omega
  have h : decide (1 ≤ 1 + q) = true := decide_eq_true (by omega)
  have h' : decide (1 ≤ 2 + r) = true := decide_eq_true (by omega)
  rw [e, e', h, h', Bool.and_true, Bool.true_and]
theorem padB_lf (L : Lab) (b : Fin 8) (c : Fin 13) (r q : ℕ) : padB L b c (1 + r) q = mskLf L b c r q := by
  unfold padB mskLf
  have e : 1 + r - 1 = r := by omega
  have h : decide (1 ≤ 1 + r) = true := decide_eq_true (by omega)
  rw [e, h, Bool.true_and]
theorem padB_rt (L : Lab) (b : Fin 8) (c : Fin 13) (r q : ℕ) : padB L b c (1 + r) (2 + q) = mskRt L b c r q := by
  unfold padB mskRt
  have e : 1 + r - 1 = r := by omega
  have e' : 2 + q - 1 = q + 1 := by omega
  have h : decide (1 ≤ 1 + r) = true := decide_eq_true (by omega)
  have h' : decide (1 ≤ 2 + q) = true := decide_eq_true (by omega)
  rw [e, e', h, h', Bool.and_true, Bool.true_and]

/-! ## The class mask -/

/-- The label read by the mask at (b, c, r, q) is the label at (b, 0, r, q). -/
theorem idx_label (b : Fin 8) (c : Fin 13) (r q : Fin 512) :
    idx_main_v0 (idx_main_v4 (idx_main_v6 (ix4 b c r q))) = ix4 b (0 : Fin 1) r q := by
  have hb := b.isLt; have hr := r.isLt; have hq := q.isLt
  funext a
  apply Fin.ext
  match a with
  | ⟨0, _⟩ => show ((b.val * 512 + r.val) * 512 + q.val) / 262144 = b.val; omega
  | ⟨1, _⟩ => rfl
  | ⟨2, _⟩ => show ((b.val * 512 + r.val) * 512 + q.val) / 512 % 512 = r.val; omega
  | ⟨3, _⟩ => show ((b.val * 512 + r.val) * 512 + q.val) % 512 = q.val; omega

theorem v8_apply (x2 : (⟨S8x1x512x512, .i32⟩ : BufTy).Contents (Elt F)) (b : Fin 8) (c : Fin 13) (r q : Fin 512) :
    val_main_v8 (F := F) x2 (ix4 b c r q) = BitVec.ofBool (msk (labOf x2) b c r.val q.val) := by
  rw [val_main_v8_apply, val_main_v6_apply, val_main_v4_apply, val_main_v0_apply, idx_label, val_main_v7_apply,
    val_main_v5_apply, val_main_v3_apply, val_main_v2_apply, val_main_v1_apply, val_main_c_apply]
  show BitVec.ofBool (x2 (ix4 b (0 : Fin 1) r q) == IntOp.addi 1#32 (BitVec.ofNat 32 c.val)) = _
  refine congrArg BitVec.ofBool ?_
  unfold msk
  rw [dif_pos ⟨r.isLt, q.isLt⟩]
  have e : IntOp.addi 1#32 (BitVec.ofNat 32 c.val) = BitVec.ofNat 32 (c.val + 1) := by
    show BitVec.ofNat 32 1 + BitVec.ofNat 32 c.val = _
    rw [← BitVec.ofNat_add, Nat.add_comm]
  rw [e]
  show _ = decide (x2 (ix4 b (0 : Fin 1) r q) = BitVec.ofNat 32 (c.val + 1))
  exact beq_eq_decide _ _

/-! ## The padded mask -/

/-- The padding value is the word 0. -/
theorem padval (i : S_.Idx) : val_main_call0_v2 (F := F) i = 0#1 := by
  show IntOp.cmpi .ne (0#32) (broadcastInDim S_ ![] bcast_S_S_ (constantI S_ 32 0#32) i) = _
  rw [broadcastInDim_scalar_apply]
  rfl

theorem v9_apply (x2 : (⟨S8x1x512x512, .i32⟩ : BufTy).Contents (Elt F)) (b : Fin 8) (c : Fin 13) (r' q' : ℕ)
    (hr : r' < 514) (hq : q' < 514) :
    val_main_v9 (F := F) x2 (ix4 b c (⟨r', hr⟩ : Fin 514) (⟨q', hq⟩ : Fin 514)) = BitVec.ofBool (padB (labOf x2) b c r' q') := by
  unfold val_main_v9
  by_cases hin : (1 ≤ r' ∧ r' ≤ 512) ∧ (1 ≤ q' ∧ q' ≤ 512)
  · obtain ⟨⟨h1, h2⟩, h3, h4⟩ := hin
    rw [pad_apply_of_inside _ _ _ _ _ _ _ _ (ix4 b c (⟨r' - 1, by omega⟩ : Fin 512) (⟨q' - 1, by omega⟩ : Fin 512)) (fun a => by
      match a with
      | ⟨0, _⟩ => show b.val = 0 + b.val * (0 + 1); omega
      | ⟨1, _⟩ => show c.val = 0 + c.val * (0 + 1); omega
      | ⟨2, _⟩ => show r' = 1 + (r' - 1) * (0 + 1); omega
      | ⟨3, _⟩ => show q' = 1 + (q' - 1) * (0 + 1); omega)]
    rw [v8_apply]
    unfold padB
    rw [decide_eq_true h1, decide_eq_true h3, Bool.true_and, Bool.true_and]
  · have hB : padB (labOf x2) b c r' q' = false := by
      unfold padB
      by_cases h1 : 1 ≤ r'
      · by_cases h3 : 1 ≤ q'
        · have hn : ¬(r' - 1 < 512 ∧ q' - 1 < 512) := by omega
          unfold msk
          rw [dif_neg hn, Bool.and_false]
        · rw [decide_eq_false h3, Bool.and_false, Bool.false_and]
      · rw [decide_eq_false h1, Bool.false_and, Bool.false_and]
    rw [hB]
    by_cases hr2 : 1 ≤ r' ∧ r' ≤ 512
    · have hq2 : ¬(1 ≤ q' ∧ q' ≤ 512) := fun h => hin ⟨hr2, h⟩
      rw [pad_apply_of_not_inside _ _ _ _ _ _ _ _ (3 : Fin 4) (by
        show ¬(1 ≤ q' ∧ (q' - 1) % (0 + 1) = 0 ∧ (q' - 1) / (0 + 1) < 512); omega)]
      exact padval _
    · rw [pad_apply_of_not_inside _ _ _ _ _ _ _ _ (2 : Fin 4) (by
        show ¬(1 ≤ r' ∧ (r' - 1) % (0 + 1) = 0 ∧ (r' - 1) / (0 + 1) < 512); omega)]
      exact padval _

/-! ## The four neighbours -/

section Neighbours
variable (x2 : (⟨S8x1x512x512, .i32⟩ : BufTy).Contents (Elt F)) (b : Fin 8) (c : Fin 13) (r q : Fin 512)

theorem v10_apply : val_main_v10 (F := F) x2 (ix4 b c r q) = BitVec.ofBool (mskUp (labOf x2) b c r.val q.val) := by
  have hr := r.isLt; have hq := q.isLt
  have hi : idx_main_v10 (ix4 b c r q) = ix4 b c (⟨r.val, by omega⟩ : Fin 514) (⟨1 + q.val, by omega⟩ : Fin 514) :=
    funext fun a => by match a with | ⟨0, _⟩ => rfl | ⟨1, _⟩ => rfl | ⟨2, _⟩ => rfl | ⟨3, _⟩ => rfl
  rw [val_main_v10_apply, hi, ← padB_up]
  exact v9_apply x2 b c (r.val) (1 + q.val) _ _

theorem v11_apply : val_main_v11 (F := F) x2 (ix4 b c r q) = BitVec.ofBool (mskDn (labOf x2) b c r.val q.val) := by
  have hr := r.isLt; have hq := q.isLt
  have hi : idx_main_v11 (ix4 b c r q) = ix4 b c (⟨2 + r.val, by omega⟩ : Fin 514) (⟨1 + q.val, by omega⟩ : Fin 514) :=
    funext fun a => by match a with | ⟨0, _⟩ => rfl | ⟨1, _⟩ => rfl | ⟨2, _⟩ => rfl | ⟨3, _⟩ => rfl
  rw [val_main_v11_apply, hi, ← padB_dn]
  exact v9_apply x2 b c (2 + r.val) (1 + q.val) _ _

theorem v12_apply : val_main_v12 (F := F) x2 (ix4 b c r q) = BitVec.ofBool (mskLf (labOf x2) b c r.val q.val) := by
  have hr := r.isLt; have hq := q.isLt
  have hi : idx_main_v12 (ix4 b c r q) = ix4 b c (⟨1 + r.val, by omega⟩ : Fin 514) (⟨q.val, by omega⟩ : Fin 514) :=
    funext fun a => by match a with | ⟨0, _⟩ => rfl | ⟨1, _⟩ => rfl | ⟨2, _⟩ => rfl | ⟨3, _⟩ => rfl
  rw [val_main_v12_apply, hi, ← padB_lf]
  exact v9_apply x2 b c (1 + r.val) (q.val) _ _

theorem v13_apply : val_main_v13 (F := F) x2 (ix4 b c r q) = BitVec.ofBool (mskRt (labOf x2) b c r.val q.val) := by
  have hr := r.isLt; have hq := q.isLt
  have hi : idx_main_v13 (ix4 b c r q) = ix4 b c (⟨1 + r.val, by omega⟩ : Fin 514) (⟨2 + q.val, by omega⟩ : Fin 514) :=
    funext fun a => by match a with | ⟨0, _⟩ => rfl | ⟨1, _⟩ => rfl | ⟨2, _⟩ => rfl | ⟨3, _⟩ => rfl
  rw [val_main_v13_apply, hi, ← padB_rt]
  exact v9_apply x2 b c (1 + r.val) (2 + q.val) _ _

/-- The edge word. -/
theorem v22_apply : val_main_v22 (F := F) x2 (ix4 b c r q) = BitVec.ofBool (edgeB (labOf x2) b c r.val q.val) := by
  rw [val_main_v22_apply, val_main_v17_apply, val_main_v16_apply, val_main_v15_apply, val_main_v14_apply,
    val_main_v21_apply, val_main_v20_apply, val_main_v19_apply, val_main_v18_apply,
    v8_apply, v10_apply, v11_apply, v12_apply, v13_apply]
  simp only [ori_ofBool, andi_ofBool, xori_ofBool]
  rfl

/-- The body word. -/
theorem v24_apply : val_main_v24 (F := F) x2 (ix4 b c r q) = BitVec.ofBool (bodyB (labOf x2) b c r.val q.val) := by
  rw [val_main_v24_apply, val_main_v23_apply, v22_apply, v8_apply, not_ofBool, andi_ofBool]
  rfl

end Neighbours

end Cert.RefValue

end
-- ==== Proof.RefCounts.lean ====
/-
  The integer counts of the reference run.

  A mask of a plane is held as one-bit words; widened to 32 bits and summed over the plane (a reduction over the two
  plane axes) the words give the number of the mask's positions, as a 32-bit word: at most 262144, so nothing wraps.
  A class is valid when its edge count is positive (a signed comparison, read on a number below 2³¹), and the counts of
  a batch's valid classes, summed over the 13 classes (at most 13 · 262144), are again the word of the natural sum.
-/
import proofs.«177475_j24979529793864_2_alg».proof.Proof.Gen.ReferenceIdeal
import proofs.«177475_j24979529793864_2_alg».proof.Proof.SpecIdx
import proofs.«177475_j24979529793864_2_alg».proof.Proof.RefWords
import Idealize.ShloMosaic.Lib.IdealHost

noncomputable section

namespace Cert.RefValue

open Cert.ReferenceIdeal Cert.ReferenceIdeal.Gen Idealize.ShloMosaic Idealize.ShloMosaic.ValueIdx Cert.Spec

variable {F : FTy → Type} [FloatOps F]

/-! ## The number of positions of a mask -/

/-- A mask has at most 512 · 512 positions. -/
theorem cntN_le (M : Pos → Bool) : cntN M ≤ 262144 := by
  unfold cntN
  rw [← Finset.card_filter]
  refine (Finset.card_filter_le _ _).trans ?_
  rw [Finset.card_univ]
  simp [Pos, Fintype.card_prod, Fintype.card_fin]

/-- The valid classes of a batch have at most 13 · 262144 edge positions … -/
theorem numE_le (L : Lab) (b : Fin 8) : numE L b ≤ 3407872 := by
  unfold numE
  refine (Finset.sum_le_sum (g := fun _ => 262144) fun c _ => ?_).trans (by simp)
  split
  · exact cntN_le _
  · exact Nat.zero_le _

/-- … and as many body positions at most. -/
theorem numB_le (L : Lab) (b : Fin 8) : numB L b ≤ 3407872 := by
  unfold numB
  refine (Finset.sum_le_sum (g := fun _ => 262144) fun c _ => ?_).trans (by simp)
  split
  · exact cntN_le _
  · exact Nat.zero_le _

/-! ## The count of a plane's mask words -/

/-- The mask words widened to 32 bits and summed over the two plane axes. -/
def cntW (w : (⟨S8x13x512x512, .i1⟩ : BufTy).Contents (Elt F)) : (⟨S8x13, .i32⟩ : BufTy).Contents (Elt F) :=
  Host.reduce IntOp.addi (extui 32 w natLt_1_32) (constantI S_ 32 0#32) reducesTo_S8x13x512x512_S8x13_d2_3 h_S_

/-- An index of the rank-4 array reduces to (b, c) exactly when its first two coordinates are b and c. -/
theorem drop23_eq (i : S8x13x512x512.Idx) (b : Fin 8) (c : Fin 13) :
    reducesTo_S8x13x512x512_S8x13_d2_3.drop i = ix2 b c ↔ (i 0 = b ∧ i 1 = c) := by
  have h0 := Shape.ReducesTo.drop_apply_val_of_eq reducesTo_S8x13x512x512_S8x13_d2_3 i (0 : Fin 2) (0 : Fin 4)
  have h1 := Shape.ReducesTo.drop_apply_val_of_eq reducesTo_S8x13x512x512_S8x13_d2_3 i (1 : Fin 2) (1 : Fin 4)
  constructor
  · intro e
    rw [e] at h0 h1
    exact ⟨Fin.ext h0.symm, Fin.ext h1.symm⟩
  · rintro ⟨e0, e1⟩
    funext a
    apply Fin.ext
    match a with
    | ⟨0, _⟩ => exact h0.trans (congrArg Fin.val e0)
    | ⟨1, _⟩ => exact h1.trans (congrArg Fin.val e1)

/-- An index whose first two coordinates are b and c is (b, c, row, column). -/
theorem eq_ix4_of (a : S8x13x512x512.Idx) (b : Fin 8) (c : Fin 13) (e0 : a 0 = b) (e1 : a 1 = c) :
    a = ix4 b c (a 2 : Fin 512) (a 3 : Fin 512) := by
  funext d
  match d with
  | ⟨0, _⟩ => exact e0
  | ⟨1, _⟩ => exact e1
  | ⟨2, _⟩ => rfl
  | ⟨3, _⟩ => rfl

/-- The count of the plane (b, c): the word of the number of the mask's positions. -/
theorem cntW_apply (w : (⟨S8x13x512x512, .i1⟩ : BufTy).Contents (Elt F)) (M : Pos → Bool) (b : Fin 8) (c : Fin 13)
    (hw : ∀ r q : Fin 512, w (ix4 b c r q) = BitVec.ofBool (M (r, q))) :
    cntW (F := F) w (ix2 b c) = BitVec.ofNat 32 (cntN M) := by
  unfold cntW
  rw [Host.reduce_eq_fold]
  show (Finset.univ.filter fun i => reducesTo_S8x13x512x512_S8x13_d2_3.drop i = ix2 b c).fold IntOp.addi (0#32)
      (fun k => (w k).setWidth 32) = _
  rw [IndicatorCount.fold_addi_setWidth_eq_card]
  refine congrArg (BitVec.ofNat 32) ?_
  unfold cntN
  rw [← Finset.card_filter, Finset.filter_filter]
  refine Finset.card_nbij' (fun i => ((i 2 : Fin 512), (i 3 : Fin 512))) (fun p => ix4 b c p.1 p.2) ?_ ?_ ?_ ?_
  · intro a ha
    obtain ⟨hd, h1⟩ := (Finset.mem_filter.1 ha).2
    obtain ⟨e0, e1⟩ := (drop23_eq a b c).1 hd
    have h2 : w a = BitVec.ofBool (M ((a 2 : Fin 512), (a 3 : Fin 512))) :=
      (congrArg w (eq_ix4_of a b c e0 e1)).trans (hw (a 2) (a 3))
    exact Finset.mem_filter.2 ⟨Finset.mem_univ _, (ofBool_eq_one _).1 (h2.symm.trans h1)⟩
  · intro p hp
    have hM : M (p.1, p.2) = true := (Finset.mem_filter.1 hp).2
    refine Finset.mem_filter.2 ⟨Finset.mem_univ _, (drop23_eq _ b c).2 ⟨rfl, rfl⟩, ?_⟩
    rw [hw, hM]; rfl
  · intro a ha
    obtain ⟨hd, _⟩ := (Finset.mem_filter.1 ha).2
    obtain ⟨e0, e1⟩ := (drop23_eq a b c).1 hd
    exact (eq_ix4_of a b c e0 e1).symm
  · intro p _
    rfl

/-! ## Validity and the batch sums -/

/-- "The count is positive", as one-bit words. -/
def validW (e : (⟨S8x13, .i32⟩ : BufTy).Contents (Elt F)) : (⟨S8x13, .i1⟩ : BufTy).Contents (Elt F) :=
  cmpi .sgt e (broadcastInDim S8x13 ![] bcast_S_S8x13 (constantI S_ 32 0#32))

theorem validW_apply (e : (⟨S8x13, .i32⟩ : BufTy).Contents (Elt F)) (b : Fin 8) (c : Fin 13) (n : ℕ) (hn : n < 2147483648)
    (he : e (ix2 b c) = BitVec.ofNat 32 n) :
    validW (F := F) e (ix2 b c) = BitVec.ofBool (decide (0 < n)) := by
  show IntOp.cmpi .sgt (e (ix2 b c)) (broadcastInDim S8x13 ![] bcast_S_S8x13 (constantI S_ 32 0#32) (ix2 b c)) = _
  rw [broadcastInDim_scalar_apply, he]
  exact cmpi_sgt_zero n hn

/-- The counts of the valid classes, summed over the classes. -/
def numW (v : (⟨S8x13, .i1⟩ : BufTy).Contents (Elt F)) (e : (⟨S8x13, .i32⟩ : BufTy).Contents (Elt F)) :
    (⟨S8, .i32⟩ : BufTy).Contents (Elt F) :=
  Host.reduce IntOp.addi (select v e (broadcastInDim S8x13 ![] bcast_S_S8x13 (id (constantI S_ 32 0#32))))
    (constantI S_ 32 0#32) reducesTo_S8x13_S8_d1 h_S_

theorem reduces_S8x13_S8_d1 : S8x13.Reduces [1] S8 := by decide

/-- The index over the batch `b` with the class `k` inserted is (b, k). -/
theorem lift_S8x13 (b : Fin 8) (k : Fin 13) : reduces_S8x13_S8_d1.lift (ix1 b) k = ix2 b k :=
  funext fun a => Fin.ext (by match a with | ⟨0, _⟩ => rfl | ⟨1, _⟩ => rfl)

theorem numW_apply (v : (⟨S8x13, .i1⟩ : BufTy).Contents (Elt F)) (e : (⟨S8x13, .i32⟩ : BufTy).Contents (Elt F))
    (b : Fin 8) (V : Fin 13 → Bool) (f : Fin 13 → ℕ)
    (hv : ∀ c, v (ix2 b c) = BitVec.ofBool (V c)) (he : ∀ c, e (ix2 b c) = BitVec.ofNat 32 (f c)) :
    numW (F := F) v e (ix1 b) = BitVec.ofNat 32 (∑ c : Fin 13, (if V c then f c else 0)) := by
  unfold numW
  rw [Host.reduce_eq_fold_single IntOp.addi _ _ reducesTo_S8x13_S8_d1 reduces_S8x13_S8_d1 h_S_ (ix1 b)]
  show (Finset.univ : Finset (Fin 13)).fold IntOp.addi (0#32) _ = _
  rw [← fold_addi_ofNat]
  refine Finset.fold_congr fun k _ => ?_
  show Scalar.select (v (reduces_S8x13_S8_d1.lift (ix1 b) k)) (e (reduces_S8x13_S8_d1.lift (ix1 b) k))
      (broadcastInDim S8x13 ![] bcast_S_S8x13 (id (constantI S_ 32 0#32)) (reduces_S8x13_S8_d1.lift (ix1 b) k)) = _
  rw [lift_S8x13, hv, he, select_ofBool, broadcastInDim_scalar_apply]
  cases V k <;> rfl

end Cert.RefValue

end
-- ==== Proof.RefSoftmax.lean ====
/-
  The masked log-softmax and the divergence of a plane, in the reference's spelling, read at an index.

  The operations are those of the reference run, applied to ANY arrays: a rank-4 logit array `x` and a rank-4 array `w`
  of one-bit mask words give the masked logits of the flattened planes (`mlogitsW`: the slice of the classes 1 … 13,
  reshaped to [8, 13, 262144], times the mask converted to 0 / 1, divided by the temperature 1); a flattened array `x`
  goes through a log-softmax along the last axis (`lsmW`: the maximum from −∞, the shifted logits, the partition sum,
  its logarithm); two such arrays give Σ exp(logq)·(logq − logp) times the squared temperature 1 (`klW`).

  When the logits are real numbers each stage at the plane (b, c) is the coercion of the corresponding real quantity of
  the specification: the flattened masked logits `flatLog`, the shift `shiftR` (the maximum of the plane), the partition
  sum `partSum`, the log-softmax `logSoftmax` and the divergence `klRef`.
-/
import proofs.«177475_j24979529793864_2_alg».proof.Proof.Gen.ReferenceIdeal
import proofs.«177475_j24979529793864_2_alg».proof.Proof.SpecIdx
import proofs.«177475_j24979529793864_2_alg».proof.Proof.RefWords
import proofs.«177475_j24979529793864_2_alg».proof.Proof.LibIdealReal
import Idealize.ShloMosaic.Lib.Pipeline.Value
import Idealize.ShloMosaic.Lib.IdealHost
import Idealize.ShloMosaic.PureOps.Ideal.Laws

noncomputable section

namespace Cert.RefValue

open Cert.ReferenceIdeal Cert.ReferenceIdeal.Gen Idealize.ShloMosaic Idealize.ShloMosaic.ValueIdx Cert.Spec

open MaskedKL

variable {F : FTy → Type} [FloatOps F]

/-! ## Layout operations of the run, read at an index -/

/-- The reshape [8, 13, 512, 512] → [8, 13, 262144] reads flat position `k` of a plane at (k / 512, k % 512). -/
theorem reshape_apply {α : Type} (y : S8x13x512x512.Idx → α) (b : Fin 8) (c : Fin 13) (k : Fin 262144) :
    shapeCast S8x13x262144 y shapeCasts_S8x13x512x512_S8x13x262144 (ix3 b c k)
      = y (ix4 b c (unflat k).1 (unflat k).2) := by
  refine shapeCast_apply y shapeCasts_S8x13x512x512_S8x13x262144 (ix3 b c k) (ix4 b c (unflat k).1 (unflat k).2) ?_
  rewrite [Shape.rowMajor_val_four, Shape.rowMajor_val_three]
  have hb := b.isLt; have hc := c.isLt; have hk := k.isLt
  show ((b.val * 13 + c.val) * 512 + k.val / 512) * 512 + k.val % 512 = (b.val * 13 + c.val) * 262144 + k.val
  omega

/-- The slice of the classes 1 … 13 reads class `c + 1`. -/
theorem slice_apply {α : Type} (x : S8x14x512x512.Idx → α) (b : Fin 8) (c : Fin 13) (r q : Fin 512) :
    extractStridedSlice S8x13x512x512 ![0, 1, 0, 0] x slices_S8x14x512x512_S8x13x512x512_0_1_0_0 (ix4 b c r q)
      = x (ix4 b (⟨c.val + 1, Nat.succ_lt_succ c.isLt⟩ : Fin 14) r q) := by
  refine extractStridedSlice_apply ![0, 1, 0, 0] x slices_S8x14x512x512_S8x13x512x512_0_1_0_0 (ix4 b c r q) _ (fun a => ?_)
  match a with
  | ⟨0, _⟩ => show b.val = 0 + b.val; omega
  | ⟨1, _⟩ => show c.val + 1 = 1 + c.val; omega
  | ⟨2, _⟩ => show r.val = 0 + r.val; omega
  | ⟨3, _⟩ => show q.val = 0 + q.val; omega

/-- A per-plane value broadcast along the flattened axis … -/
theorem bcastA_apply {α : Type} (y : S8x13x1.Idx → α) (b : Fin 8) (c : Fin 13) (k : Fin 262144) :
    broadcastInDim S8x13x262144 ![0, 1, 2] bcast_S8x13x1_S8x13x262144_0_1_2 y (ix3 b c k) = y (ix3 b c (0 : Fin 1)) := by
  refine broadcastInDim_apply _ bcast_S8x13x1_S8x13x262144_0_1_2 y (ix3 b c k) (ix3 b c (0 : Fin 1)) (fun a => ?_)
  match a with
  | ⟨0, _⟩ => show b.val = if (8 : Nat) = 1 then 0 else b.val; rw [if_neg (by decide)]
  | ⟨1, _⟩ => show c.val = if (13 : Nat) = 1 then 0 else c.val; rw [if_neg (by decide)]
  | ⟨2, _⟩ => show 0 = if (1 : Nat) = 1 then 0 else k.val; rw [if_pos rfl]

/-- … after a unit axis was appended. -/
theorem bcastB_apply {α : Type} (y : S8x13.Idx → α) (b : Fin 8) (c : Fin 13) :
    broadcastInDim S8x13x1 ![0, 1] bcast_S8x13_S8x13x1_0_1 y (ix3 b c (0 : Fin 1)) = y (ix2 b c) := by
  refine broadcastInDim_apply _ bcast_S8x13_S8x13x1_0_1 y (ix3 b c (0 : Fin 1)) (ix2 b c) (fun a => ?_)
  match a with
  | ⟨0, _⟩ => show b.val = if (8 : Nat) = 1 then 0 else b.val; rw [if_neg (by decide)]
  | ⟨1, _⟩ => show c.val = if (13 : Nat) = 1 then 0 else c.val; rw [if_neg (by decide)]

theorem reduces_d2 : S8x13x262144.Reduces [2] S8x13 := by decide

/-- The index over the plane (b, c) with the flat position `k` inserted is (b, c, k). -/
theorem lift_d2 (b : Fin 8) (c : Fin 13) (k) :
    reduces_d2.lift (ix2 b c) k = ix3 b c (⟨k.val, k.isLt⟩ : Fin 262144) :=
  funext fun a => Fin.ext (by match a with | ⟨0, _⟩ => rfl | ⟨1, _⟩ => rfl | ⟨2, _⟩ => rfl)

/-- The exponential and the logarithm of the run at an index. -/
theorem hostExp_apply {s : Shape} (y : FVec Ideal s .f32) (i : s.Idx) : Host.exp y i = Ideal.exp (y i) := rfl
theorem hostLog_apply {s : Shape} (y : FVec Ideal s .f32) (i : s.Idx) : Host.log y i = Ideal.log (y i) := rfl

/-! ## Folds and sums over an axis whose extent is a literal -/

/-- A maximum from −∞ over an axis of `n = m` real entries is the coercion of their supremum. -/
theorem fold_maximumf_cast {n m : ℕ} [Nonempty (Fin m)] (hnm : n = m) (f : Fin n → EReal) (X : Fin m → ℝ)
    (h : ∀ k : Fin n, f k = ((X (k.cast hnm) : ℝ) : EReal)) :
    (Finset.univ : Finset (Fin n)).fold (FloatOps.maximumf (F := Ideal) (φ := .f32)) (⊥ : EReal) f
      = ((Finset.univ.sup' Finset.univ_nonempty X : ℝ) : EReal) := by
  subst hnm
  have e : f = fun k => ((X k : ℝ) : EReal) := funext h
  rw [e]
  exact IdealReal.fold_max_bot_univ_coe X

/-- A sum over an axis of `n = m` real entries is the coercion of the real sum. -/
theorem sum_cast_coe {n m : ℕ} (hnm : n = m) (f : Fin n → EReal) (g : Fin m → ℝ)
    (h : ∀ k : Fin n, f k = ((g (k.cast hnm) : ℝ) : EReal)) :
    ∑ k, f k = ((∑ k, g k : ℝ) : EReal) := by
  subst hnm
  rw [← IdealReal.sum_coe]
  exact Finset.sum_congr rfl fun k _ => h k

/-! ## The masked logits -/

/-- The logits of the classes 1 … 13, flattened, times the mask as 0 / 1, divided by 1. -/
def mlogitsW (x : (⟨S8x14x512x512, .f32⟩ : BufTy).Contents (Elt F)) (w : (⟨S8x13x512x512, .i1⟩ : BufTy).Contents (Elt F)) :
    (⟨S8x13x262144, .f32⟩ : BufTy).Contents (Elt F) :=
  Host.divf
    (mulf (shapeCast S8x13x262144 (extractStridedSlice S8x13x512x512 ![0, 1, 0, 0] x slices_S8x14x512x512_S8x13x512x512_0_1_0_0)
        shapeCasts_S8x13x512x512_S8x13x262144)
      (uitofp .f32 (shapeCast S8x13x262144 w shapeCasts_S8x13x512x512_S8x13x262144)))
    (broadcastInDim S8x13x262144 ![] bcast_S_S8x13x262144 (constant S_ .f32 0x3F800000#32))

/-- At flat position `k` of the plane (b, c): the coercion of the specification's flattened masked logit. -/
theorem mlogitsW_apply (x : (⟨S8x14x512x512, .f32⟩ : BufTy).Contents (Elt Ideal))
    (w : (⟨S8x13x512x512, .i1⟩ : BufTy).Contents (Elt Ideal)) (A : SLog.Idx → ℝ) (M : Pos → Bool) (b : Fin 8) (c : Fin 13)
    (hx : ∀ i, x i = ((A i : ℝ) : EReal)) (hw : ∀ p : Pos, w (ix4 b c p.1 p.2) = BitVec.ofBool (M p)) (k : Fin 262144) :
    mlogitsW (F := Ideal) x w (ix3 b c k) = ((flatLog M (plane (logitsOf A) b c) k : ℝ) : EReal) := by
  show Ideal.div
      (shapeCast S8x13x262144 (extractStridedSlice S8x13x512x512 ![0, 1, 0, 0] x slices_S8x14x512x512_S8x13x512x512_0_1_0_0)
          shapeCasts_S8x13x512x512_S8x13x262144 (ix3 b c k)
        * FloatOps.uitofp (F := Ideal) .f32 (shapeCast S8x13x262144 w shapeCasts_S8x13x512x512_S8x13x262144 (ix3 b c k)))
      (broadcastInDim S8x13x262144 ![] bcast_S_S8x13x262144 (constant (F := Ideal) S_ .f32 0x3F800000#32) (ix3 b c k)) = _
  rw [reshape_apply, reshape_apply, slice_apply, broadcastInDim_scalar_apply, hx, hw (unflat k), uitofp_ofBool]
  show Ideal.div _ (Ideal.ofBits .f32 0x3F800000#32) = _
  rw [ofBits_one, ← EReal.coe_mul, IdealReal.div_coe _ one_ne_zero]
  congr 1
  unfold flatLog MaskedKL.mlog plane logitsOf
  cases M (unflat k) <;> simp

/-! ## The log-softmax along the flattened axis -/

/-- The larger of −∞ and the maximum, from −∞, of each plane. -/
def lsmMaxW (x : (⟨S8x13x262144, .f32⟩ : BufTy).Contents (Elt F)) : (⟨S8x13, .f32⟩ : BufTy).Contents (Elt F) :=
  maximumf (broadcastInDim S8x13 ![] bcast_S_S8x13 (constant S_ .f32 0xFF800000#32))
    (Host.reduce FloatOps.maximumf x (constant S_ .f32 0xFF800000#32) reducesTo_S8x13x262144_S8x13_d2 h_S_)

/-- The logits less their plane's maximum. -/
def lsmShiftW (x : (⟨S8x13x262144, .f32⟩ : BufTy).Contents (Elt F)) : (⟨S8x13x262144, .f32⟩ : BufTy).Contents (Elt F) :=
  subf x (broadcastInDim S8x13x262144 ![0, 1, 2] bcast_S8x13x1_S8x13x262144_0_1_2
    (broadcastInDim S8x13x1 ![0, 1] bcast_S8x13_S8x13x1_0_1 (lsmMaxW x)))

/-- The partition sum of each plane, from 0. -/
def lsmSumW (x : (⟨S8x13x262144, .f32⟩ : BufTy).Contents (Elt F)) : (⟨S8x13, .f32⟩ : BufTy).Contents (Elt F) :=
  Host.reduceAdd (Host.exp (lsmShiftW x)) (constant S_ .f32 0x00000000#32) reducesTo_S8x13x262144_S8x13_d2 h_S_

/-- The log-softmax: the shifted logits less the logarithm of the partition sum. -/
def lsmW (x : (⟨S8x13x262144, .f32⟩ : BufTy).Contents (Elt F)) : (⟨S8x13x262144, .f32⟩ : BufTy).Contents (Elt F) :=
  subf (lsmShiftW x) (broadcastInDim S8x13x262144 ![0, 1, 2] bcast_S8x13x1_S8x13x262144_0_1_2
    (Host.log (broadcastInDim S8x13x1 ![0, 1] bcast_S8x13_S8x13x1_0_1 (lsmSumW x))))

section Plane
variable (x : (⟨S8x13x262144, .f32⟩ : BufTy).Contents (Elt Ideal)) (b : Fin 8) (c : Fin 13) (X : Fin 262144 → ℝ)
  (hx : ∀ k, x (ix3 b c k) = ((X k : ℝ) : EReal))
include hx

/-- The maximum of a plane of real logits is the specification's shift. -/
theorem lsmMaxW_apply : lsmMaxW (F := Ideal) x (ix2 b c) = ((shiftR X : ℝ) : EReal) := by
  unfold lsmMaxW
  rw [maximumf_apply, broadcastInDim_scalar_apply, constant_apply,
    Host.reduce_eq_fold_single (FloatOps.maximumf (F := Ideal) (φ := .f32)) _ _ reducesTo_S8x13x262144_S8x13_d2 reduces_d2 h_S_ (ix2 b c),
    constant_apply, ofBits_neg_inf, max_eq_right bot_le]
  exact fold_maximumf_cast (m := 262144) (by rfl) _ X (fun k => by
    show x (reduces_d2.lift (ix2 b c) k) = _
    rw [lift_d2, hx]; rfl)

theorem lsmShiftW_apply (k : Fin 262144) :
    lsmShiftW (F := Ideal) x (ix3 b c k) = ((X k - shiftR X : ℝ) : EReal) := by
  unfold lsmShiftW
  rw [subf_apply, bcastA_apply, bcastB_apply, lsmMaxW_apply x b c X hx, hx, ← EReal.coe_sub]

theorem lsmSumW_apply : lsmSumW (F := Ideal) x (ix2 b c) = ((partSum X (shiftR X) : ℝ) : EReal) := by
  unfold lsmSumW
  rw [hostReduceAdd_apply, Ideal.hostReduceAdd_single reducesTo_S8x13x262144_S8x13_d2 reduces_d2, constant_apply,
    Ideal.ofBits_zero_f32, zero_add]
  exact sum_cast_coe (m := 262144) (by rfl) _ (fun k => Real.exp (X k - shiftR X)) (fun k => by
    rw [hostExp_apply, lift_d2, lsmShiftW_apply x b c X hx]; rfl)

/-- The log-softmax of a plane of real logits is the specification's, with the plane's maximum as the shift. -/
theorem lsmW_apply (k : Fin 262144) :
    lsmW (F := Ideal) x (ix3 b c k) = ((logSoftmax X (shiftR X) k : ℝ) : EReal) := by
  unfold lsmW
  rw [subf_apply, bcastA_apply, hostLog_apply, bcastB_apply, lsmSumW_apply x b c X hx, lsmShiftW_apply x b c X hx k,
    IdealReal.log_coe (partSum_pos _ _), ← EReal.coe_sub]
  rfl

end Plane

/-! ## The divergence of a plane -/

/-- Σ exp(logq)·(logq − logp) from 0, times 1: `p` from `s`, `q` from `t`. -/
def klW (s t : (⟨S8x13x262144, .f32⟩ : BufTy).Contents (Elt F)) : (⟨S8x13, .f32⟩ : BufTy).Contents (Elt F) :=
  mulf (Host.reduceAdd (mulf (Host.exp (lsmW t)) (subf (lsmW t) (lsmW s))) (constant S_ .f32 0x00000000#32)
      reducesTo_S8x13x262144_S8x13_d2 h_S_)
    (broadcastInDim S8x13 ![] bcast_S_S8x13 (constant S_ .f32 0x3F800000#32))

/-- For real logits: the coercion of the reference spelling of the divergence, the shifts the planes' maxima. -/
theorem klW_apply (s t : (⟨S8x13x262144, .f32⟩ : BufTy).Contents (Elt Ideal)) (b : Fin 8) (c : Fin 13)
    (Xs Xt : Fin 262144 → ℝ) (hs : ∀ k, s (ix3 b c k) = ((Xs k : ℝ) : EReal)) (ht : ∀ k, t (ix3 b c k) = ((Xt k : ℝ) : EReal)) :
    klW (F := Ideal) s t (ix2 b c) = ((klRef Xs Xt (shiftR Xs) (shiftR Xt) : ℝ) : EReal) := by
  unfold klW
  rw [mulf_apply, broadcastInDim_scalar_apply, constant_apply, Ideal.ofBits_one_f32, mul_one, hostReduceAdd_apply,
    Ideal.hostReduceAdd_single reducesTo_S8x13x262144_S8x13_d2 reduces_d2, constant_apply, Ideal.ofBits_zero_f32, zero_add]
  exact sum_cast_coe (m := 262144) (by rfl) _
    (fun k => Real.exp (logSoftmax Xt (shiftR Xt) k) * (logSoftmax Xt (shiftR Xt) k - logSoftmax Xs (shiftR Xs) k))
    (fun k => by
      rw [mulf_apply, hostExp_apply, subf_apply, lift_d2, lsmW_apply t b c Xt ht, lsmW_apply s b c Xs hs, ← EReal.coe_sub,
        EReal.coe_mul]
      rfl)

end Cert.RefValue

end
-- ==== Proof.RefTail.lean ====
/-
  From the divergences of the planes to a loss, in the reference's spelling, read at an index.

  The operations are those of the reference run, applied to ANY arrays: the divergences of a batch's valid classes summed
  from 0 (`accW`: a select on the validity word, then a sum over the 13 classes); that sum divided by the number of
  positions clamped below by 1 — a signed maximum and a signed conversion — and replaced by 0 when the number is not
  positive, a signed comparison (`perW`); the weight times the sum over the 8 batches, divided by 8 (`lossW`).

  When the divergences are real numbers and the numbers of positions are words of natural numbers below 2³¹, each stage
  is the coercion of the real quantity the specification names.
-/
import proofs.«177475_j24979529793864_2_alg».proof.Proof.Gen.ReferenceIdeal
import proofs.«177475_j24979529793864_2_alg».proof.Proof.SpecIdx
import proofs.«177475_j24979529793864_2_alg».proof.Proof.RefWords
import proofs.«177475_j24979529793864_2_alg».proof.Proof.RefCounts
import proofs.«177475_j24979529793864_2_alg».proof.Proof.LibIdealReal
import Idealize.ShloMosaic.Lib.IdealHost
import Idealize.ShloMosaic.PureOps.Ideal.Laws

noncomputable section

namespace Cert.RefValue

open Cert.ReferenceIdeal Cert.ReferenceIdeal.Gen Idealize.ShloMosaic Idealize.ShloMosaic.ValueIdx Cert.Spec

variable {F : FTy → Type} [FloatOps F]

/-! ## The sum over a batch's valid classes -/

def accW (v : (⟨S8x13, .i1⟩ : BufTy).Contents (Elt F)) (kl : (⟨S8x13, .f32⟩ : BufTy).Contents (Elt F)) :
    (⟨S8, .f32⟩ : BufTy).Contents (Elt F) :=
  Host.reduceAdd (select v kl (broadcastInDim S8x13 ![] bcast_S_S8x13 (id (constant S_ .f32 0x00000000#32))))
    (constant S_ .f32 0x00000000#32) reducesTo_S8x13_S8_d1 h_S_

theorem accW_apply (v : (⟨S8x13, .i1⟩ : BufTy).Contents (Elt Ideal)) (kl : (⟨S8x13, .f32⟩ : BufTy).Contents (Elt Ideal))
    (b : Fin 8) (V : Fin 13 → Bool) (K : Fin 13 → ℝ)
    (hv : ∀ c, v (ix2 b c) = BitVec.ofBool (V c)) (hk : ∀ c, kl (ix2 b c) = ((K c : ℝ) : EReal)) :
    accW (F := Ideal) v kl (ix1 b) = ((∑ c : Fin 13, (if V c then K c else 0) : ℝ) : EReal) := by
  unfold accW
  rw [hostReduceAdd_apply, Ideal.hostReduceAdd_single reducesTo_S8x13_S8_d1 reduces_S8x13_S8_d1]
  show Ideal.ofBits .f32 0x00000000#32
      + ∑ k : Fin 13, Scalar.select (v (reduces_S8x13_S8_d1.lift (ix1 b) k)) (kl (reduces_S8x13_S8_d1.lift (ix1 b) k))
          (broadcastInDim S8x13 ![] bcast_S_S8x13 (id (constant (F := Ideal) S_ .f32 0x00000000#32))
            (reduces_S8x13_S8_d1.lift (ix1 b) k)) = _
  rw [Ideal.ofBits_zero_f32, zero_add]
  have e : ∀ k : Fin 13, Scalar.select (v (reduces_S8x13_S8_d1.lift (ix1 b) k)) (kl (reduces_S8x13_S8_d1.lift (ix1 b) k))
          (broadcastInDim S8x13 ![] bcast_S_S8x13 (id (constant (F := Ideal) S_ .f32 0x00000000#32))
            (reduces_S8x13_S8_d1.lift (ix1 b) k)) = (((if V k then K k else 0 : ℝ)) : EReal) := fun k => by
    rw [lift_S8x13, hv, hk, select_ofBool, broadcastInDim_scalar_apply]
    show (if V k = true then ((K k : ℝ) : EReal) else Ideal.ofBits .f32 0x00000000#32) = _
    rw [ofBits_zero]
    cases V k <;> rfl
  rw [Finset.sum_congr rfl (fun k _ => e k), IdealReal.sum_coe]

/-! ## A batch's normalised sum -/

def perW (acc : (⟨S8, .f32⟩ : BufTy).Contents (Elt F)) (num : (⟨S8, .i32⟩ : BufTy).Contents (Elt F)) :
    (⟨S8, .f32⟩ : BufTy).Contents (Elt F) :=
  select (cmpi .sgt num (broadcastInDim S8 ![] bcast_S_S8 (constantI S_ 32 0#32)))
    (Host.divf acc (sitofp .f32 (maxsi num (broadcastInDim S8 ![] bcast_S_S8 (constantI S_ 32 1#32)))))
    (broadcastInDim S8 ![] bcast_S_S8 (id (constant S_ .f32 0x00000000#32)))

theorem perW_apply (acc : (⟨S8, .f32⟩ : BufTy).Contents (Elt Ideal)) (num : (⟨S8, .i32⟩ : BufTy).Contents (Elt Ideal))
    (b : Fin 8) (a : ℝ) (n : ℕ) (hn : n < 2147483648)
    (ha : acc (ix1 b) = ((a : ℝ) : EReal)) (hnum : num (ix1 b) = BitVec.ofNat 32 n) :
    perW (F := Ideal) acc num (ix1 b) = (((if 0 < n then a / max (n : ℝ) 1 else 0 : ℝ)) : EReal) := by
  show Scalar.select (IntOp.cmpi .sgt (num (ix1 b)) (broadcastInDim S8 ![] bcast_S_S8 (constantI S_ 32 0#32) (ix1 b)))
      (Ideal.div (acc (ix1 b)) (FloatOps.sitofp (F := Ideal) .f32
        (IntOp.maxsi (num (ix1 b)) (broadcastInDim S8 ![] bcast_S_S8 (constantI S_ 32 1#32) (ix1 b)))))
      (broadcastInDim S8 ![] bcast_S_S8 (id (constant (F := Ideal) S_ .f32 0x00000000#32)) (ix1 b)) = _
  rw [broadcastInDim_scalar_apply, broadcastInDim_scalar_apply, broadcastInDim_scalar_apply, hnum, ha]
  show Scalar.select (IntOp.cmpi .sgt (BitVec.ofNat 32 n) 0#32)
      (Ideal.div ((a : ℝ) : EReal) (FloatOps.sitofp (F := Ideal) .f32 (IntOp.maxsi (BitVec.ofNat 32 n) 1#32)))
      (Ideal.ofBits .f32 0x00000000#32) = _
  have hm : max n 1 < 2147483648 := by omega
  have hpos : ((max n 1 : ℕ) : ℝ) ≠ 0 := by
    have : 0 < max n 1 := by omega
    exact_mod_cast this.ne'
  rw [cmpi_sgt_zero n hn, maxsi_one n hn, sitofp_ofNat32 _ hm, IdealReal.div_coe _ hpos, select_ofBool, ofBits_zero]
  by_cases h0 : 0 < n
  · rw [decide_eq_true h0, if_pos rfl, if_pos h0]; push_cast; rfl
  · rw [decide_eq_false h0, if_neg (by decide), if_neg h0]

/-! ## The loss -/

def lossW (wbits : BitVec 32) (per : (⟨S8, .f32⟩ : BufTy).Contents (Elt F)) : (⟨S_, .f32⟩ : BufTy).Contents (Elt F) :=
  Host.divf (mulf (constant S_ .f32 wbits) (Host.reduceAdd per (constant S_ .f32 0x00000000#32) reducesTo_S8_S_d0 h_S_))
    (constant S_ .f32 0x41000000#32)

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

theorem lossW_apply (wbits : BitVec 32) (w : ℝ) (hw : Ideal.ofBits .f32 wbits = ((w : ℝ) : EReal))
    (per : (⟨S8, .f32⟩ : BufTy).Contents (Elt Ideal)) (P : Fin 8 → ℝ) (hp : ∀ b, per (ix1 b) = ((P b : ℝ) : EReal))
    (i : S_.Idx) :
    lossW (F := Ideal) wbits per i = ((w * (∑ b : Fin 8, P b) / 8 : ℝ) : EReal) := by
  show Ideal.div (Ideal.ofBits .f32 wbits
      * Host.reduceAdd per (constant (F := Ideal) S_ .f32 0x00000000#32) reducesTo_S8_S_d0 h_S_ i)
      (Ideal.ofBits .f32 0x41000000#32) = _
  rw [hostReduceAdd_apply, Ideal.hostReduceAdd_total reducesTo_S8_S_d0 (fun b => b.elim0)]
  show Ideal.div (Ideal.ofBits .f32 wbits * (Ideal.ofBits .f32 0x00000000#32 + ∑ j : S8.Idx, per j))
      (Ideal.ofBits .f32 0x41000000#32) = _
  have es : ∑ j : S8.Idx, per j = ((∑ b : Fin 8, P b : ℝ) : EReal) := by
    rw [← Equiv.sum_comp (idxEquiv1 (n := 8)).symm per, ← IdealReal.sum_coe]
    exact Finset.sum_congr rfl fun b _ => hp b
  rw [es, Ideal.ofBits_zero_f32, zero_add, hw, ofBits_8, ← EReal.coe_mul, IdealReal.div_coe _ (by norm_num)]

end Cert.RefValue

end
-- ==== Proof.RefLoss.lean ====
/-
  THE REFERENCE'S TWO RESULTS ARE THE SPECIFICATION'S LOSSES.

  Each stage of the reference run is one of the operations read in the modules this one imports, applied to the stage
  before it (by unfolding the stages' definitions). With the mask words the specification's Booleans, the counts are the
  words of `cntN`, the validity word is `valid`, the batch sums are the words of `numE` and `numB` (below 2³¹: the
  signed comparison, maximum and conversion read them as the natural numbers); with real logits the masked logits, the
  log-softmax and the divergence of a plane are the coercions of `flatLog`, `logSoftmax` and `klR`; the sums over the
  valid classes, the normalisation and the final scale are the coercions of `accOf`, `perOf` and `lossOf`.
-/
import proofs.«177475_j24979529793864_2_alg».proof.Proof.RefRead
import proofs.«177475_j24979529793864_2_alg».proof.Proof.RefMasks
import proofs.«177475_j24979529793864_2_alg».proof.Proof.RefCounts
import proofs.«177475_j24979529793864_2_alg».proof.Proof.RefSoftmax
import proofs.«177475_j24979529793864_2_alg».proof.Proof.RefTail

noncomputable section

namespace Cert.RefValue

open Cert.ReferenceIdeal Cert.ReferenceIdeal.Gen Idealize.ShloMosaic Idealize.ShloMosaic.ValueIdx Cert.Spec

open Cert.ReferenceIdeal.Read

/-! ## The counts -/

section Counts
variable {F : FTy → Type} [FloatOps F] (x2 : (⟨S8x1x512x512, .i32⟩ : BufTy).Contents (Elt F))

theorem v26_eq : val_main_v26 (F := F) x2 = cntW (val_main_v22 (F := F) x2) := rfl
theorem v28_eq : val_main_v28 (F := F) x2 = cntW (val_main_v24 (F := F) x2) := rfl
theorem v30_eq : val_main_v30 (F := F) x2 = validW (val_main_v26 (F := F) x2) := rfl
theorem v32_eq : val_main_v32 (F := F) x2 = numW (val_main_v30 (F := F) x2) (val_main_v26 (F := F) x2) := rfl
theorem v34_eq : val_main_v34 (F := F) x2 = numW (val_main_v30 (F := F) x2) (val_main_v28 (F := F) x2) := rfl

/-- The edge count of the plane (b, c). -/
theorem cntE_apply (b : Fin 8) (c : Fin 13) :
    val_main_v26 (F := F) x2 (ix2 b c) = BitVec.ofNat 32 (cntN (edgeM (labOf x2) b c)) := by
  rw [v26_eq]
  exact cntW_apply _ (edgeM (labOf x2) b c) b c (fun r q => v22_apply x2 b c r q)

/-- The body count of the plane (b, c). -/
theorem cntB_apply (b : Fin 8) (c : Fin 13) :
    val_main_v28 (F := F) x2 (ix2 b c) = BitVec.ofNat 32 (cntN (bodyM (labOf x2) b c)) := by
  rw [v28_eq]
  exact cntW_apply _ (bodyM (labOf x2) b c) b c (fun r q => v24_apply x2 b c r q)

/-- The validity word of the class `c + 1` in the batch `b`. -/
theorem valid_apply (b : Fin 8) (c : Fin 13) :
    val_main_v30 (F := F) x2 (ix2 b c) = BitVec.ofBool (valid (labOf x2) b c) := by
  rw [v30_eq]
  exact validW_apply _ b c _ (lt_of_le_of_lt (cntN_le _) (by norm_num)) (cntE_apply x2 b c)

/-- The number of edge positions of the valid classes of the batch `b`. -/
theorem numE_apply (b : Fin 8) : val_main_v32 (F := F) x2 (ix1 b) = BitVec.ofNat 32 (numE (labOf x2) b) := by
  rw [v32_eq]
  exact numW_apply _ _ b (fun c => valid (labOf x2) b c) (fun c => cntN (edgeM (labOf x2) b c))
    (fun c => valid_apply x2 b c) (fun c => cntE_apply x2 b c)

/-- The number of body positions of the valid classes of the batch `b`. -/
theorem numB_apply (b : Fin 8) : val_main_v34 (F := F) x2 (ix1 b) = BitVec.ofNat 32 (numB (labOf x2) b) := by
  rw [v34_eq]
  exact numW_apply _ _ b (fun c => valid (labOf x2) b c) (fun c => cntN (bodyM (labOf x2) b c))
    (fun c => valid_apply x2 b c) (fun c => cntB_apply x2 b c)

end Counts

section Losses
variable (x0 x1 : (⟨S8x14x512x512, .f32⟩ : BufTy).Contents (Elt Ideal)) (x2 : (⟨S8x1x512x512, .i32⟩ : BufTy).Contents (Elt Ideal))
  (A0 A1 : SLog.Idx → ℝ)

/-! ## The edge loss -/

theorem v41_eq : val_main_v41 (F := Ideal) x0 x2 = mlogitsW x0 (val_main_v22 (F := Ideal) x2) := rfl
theorem v46_eq : val_main_v46 (F := Ideal) x1 x2 = mlogitsW x1 (val_main_v22 (F := Ideal) x2) := rfl
theorem v54_eq : val_main_v54 (F := Ideal) x0 x1 x2
    = klW (val_main_v41 (F := Ideal) x0 x2) (val_main_v46 (F := Ideal) x1 x2) := rfl
theorem v77_eq : val_main_v77 (F := Ideal) x0 x1 x2
    = accW (val_main_v30 (F := Ideal) x2) (val_main_v54 (F := Ideal) x0 x1 x2) := rfl
theorem v88_eq : val_main_v88 (F := Ideal) x0 x1 x2
    = perW (val_main_v77 (F := Ideal) x0 x1 x2) (val_main_v32 (F := Ideal) x2) := rfl
theorem v95_eq : val_main_v95 (F := Ideal) x0 x1 x2
    = lossW 0x43FA0000#32 (val_main_v88 (F := Ideal) x0 x1 x2) := rfl

section
variable (h0 : ∀ i, x0 i = ((A0 i : ℝ) : EReal)) (h1 : ∀ i, x1 i = ((A1 i : ℝ) : EReal))
include h0 h1

/-- The divergence of the plane (b, c) under the edge mask. -/
theorem klE_apply (b : Fin 8) (c : Fin 13) :
    val_main_v54 (F := Ideal) x0 x1 x2 (ix2 b c)
      = ((klR (edgeM (labOf x2) b c) (plane (logitsOf A0) b c) (plane (logitsOf A1) b c) : ℝ) : EReal) := by
  rw [v54_eq]
  exact klW_apply _ _ b c _ _
    (fun k => by
      rw [v41_eq]
      exact mlogitsW_apply x0 _ A0 (edgeM (labOf x2) b c) b c h0 (fun p => v22_apply x2 b c p.1 p.2) k)
    (fun k => by
      rw [v46_eq]
      exact mlogitsW_apply x1 _ A1 (edgeM (labOf x2) b c) b c h1 (fun p => v22_apply x2 b c p.1 p.2) k)

/-- The divergences of the valid classes of the batch `b`, summed. -/
theorem accE_apply (b : Fin 8) :
    val_main_v77 (F := Ideal) x0 x1 x2 (ix1 b)
      = ((accOf klR edgeM (logitsOf A0) (logitsOf A1) (labOf x2) b : ℝ) : EReal) := by
  rw [v77_eq]
  exact accW_apply _ _ b (fun c => valid (labOf x2) b c)
    (fun c => klR (edgeM (labOf x2) b c) (plane (logitsOf A0) b c) (plane (logitsOf A1) b c))
    (fun c => valid_apply x2 b c) (fun c => klE_apply x0 x1 x2 A0 A1 h0 h1 b c)

/-- The normalised sum of the batch `b`. -/
theorem perE_apply (b : Fin 8) :
    val_main_v88 (F := Ideal) x0 x1 x2 (ix1 b)
      = ((perOf klR edgeM numE (logitsOf A0) (logitsOf A1) (labOf x2) b : ℝ) : EReal) := by
  rw [v88_eq]
  exact perW_apply _ _ b _ (numE (labOf x2) b) (lt_of_le_of_lt (numE_le _ _) (by norm_num))
    (accE_apply x0 x1 x2 A0 A1 h0 h1 b) (numE_apply x2 b)

/-- THE EDGE RESULT of the reference is the coercion of the specification's edge loss. -/
theorem ref_edges :
    val_main_v95 (F := Ideal) x0 x1 x2
      = fun _ => ((lossOf 500 klR edgeM numE (logitsOf A0) (logitsOf A1) (labOf x2) : ℝ) : EReal) := by
  funext i
  rw [v95_eq]
  exact lossW_apply _ 500 ofBits_500 _
    (fun b => perOf klR edgeM numE (logitsOf A0) (logitsOf A1) (labOf x2) b)
    (fun b => perE_apply x0 x1 x2 A0 A1 h0 h1 b) i

end

/-! ## The body loss -/

theorem v62_eq : val_main_v62 (F := Ideal) x0 x2 = mlogitsW x0 (val_main_v24 (F := Ideal) x2) := rfl
theorem v67_eq : val_main_v67 (F := Ideal) x1 x2 = mlogitsW x1 (val_main_v24 (F := Ideal) x2) := rfl
theorem v75_eq : val_main_v75 (F := Ideal) x0 x1 x2
    = klW (val_main_v62 (F := Ideal) x0 x2) (val_main_v67 (F := Ideal) x1 x2) := rfl
theorem v78_eq : val_main_v78 (F := Ideal) x0 x1 x2
    = accW (val_main_v30 (F := Ideal) x2) (val_main_v75 (F := Ideal) x0 x1 x2) := rfl
theorem v92_eq : val_main_v92 (F := Ideal) x0 x1 x2
    = perW (val_main_v78 (F := Ideal) x0 x1 x2) (val_main_v34 (F := Ideal) x2) := rfl
theorem v98_eq : val_main_v98 (F := Ideal) x0 x1 x2
    = lossW 0x43480000#32 (val_main_v92 (F := Ideal) x0 x1 x2) := rfl

section
variable (h0 : ∀ i, x0 i = ((A0 i : ℝ) : EReal)) (h1 : ∀ i, x1 i = ((A1 i : ℝ) : EReal))
include h0 h1

/-- The divergence of the plane (b, c) under the body mask. -/
theorem klB_apply (b : Fin 8) (c : Fin 13) :
    val_main_v75 (F := Ideal) x0 x1 x2 (ix2 b c)
      = ((klR (bodyM (labOf x2) b c) (plane (logitsOf A0) b c) (plane (logitsOf A1) b c) : ℝ) : EReal) := by
  rw [v75_eq]
  exact klW_apply _ _ b c _ _
    (fun k => by
      rw [v62_eq]
      exact mlogitsW_apply x0 _ A0 (bodyM (labOf x2) b c) b c h0 (fun p => v24_apply x2 b c p.1 p.2) k)
    (fun k => by
      rw [v67_eq]
      exact mlogitsW_apply x1 _ A1 (bodyM (labOf x2) b c) b c h1 (fun p => v24_apply x2 b c p.1 p.2) k)

/-- The divergences of the valid classes of the batch `b`, summed. -/
theorem accB_apply (b : Fin 8) :
    val_main_v78 (F := Ideal) x0 x1 x2 (ix1 b)
      = ((accOf klR bodyM (logitsOf A0) (logitsOf A1) (labOf x2) b : ℝ) : EReal) := by
  rw [v78_eq]
  exact accW_apply _ _ b (fun c => valid (labOf x2) b c)
    (fun c => klR (bodyM (labOf x2) b c) (plane (logitsOf A0) b c) (plane (logitsOf A1) b c))
    (fun c => valid_apply x2 b c) (fun c => klB_apply x0 x1 x2 A0 A1 h0 h1 b c)

/-- The normalised sum of the batch `b`. -/
theorem perB_apply (b : Fin 8) :
    val_main_v92 (F := Ideal) x0 x1 x2 (ix1 b)
      = ((perOf klR bodyM numB (logitsOf A0) (logitsOf A1) (labOf x2) b : ℝ) : EReal) := by
  rw [v92_eq]
  exact perW_apply _ _ b _ (numB (labOf x2) b) (lt_of_le_of_lt (numB_le _ _) (by norm_num))
    (accB_apply x0 x1 x2 A0 A1 h0 h1 b) (numB_apply x2 b)

/-- THE BODY RESULT of the reference is the coercion of the specification's body loss. -/
theorem ref_bodies :
    val_main_v98 (F := Ideal) x0 x1 x2
      = fun _ => ((lossOf 200 klR bodyM numB (logitsOf A0) (logitsOf A1) (labOf x2) : ℝ) : EReal) := by
  funext i
  rw [v98_eq]
  exact lossW_apply _ 200 ofBits_200 _
    (fun b => perOf klR bodyM numB (logitsOf A0) (logitsOf A1) (labOf x2) b)
    (fun b => perB_apply x0 x1 x2 A0 A1 h0 h1 b) i

end

end Losses

end Cert.RefValue

end
-- ==== Proof.RefStaged.lean ====
/-
  The reference program's run, read against its staged values.

  The program is a list of 204 host operations; `after ops V` is the valuation of the buffers after running them from
  `V`. Every operation writes one buffer, once, and the staged value `val_b` of a buffer `b` is its operation's function
  applied to the staged values of the buffers it reads. The list is cut into eight consecutive stretches. For each stretch
  one lemma, generic in the incoming valuation `W`: if `W` holds the staged value at every buffer that the stretch or a
  later one still reads (and the three arguments' contents at the arguments), then `after s W` holds the staged value
  at every buffer read after the stretch (and the arguments are unchanged). Inside a stretch the value at a buffer is
  computed by unfolding the operations of that stretch only, then the incoming facts are rewritten in, and what is left
  is the definition of the staged value. Chaining the eight lemmas along `after (l₁ ++ l₂) V = after l₂ (after l₁ V)`
  gives the two results' staged values after the whole list, and `run_seq` turns that into the statement about every
  weakly fair execution.
-/
import proofs.«177475_j24979529793864_2_alg».proof.Proof.RefRun
import proofs.«177475_j24979529793864_2_alg».proof.Proof.RefRead
import Idealize.ShloMosaic.Lib.StableHlo.Run

noncomputable section

namespace Cert.ReferenceIdeal.Staged

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-- Running a concatenation of two operation lists is running the first and then the second. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Operations 0 to 28 of the program, in order. -/
abbrev s1 : List (HloOp τ sig (Elt F)) :=
  [ reshape main_arg2 main_v0 rfl shapeCasts_S8x1x512x512_S8x512x512,
    nullary main_v1 (iotaInDim S13 32 0),
    nullary main_c (constantI S_ 32 1#32),
    unary main_c main_v2 (broadcastInDim S13 ![] bcast_S_S13 : (⟨S_, .i32⟩ : BufTy).Contents (Elt F) → (⟨S13, .i32⟩ : BufTy).Contents (Elt F)),
    binary main_v2 main_v1 main_v3 (addi : (⟨S13, .i32⟩ : BufTy).Contents (Elt F) → (⟨S13, .i32⟩ : BufTy).Contents (Elt F) → (⟨S13, .i32⟩ : BufTy).Contents (Elt F)),
    unary main_v0 main_v4 (broadcastInDim S8x1x512x512 ![0, 2, 3] bcast_S8x512x512_S8x1x512x512_0_2_3 : (⟨S8x512x512, .i32⟩ : BufTy).Contents (Elt F) → (⟨S8x1x512x512, .i32⟩ : BufTy).Contents (Elt F)),
    unary main_v3 main_v5 (broadcastInDim S1x13x1x1 ![1] bcast_S13_S1x13x1x1_1 : (⟨S13, .i32⟩ : BufTy).Contents (Elt F) → (⟨S1x13x1x1, .i32⟩ : BufTy).Contents (Elt F)),
    unary main_v4 main_v6 (broadcastInDim S8x13x512x512 ![0, 1, 2, 3] bcast_S8x1x512x512_S8x13x512x512_0_1_2_3 : (⟨S8x1x512x512, .i32⟩ : BufTy).Contents (Elt F) → (⟨S8x13x512x512, .i32⟩ : BufTy).Contents (Elt F)),
    unary main_v5 main_v7 (broadcastInDim S8x13x512x512 ![0, 1, 2, 3] bcast_S1x13x1x1_S8x13x512x512_0_1_2_3 : (⟨S1x13x1x1, .i32⟩ : BufTy).Contents (Elt F) → (⟨S8x13x512x512, .i32⟩ : BufTy).Contents (Elt F)),
    binary main_v6 main_v7 main_v8 (cmpi .eq : (⟨S8x13x512x512, .i32⟩ : BufTy).Contents (Elt F) → (⟨S8x13x512x512, .i32⟩ : BufTy).Contents (Elt F) → (⟨S8x13x512x512, .i1⟩ : BufTy).Contents (Elt F)),
    nullary main_c_0 (constantI S_ 32 0#32),
    TRef.nullary (TRef.of (T := ⟨S_, .i32⟩) main_call0_c) (constantI S_ 32 0#32),
    TRef.unary (TRef.of (T := ⟨S_, .i32⟩) main_call0_c) (TRef.of (T := ⟨S_, .i32⟩) main_call0_v0) (broadcastInDim S_ ![] bcast_S_S_),
    TRef.binary (TRef.of (T := ⟨S_, .i32⟩) main_c_0) (TRef.of (T := ⟨S_, .i32⟩) main_call0_v0) (TRef.of (T := ⟨S_, .i1⟩) main_call0_v1) (cmpi .ne),
    TRef.unary (TRef.of (T := ⟨S_, .i1⟩) main_call0_v1) (TRef.of (T := ⟨S_, .i1⟩) main_call0_v2) id,
    TRef.binary (TRef.of (T := ⟨S8x13x512x512, .i1⟩) main_v8) (TRef.of (T := ⟨S_, .i1⟩) main_call0_v2) (TRef.of (T := ⟨S8x13x514x514, .i1⟩) main_v9) (fun x v => pad S8x13x514x514 ![0, 0, 1, 1] ![0, 0, 1, 1] ![0, 0, 0, 0] x v pads_S8x13x512x512_S8x13x514x514_000_000_110_110 h_S_),
    unary main_v9 main_v10 ((extractStridedSlice S8x13x512x512 ![0, 0, 0, 1] · slices_S8x13x514x514_S8x13x512x512_0_0_0_1) : (⟨S8x13x514x514, .i1⟩ : BufTy).Contents (Elt F) → (⟨S8x13x512x512, .i1⟩ : BufTy).Contents (Elt F)),
    unary main_v9 main_v11 ((extractStridedSlice S8x13x512x512 ![0, 0, 2, 1] · slices_S8x13x514x514_S8x13x512x512_0_0_2_1) : (⟨S8x13x514x514, .i1⟩ : BufTy).Contents (Elt F) → (⟨S8x13x512x512, .i1⟩ : BufTy).Contents (Elt F)),
    unary main_v9 main_v12 ((extractStridedSlice S8x13x512x512 ![0, 0, 1, 0] · slices_S8x13x514x514_S8x13x512x512_0_0_1_0) : (⟨S8x13x514x514, .i1⟩ : BufTy).Contents (Elt F) → (⟨S8x13x512x512, .i1⟩ : BufTy).Contents (Elt F)),
    unary main_v9 main_v13 ((extractStridedSlice S8x13x512x512 ![0, 0, 1, 2] · slices_S8x13x514x514_S8x13x512x512_0_0_1_2) : (⟨S8x13x514x514, .i1⟩ : BufTy).Contents (Elt F) → (⟨S8x13x512x512, .i1⟩ : BufTy).Contents (Elt F)),
    binary main_v8 main_v10 main_v14 (ori : (⟨S8x13x512x512, .i1⟩ : BufTy).Contents (Elt F) → (⟨S8x13x512x512, .i1⟩ : BufTy).Contents (Elt F) → (⟨S8x13x512x512, .i1⟩ : BufTy).Contents (Elt F)),
    binary main_v14 main_v11 main_v15 (ori : (⟨S8x13x512x512, .i1⟩ : BufTy).Contents (Elt F) → (⟨S8x13x512x512, .i1⟩ : BufTy).Contents (Elt F) → (⟨S8x13x512x512, .i1⟩ : BufTy).Contents (Elt F)),
    binary main_v15 main_v12 main_v16 (ori : (⟨S8x13x512x512, .i1⟩ : BufTy).Contents (Elt F) → (⟨S8x13x512x512, .i1⟩ : BufTy).Contents (Elt F) → (⟨S8x13x512x512, .i1⟩ : BufTy).Contents (Elt F)),
    binary main_v16 main_v13 main_v17 (ori : (⟨S8x13x512x512, .i1⟩ : BufTy).Contents (Elt F) → (⟨S8x13x512x512, .i1⟩ : BufTy).Contents (Elt F) → (⟨S8x13x512x512, .i1⟩ : BufTy).Contents (Elt F)),
    binary main_v8 main_v10 main_v18 (andi : (⟨S8x13x512x512, .i1⟩ : BufTy).Contents (Elt F) → (⟨S8x13x512x512, .i1⟩ : BufTy).Contents (Elt F) → (⟨S8x13x512x512, .i1⟩ : BufTy).Contents (Elt F)),
    binary main_v18 main_v11 main_v19 (andi : (⟨S8x13x512x512, .i1⟩ : BufTy).Contents (Elt F) → (⟨S8x13x512x512, .i1⟩ : BufTy).Contents (Elt F) → (⟨S8x13x512x512, .i1⟩ : BufTy).Contents (Elt F)),
    binary main_v19 main_v12 main_v20 (andi : (⟨S8x13x512x512, .i1⟩ : BufTy).Contents (Elt F) → (⟨S8x13x512x512, .i1⟩ : BufTy).Contents (Elt F) → (⟨S8x13x512x512, .i1⟩ : BufTy).Contents (Elt F)),
    binary main_v20 main_v13 main_v21 (andi : (⟨S8x13x512x512, .i1⟩ : BufTy).Contents (Elt F) → (⟨S8x13x512x512, .i1⟩ : BufTy).Contents (Elt F) → (⟨S8x13x512x512, .i1⟩ : BufTy).Contents (Elt F)),
    binary main_v17 main_v21 main_v22 (xori : (⟨S8x13x512x512, .i1⟩ : BufTy).Contents (Elt F) → (⟨S8x13x512x512, .i1⟩ : BufTy).Contents (Elt F) → (⟨S8x13x512x512, .i1⟩ : BufTy).Contents (Elt F)) ]

set_option maxRecDepth 8192 in
set_option maxHeartbeats 4000000 in
/-- Stretch 1: if the incoming valuation holds the staged values at the buffers read later, so does the outgoing one. -/
theorem stretch1 (W : Valuation τ sig (Elt F)) (x0 x1 : (⟨S8x14x512x512, .f32⟩ : BufTy).Contents (Elt F)) (x2 : (⟨S8x1x512x512, .i32⟩ : BufTy).Contents (Elt F))
    (h_main_arg2 : W (Proc.devRef .tc main_arg2) = x2)
    (h_main_arg0 : W (Proc.devRef .tc main_arg0) = x0)
    (h_main_arg1 : W (Proc.devRef .tc main_arg1) = x1) :
    after (s1 (F := F)) W (Proc.devRef .tc main_arg2) = x2
      ∧ after (s1 (F := F)) W (Proc.devRef .tc main_arg0) = x0
      ∧ after (s1 (F := F)) W (Proc.devRef .tc main_arg1) = x1
      ∧ after (s1 (F := F)) W (Proc.devRef .tc main_v8) = val_main_v8 (F := F) x2
      ∧ after (s1 (F := F)) W (Proc.devRef .tc main_v22) = val_main_v22 (F := F) x2 := by
  refine ⟨?_, ?_, ?_, ?_, ?_⟩ <;>
  (after_results_simp <;> (try simp only [cast_eq, h_main_arg2, h_main_arg0, h_main_arg1]) <;> (try rfl))

/-- Operations 29 to 53 of the program, in order. -/
abbrev s2 : List (HloOp τ sig (Elt F)) :=
  [ unary main_v22 main_v23 (noti : (⟨S8x13x512x512, .i1⟩ : BufTy).Contents (Elt F) → (⟨S8x13x512x512, .i1⟩ : BufTy).Contents (Elt F)),
    binary main_v23 main_v8 main_v24 (andi : (⟨S8x13x512x512, .i1⟩ : BufTy).Contents (Elt F) → (⟨S8x13x512x512, .i1⟩ : BufTy).Contents (Elt F) → (⟨S8x13x512x512, .i1⟩ : BufTy).Contents (Elt F)),
    unary main_v22 main_v25 ((extui 32 · natLt_1_32) : (⟨S8x13x512x512, .i1⟩ : BufTy).Contents (Elt F) → (⟨S8x13x512x512, .i32⟩ : BufTy).Contents (Elt F)),
    nullary main_c_1 (constantI S_ 32 0#32),
    binary main_v25 main_c_1 main_v26 ((fun x v => Host.reduce IntOp.addi x v reducesTo_S8x13x512x512_S8x13_d2_3 h_S_) : (⟨S8x13x512x512, .i32⟩ : BufTy).Contents (Elt F) → (⟨S_, .i32⟩ : BufTy).Contents (Elt F) → (⟨S8x13, .i32⟩ : BufTy).Contents (Elt F)),
    unary main_v24 main_v27 ((extui 32 · natLt_1_32) : (⟨S8x13x512x512, .i1⟩ : BufTy).Contents (Elt F) → (⟨S8x13x512x512, .i32⟩ : BufTy).Contents (Elt F)),
    nullary main_c_2 (constantI S_ 32 0#32),
    binary main_v27 main_c_2 main_v28 ((fun x v => Host.reduce IntOp.addi x v reducesTo_S8x13x512x512_S8x13_d2_3 h_S_) : (⟨S8x13x512x512, .i32⟩ : BufTy).Contents (Elt F) → (⟨S_, .i32⟩ : BufTy).Contents (Elt F) → (⟨S8x13, .i32⟩ : BufTy).Contents (Elt F)),
    nullary main_c_3 (constantI S_ 32 0#32),
    unary main_c_3 main_v29 (broadcastInDim S8x13 ![] bcast_S_S8x13 : (⟨S_, .i32⟩ : BufTy).Contents (Elt F) → (⟨S8x13, .i32⟩ : BufTy).Contents (Elt F)),
    binary main_v26 main_v29 main_v30 (cmpi .sgt : (⟨S8x13, .i32⟩ : BufTy).Contents (Elt F) → (⟨S8x13, .i32⟩ : BufTy).Contents (Elt F) → (⟨S8x13, .i1⟩ : BufTy).Contents (Elt F)),
    nullary main_c_4 (constantI S_ 32 0#32),
    TRef.unary (TRef.of (T := ⟨S_, .i32⟩) main_c_4) (TRef.of (T := ⟨S_, .i32⟩) main_call1_v0) id,
    TRef.unary (TRef.of (T := ⟨S_, .i32⟩) main_call1_v0) (TRef.of (T := ⟨S8x13, .i32⟩) main_call1_v1) (broadcastInDim S8x13 ![] bcast_S_S8x13),
    TRef.ternary (TRef.of (T := ⟨S8x13, .i1⟩) main_v30) (TRef.of (T := ⟨S8x13, .i32⟩) main_v26) (TRef.of (T := ⟨S8x13, .i32⟩) main_call1_v1) (TRef.of (T := ⟨S8x13, .i32⟩) main_v31) select,
    nullary main_c_5 (constantI S_ 32 0#32),
    binary main_v31 main_c_5 main_v32 ((fun x v => Host.reduce IntOp.addi x v reducesTo_S8x13_S8_d1 h_S_) : (⟨S8x13, .i32⟩ : BufTy).Contents (Elt F) → (⟨S_, .i32⟩ : BufTy).Contents (Elt F) → (⟨S8, .i32⟩ : BufTy).Contents (Elt F)),
    nullary main_c_6 (constantI S_ 32 0#32),
    TRef.unary (TRef.of (T := ⟨S_, .i32⟩) main_c_6) (TRef.of (T := ⟨S_, .i32⟩) main_call2_v0) id,
    TRef.unary (TRef.of (T := ⟨S_, .i32⟩) main_call2_v0) (TRef.of (T := ⟨S8x13, .i32⟩) main_call2_v1) (broadcastInDim S8x13 ![] bcast_S_S8x13),
    TRef.ternary (TRef.of (T := ⟨S8x13, .i1⟩) main_v30) (TRef.of (T := ⟨S8x13, .i32⟩) main_v28) (TRef.of (T := ⟨S8x13, .i32⟩) main_call2_v1) (TRef.of (T := ⟨S8x13, .i32⟩) main_v33) select,
    nullary main_c_7 (constantI S_ 32 0#32),
    binary main_v33 main_c_7 main_v34 ((fun x v => Host.reduce IntOp.addi x v reducesTo_S8x13_S8_d1 h_S_) : (⟨S8x13, .i32⟩ : BufTy).Contents (Elt F) → (⟨S_, .i32⟩ : BufTy).Contents (Elt F) → (⟨S8, .i32⟩ : BufTy).Contents (Elt F)),
    reshape main_v22 main_v35 rfl shapeCasts_S8x13x512x512_S8x13x262144,
    unary main_v35 main_v36 (uitofp .f32 : (⟨S8x13x262144, .i1⟩ : BufTy).Contents (Elt F) → (⟨S8x13x262144, .f32⟩ : BufTy).Contents (Elt F)) ]

set_option maxRecDepth 8192 in
set_option maxHeartbeats 4000000 in
/-- Stretch 2: if the incoming valuation holds the staged values at the buffers read later, so does the outgoing one. -/
theorem stretch2 (W : Valuation τ sig (Elt F)) (x0 x1 : (⟨S8x14x512x512, .f32⟩ : BufTy).Contents (Elt F)) (x2 : (⟨S8x1x512x512, .i32⟩ : BufTy).Contents (Elt F))
    (h_main_arg2 : W (Proc.devRef .tc main_arg2) = x2)
    (h_main_arg0 : W (Proc.devRef .tc main_arg0) = x0)
    (h_main_arg1 : W (Proc.devRef .tc main_arg1) = x1)
    (h_main_v8 : W (Proc.devRef .tc main_v8) = val_main_v8 (F := F) x2)
    (h_main_v22 : W (Proc.devRef .tc main_v22) = val_main_v22 (F := F) x2) :
    after (s2 (F := F)) W (Proc.devRef .tc main_arg2) = x2
      ∧ after (s2 (F := F)) W (Proc.devRef .tc main_arg0) = x0
      ∧ after (s2 (F := F)) W (Proc.devRef .tc main_arg1) = x1
      ∧ after (s2 (F := F)) W (Proc.devRef .tc main_v24) = val_main_v24 (F := F) x2
      ∧ after (s2 (F := F)) W (Proc.devRef .tc main_v30) = val_main_v30 (F := F) x2
      ∧ after (s2 (F := F)) W (Proc.devRef .tc main_v32) = val_main_v32 (F := F) x2
      ∧ after (s2 (F := F)) W (Proc.devRef .tc main_v34) = val_main_v34 (F := F) x2
      ∧ after (s2 (F := F)) W (Proc.devRef .tc main_v36) = val_main_v36 (F := F) x2 := by
  refine ⟨?_, ?_, ?_, ?_, ?_, ?_, ?_, ?_⟩ <;>
  (after_results_simp <;> (try simp only [cast_eq, h_main_arg2, h_main_arg0, h_main_arg1, h_main_v8, h_main_v22]) <;> (try rfl))

/-- Operations 54 to 73 of the program, in order. -/
abbrev s3 : List (HloOp τ sig (Elt F)) :=
  [ unary main_arg0 main_v37 ((extractStridedSlice S8x13x512x512 ![0, 1, 0, 0] · slices_S8x14x512x512_S8x13x512x512_0_1_0_0) : (⟨S8x14x512x512, .f32⟩ : BufTy).Contents (Elt F) → (⟨S8x13x512x512, .f32⟩ : BufTy).Contents (Elt F)),
    reshape main_v37 main_v38 rfl shapeCasts_S8x13x512x512_S8x13x262144,
    binary main_v38 main_v36 main_v39 (mulf : (⟨S8x13x262144, .f32⟩ : BufTy).Contents (Elt F) → (⟨S8x13x262144, .f32⟩ : BufTy).Contents (Elt F) → (⟨S8x13x262144, .f32⟩ : BufTy).Contents (Elt F)),
    nullary main_cst (constant S_ .f32 0x3F800000#32),
    unary main_cst main_v40 (broadcastInDim S8x13x262144 ![] bcast_S_S8x13x262144 : (⟨S_, .f32⟩ : BufTy).Contents (Elt F) → (⟨S8x13x262144, .f32⟩ : BufTy).Contents (Elt F)),
    binary main_v39 main_v40 main_v41 (Host.divf : (⟨S8x13x262144, .f32⟩ : BufTy).Contents (Elt F) → (⟨S8x13x262144, .f32⟩ : BufTy).Contents (Elt F) → (⟨S8x13x262144, .f32⟩ : BufTy).Contents (Elt F)),
    unary main_arg1 main_v42 ((extractStridedSlice S8x13x512x512 ![0, 1, 0, 0] · slices_S8x14x512x512_S8x13x512x512_0_1_0_0) : (⟨S8x14x512x512, .f32⟩ : BufTy).Contents (Elt F) → (⟨S8x13x512x512, .f32⟩ : BufTy).Contents (Elt F)),
    reshape main_v42 main_v43 rfl shapeCasts_S8x13x512x512_S8x13x262144,
    binary main_v43 main_v36 main_v44 (mulf : (⟨S8x13x262144, .f32⟩ : BufTy).Contents (Elt F) → (⟨S8x13x262144, .f32⟩ : BufTy).Contents (Elt F) → (⟨S8x13x262144, .f32⟩ : BufTy).Contents (Elt F)),
    nullary main_cst_8 (constant S_ .f32 0x3F800000#32),
    unary main_cst_8 main_v45 (broadcastInDim S8x13x262144 ![] bcast_S_S8x13x262144 : (⟨S_, .f32⟩ : BufTy).Contents (Elt F) → (⟨S8x13x262144, .f32⟩ : BufTy).Contents (Elt F)),
    binary main_v44 main_v45 main_v46 (Host.divf : (⟨S8x13x262144, .f32⟩ : BufTy).Contents (Elt F) → (⟨S8x13x262144, .f32⟩ : BufTy).Contents (Elt F) → (⟨S8x13x262144, .f32⟩ : BufTy).Contents (Elt F)),
    TRef.nullary (TRef.of (T := ⟨S_, .f32⟩) main_call3_cst) (constant S_ .f32 0xFF800000#32),
    TRef.binary (TRef.of (T := ⟨S8x13x262144, .f32⟩) main_v41) (TRef.of (T := ⟨S_, .f32⟩) main_call3_cst) (TRef.of (T := ⟨S8x13, .f32⟩) main_call3_v0) (fun x v => Host.reduce FloatOps.maximumf x v reducesTo_S8x13x262144_S8x13_d2 h_S_),
    TRef.nullary (TRef.of (T := ⟨S_, .f32⟩) main_call3_cst_0) (constant S_ .f32 0xFF800000#32),
    TRef.unary (TRef.of (T := ⟨S_, .f32⟩) main_call3_cst_0) (TRef.of (T := ⟨S8x13, .f32⟩) main_call3_v1) (broadcastInDim S8x13 ![] bcast_S_S8x13),
    TRef.binary (TRef.of (T := ⟨S8x13, .f32⟩) main_call3_v1) (TRef.of (T := ⟨S8x13, .f32⟩) main_call3_v0) (TRef.of (T := ⟨S8x13, .f32⟩) main_call3_v2) maximumf,
    TRef.unary (TRef.of (T := ⟨S8x13, .f32⟩) main_call3_v2) (TRef.of (T := ⟨S8x13x1, .f32⟩) main_call3_v3) (broadcastInDim S8x13x1 ![0, 1] bcast_S8x13_S8x13x1_0_1),
    TRef.unary (TRef.of (T := ⟨S8x13x1, .f32⟩) main_call3_v3) (TRef.of (T := ⟨S8x13x262144, .f32⟩) main_call3_v4) (broadcastInDim S8x13x262144 ![0, 1, 2] bcast_S8x13x1_S8x13x262144_0_1_2),
    TRef.binary (TRef.of (T := ⟨S8x13x262144, .f32⟩) main_v41) (TRef.of (T := ⟨S8x13x262144, .f32⟩) main_call3_v4) (TRef.of (T := ⟨S8x13x262144, .f32⟩) main_call3_v5) subf ]

set_option maxRecDepth 8192 in
set_option maxHeartbeats 4000000 in
/-- Stretch 3: if the incoming valuation holds the staged values at the buffers read later, so does the outgoing one. -/
theorem stretch3 (W : Valuation τ sig (Elt F)) (x0 x1 : (⟨S8x14x512x512, .f32⟩ : BufTy).Contents (Elt F)) (x2 : (⟨S8x1x512x512, .i32⟩ : BufTy).Contents (Elt F))
    (h_main_arg2 : W (Proc.devRef .tc main_arg2) = x2)
    (h_main_arg0 : W (Proc.devRef .tc main_arg0) = x0)
    (h_main_arg1 : W (Proc.devRef .tc main_arg1) = x1)
    (h_main_v24 : W (Proc.devRef .tc main_v24) = val_main_v24 (F := F) x2)
    (h_main_v30 : W (Proc.devRef .tc main_v30) = val_main_v30 (F := F) x2)
    (h_main_v32 : W (Proc.devRef .tc main_v32) = val_main_v32 (F := F) x2)
    (h_main_v34 : W (Proc.devRef .tc main_v34) = val_main_v34 (F := F) x2)
    (h_main_v36 : W (Proc.devRef .tc main_v36) = val_main_v36 (F := F) x2) :
    after (s3 (F := F)) W (Proc.devRef .tc main_arg2) = x2
      ∧ after (s3 (F := F)) W (Proc.devRef .tc main_arg0) = x0
      ∧ after (s3 (F := F)) W (Proc.devRef .tc main_arg1) = x1
      ∧ after (s3 (F := F)) W (Proc.devRef .tc main_v24) = val_main_v24 (F := F) x2
      ∧ after (s3 (F := F)) W (Proc.devRef .tc main_v30) = val_main_v30 (F := F) x2
      ∧ after (s3 (F := F)) W (Proc.devRef .tc main_v32) = val_main_v32 (F := F) x2
      ∧ after (s3 (F := F)) W (Proc.devRef .tc main_v34) = val_main_v34 (F := F) x2
      ∧ after (s3 (F := F)) W (Proc.devRef .tc main_v46) = val_main_v46 (F := F) x1 x2
      ∧ after (s3 (F := F)) W (Proc.devRef .tc main_call3_v5) = val_main_call3_v5 (F := F) x0 x2 := by
  refine ⟨?_, ?_, ?_, ?_, ?_, ?_, ?_, ?_, ?_⟩ <;>
  (after_results_simp <;> (try simp only [cast_eq, h_main_arg2, h_main_arg0, h_main_arg1, h_main_v24, h_main_v30, h_main_v32, h_main_v34, h_main_v36]) <;> (try rfl))

/-- Operations 74 to 98 of the program, in order. -/
abbrev s4 : List (HloOp τ sig (Elt F)) :=
  [ TRef.unary (TRef.of (T := ⟨S8x13x262144, .f32⟩) main_call3_v5) (TRef.of (T := ⟨S8x13x262144, .f32⟩) main_call3_v6) Host.exp,
    TRef.nullary (TRef.of (T := ⟨S_, .f32⟩) main_call3_cst_1) (constant S_ .f32 0x00000000#32),
    TRef.binary (TRef.of (T := ⟨S8x13x262144, .f32⟩) main_call3_v6) (TRef.of (T := ⟨S_, .f32⟩) main_call3_cst_1) (TRef.of (T := ⟨S8x13, .f32⟩) main_call3_v7) (fun x v => Host.reduceAdd x v reducesTo_S8x13x262144_S8x13_d2 h_S_),
    TRef.unary (TRef.of (T := ⟨S8x13, .f32⟩) main_call3_v7) (TRef.of (T := ⟨S8x13x1, .f32⟩) main_call3_v8) (broadcastInDim S8x13x1 ![0, 1] bcast_S8x13_S8x13x1_0_1),
    TRef.unary (TRef.of (T := ⟨S8x13x1, .f32⟩) main_call3_v8) (TRef.of (T := ⟨S8x13x1, .f32⟩) main_call3_v9) Host.log,
    TRef.unary (TRef.of (T := ⟨S8x13x1, .f32⟩) main_call3_v9) (TRef.of (T := ⟨S8x13x262144, .f32⟩) main_call3_v10) (broadcastInDim S8x13x262144 ![0, 1, 2] bcast_S8x13x1_S8x13x262144_0_1_2),
    TRef.binary (TRef.of (T := ⟨S8x13x262144, .f32⟩) main_call3_v5) (TRef.of (T := ⟨S8x13x262144, .f32⟩) main_call3_v10) (TRef.of (T := ⟨S8x13x262144, .f32⟩) main_v47) subf,
    TRef.nullary (TRef.of (T := ⟨S_, .f32⟩) main_call4_cst) (constant S_ .f32 0xFF800000#32),
    TRef.binary (TRef.of (T := ⟨S8x13x262144, .f32⟩) main_v46) (TRef.of (T := ⟨S_, .f32⟩) main_call4_cst) (TRef.of (T := ⟨S8x13, .f32⟩) main_call4_v0) (fun x v => Host.reduce FloatOps.maximumf x v reducesTo_S8x13x262144_S8x13_d2 h_S_),
    TRef.nullary (TRef.of (T := ⟨S_, .f32⟩) main_call4_cst_0) (constant S_ .f32 0xFF800000#32),
    TRef.unary (TRef.of (T := ⟨S_, .f32⟩) main_call4_cst_0) (TRef.of (T := ⟨S8x13, .f32⟩) main_call4_v1) (broadcastInDim S8x13 ![] bcast_S_S8x13),
    TRef.binary (TRef.of (T := ⟨S8x13, .f32⟩) main_call4_v1) (TRef.of (T := ⟨S8x13, .f32⟩) main_call4_v0) (TRef.of (T := ⟨S8x13, .f32⟩) main_call4_v2) maximumf,
    TRef.unary (TRef.of (T := ⟨S8x13, .f32⟩) main_call4_v2) (TRef.of (T := ⟨S8x13x1, .f32⟩) main_call4_v3) (broadcastInDim S8x13x1 ![0, 1] bcast_S8x13_S8x13x1_0_1),
    TRef.unary (TRef.of (T := ⟨S8x13x1, .f32⟩) main_call4_v3) (TRef.of (T := ⟨S8x13x262144, .f32⟩) main_call4_v4) (broadcastInDim S8x13x262144 ![0, 1, 2] bcast_S8x13x1_S8x13x262144_0_1_2),
    TRef.binary (TRef.of (T := ⟨S8x13x262144, .f32⟩) main_v46) (TRef.of (T := ⟨S8x13x262144, .f32⟩) main_call4_v4) (TRef.of (T := ⟨S8x13x262144, .f32⟩) main_call4_v5) subf,
    TRef.unary (TRef.of (T := ⟨S8x13x262144, .f32⟩) main_call4_v5) (TRef.of (T := ⟨S8x13x262144, .f32⟩) main_call4_v6) Host.exp,
    TRef.nullary (TRef.of (T := ⟨S_, .f32⟩) main_call4_cst_1) (constant S_ .f32 0x00000000#32),
    TRef.binary (TRef.of (T := ⟨S8x13x262144, .f32⟩) main_call4_v6) (TRef.of (T := ⟨S_, .f32⟩) main_call4_cst_1) (TRef.of (T := ⟨S8x13, .f32⟩) main_call4_v7) (fun x v => Host.reduceAdd x v reducesTo_S8x13x262144_S8x13_d2 h_S_),
    TRef.unary (TRef.of (T := ⟨S8x13, .f32⟩) main_call4_v7) (TRef.of (T := ⟨S8x13x1, .f32⟩) main_call4_v8) (broadcastInDim S8x13x1 ![0, 1] bcast_S8x13_S8x13x1_0_1),
    TRef.unary (TRef.of (T := ⟨S8x13x1, .f32⟩) main_call4_v8) (TRef.of (T := ⟨S8x13x1, .f32⟩) main_call4_v9) Host.log,
    TRef.unary (TRef.of (T := ⟨S8x13x1, .f32⟩) main_call4_v9) (TRef.of (T := ⟨S8x13x262144, .f32⟩) main_call4_v10) (broadcastInDim S8x13x262144 ![0, 1, 2] bcast_S8x13x1_S8x13x262144_0_1_2),
    TRef.binary (TRef.of (T := ⟨S8x13x262144, .f32⟩) main_call4_v5) (TRef.of (T := ⟨S8x13x262144, .f32⟩) main_call4_v10) (TRef.of (T := ⟨S8x13x262144, .f32⟩) main_v48) subf,
    unary main_v48 main_v49 (Host.exp : (⟨S8x13x262144, .f32⟩ : BufTy).Contents (Elt F) → (⟨S8x13x262144, .f32⟩ : BufTy).Contents (Elt F)),
    binary main_v48 main_v47 main_v50 (subf : (⟨S8x13x262144, .f32⟩ : BufTy).Contents (Elt F) → (⟨S8x13x262144, .f32⟩ : BufTy).Contents (Elt F) → (⟨S8x13x262144, .f32⟩ : BufTy).Contents (Elt F)),
    binary main_v49 main_v50 main_v51 (mulf : (⟨S8x13x262144, .f32⟩ : BufTy).Contents (Elt F) → (⟨S8x13x262144, .f32⟩ : BufTy).Contents (Elt F) → (⟨S8x13x262144, .f32⟩ : BufTy).Contents (Elt F)) ]

set_option maxRecDepth 8192 in
set_option maxHeartbeats 4000000 in
/-- Stretch 4: if the incoming valuation holds the staged values at the buffers read later, so does the outgoing one. -/
theorem stretch4 (W : Valuation τ sig (Elt F)) (x0 x1 : (⟨S8x14x512x512, .f32⟩ : BufTy).Contents (Elt F)) (x2 : (⟨S8x1x512x512, .i32⟩ : BufTy).Contents (Elt F))
    (h_main_arg2 : W (Proc.devRef .tc main_arg2) = x2)
    (h_main_arg0 : W (Proc.devRef .tc main_arg0) = x0)
    (h_main_arg1 : W (Proc.devRef .tc main_arg1) = x1)
    (h_main_v24 : W (Proc.devRef .tc main_v24) = val_main_v24 (F := F) x2)
    (h_main_v30 : W (Proc.devRef .tc main_v30) = val_main_v30 (F := F) x2)
    (h_main_v32 : W (Proc.devRef .tc main_v32) = val_main_v32 (F := F) x2)
    (h_main_v34 : W (Proc.devRef .tc main_v34) = val_main_v34 (F := F) x2)
    (h_main_v46 : W (Proc.devRef .tc main_v46) = val_main_v46 (F := F) x1 x2)
    (h_main_call3_v5 : W (Proc.devRef .tc main_call3_v5) = val_main_call3_v5 (F := F) x0 x2) :
    after (s4 (F := F)) W (Proc.devRef .tc main_arg2) = x2
      ∧ after (s4 (F := F)) W (Proc.devRef .tc main_arg0) = x0
      ∧ after (s4 (F := F)) W (Proc.devRef .tc main_arg1) = x1
      ∧ after (s4 (F := F)) W (Proc.devRef .tc main_v24) = val_main_v24 (F := F) x2
      ∧ after (s4 (F := F)) W (Proc.devRef .tc main_v30) = val_main_v30 (F := F) x2
      ∧ after (s4 (F := F)) W (Proc.devRef .tc main_v32) = val_main_v32 (F := F) x2
      ∧ after (s4 (F := F)) W (Proc.devRef .tc main_v34) = val_main_v34 (F := F) x2
      ∧ after (s4 (F := F)) W (Proc.devRef .tc main_v51) = val_main_v51 (F := F) x0 x1 x2 := by
  refine ⟨?_, ?_, ?_, ?_, ?_, ?_, ?_, ?_⟩ <;>
  (after_results_simp <;> (try simp only [cast_eq, h_main_arg2, h_main_arg0, h_main_arg1, h_main_v24, h_main_v30, h_main_v32, h_main_v34, h_main_v46, h_main_call3_v5]) <;> (try rfl))

/-- Operations 99 to 129 of the program, in order. -/
abbrev s5 : List (HloOp τ sig (Elt F)) :=
  [ nullary main_cst_9 (constant S_ .f32 0x00000000#32),
    binary main_v51 main_cst_9 main_v52 ((fun x v => Host.reduceAdd x v reducesTo_S8x13x262144_S8x13_d2 h_S_) : (⟨S8x13x262144, .f32⟩ : BufTy).Contents (Elt F) → (⟨S_, .f32⟩ : BufTy).Contents (Elt F) → (⟨S8x13, .f32⟩ : BufTy).Contents (Elt F)),
    nullary main_cst_10 (constant S_ .f32 0x3F800000#32),
    unary main_cst_10 main_v53 (broadcastInDim S8x13 ![] bcast_S_S8x13 : (⟨S_, .f32⟩ : BufTy).Contents (Elt F) → (⟨S8x13, .f32⟩ : BufTy).Contents (Elt F)),
    binary main_v52 main_v53 main_v54 (mulf : (⟨S8x13, .f32⟩ : BufTy).Contents (Elt F) → (⟨S8x13, .f32⟩ : BufTy).Contents (Elt F) → (⟨S8x13, .f32⟩ : BufTy).Contents (Elt F)),
    nullary main_cst_11 (constant S_ .f32 0x00000000#32),
    TRef.unary (TRef.of (T := ⟨S_, .f32⟩) main_cst_11) (TRef.of (T := ⟨S_, .f32⟩) main_call5_v0) id,
    TRef.unary (TRef.of (T := ⟨S_, .f32⟩) main_call5_v0) (TRef.of (T := ⟨S8x13, .f32⟩) main_call5_v1) (broadcastInDim S8x13 ![] bcast_S_S8x13),
    TRef.ternary (TRef.of (T := ⟨S8x13, .i1⟩) main_v30) (TRef.of (T := ⟨S8x13, .f32⟩) main_v54) (TRef.of (T := ⟨S8x13, .f32⟩) main_call5_v1) (TRef.of (T := ⟨S8x13, .f32⟩) main_v55) select,
    reshape main_v24 main_v56 rfl shapeCasts_S8x13x512x512_S8x13x262144,
    unary main_v56 main_v57 (uitofp .f32 : (⟨S8x13x262144, .i1⟩ : BufTy).Contents (Elt F) → (⟨S8x13x262144, .f32⟩ : BufTy).Contents (Elt F)),
    unary main_arg0 main_v58 ((extractStridedSlice S8x13x512x512 ![0, 1, 0, 0] · slices_S8x14x512x512_S8x13x512x512_0_1_0_0) : (⟨S8x14x512x512, .f32⟩ : BufTy).Contents (Elt F) → (⟨S8x13x512x512, .f32⟩ : BufTy).Contents (Elt F)),
    reshape main_v58 main_v59 rfl shapeCasts_S8x13x512x512_S8x13x262144,
    binary main_v59 main_v57 main_v60 (mulf : (⟨S8x13x262144, .f32⟩ : BufTy).Contents (Elt F) → (⟨S8x13x262144, .f32⟩ : BufTy).Contents (Elt F) → (⟨S8x13x262144, .f32⟩ : BufTy).Contents (Elt F)),
    nullary main_cst_12 (constant S_ .f32 0x3F800000#32),
    unary main_cst_12 main_v61 (broadcastInDim S8x13x262144 ![] bcast_S_S8x13x262144 : (⟨S_, .f32⟩ : BufTy).Contents (Elt F) → (⟨S8x13x262144, .f32⟩ : BufTy).Contents (Elt F)),
    binary main_v60 main_v61 main_v62 (Host.divf : (⟨S8x13x262144, .f32⟩ : BufTy).Contents (Elt F) → (⟨S8x13x262144, .f32⟩ : BufTy).Contents (Elt F) → (⟨S8x13x262144, .f32⟩ : BufTy).Contents (Elt F)),
    unary main_arg1 main_v63 ((extractStridedSlice S8x13x512x512 ![0, 1, 0, 0] · slices_S8x14x512x512_S8x13x512x512_0_1_0_0) : (⟨S8x14x512x512, .f32⟩ : BufTy).Contents (Elt F) → (⟨S8x13x512x512, .f32⟩ : BufTy).Contents (Elt F)),
    reshape main_v63 main_v64 rfl shapeCasts_S8x13x512x512_S8x13x262144,
    binary main_v64 main_v57 main_v65 (mulf : (⟨S8x13x262144, .f32⟩ : BufTy).Contents (Elt F) → (⟨S8x13x262144, .f32⟩ : BufTy).Contents (Elt F) → (⟨S8x13x262144, .f32⟩ : BufTy).Contents (Elt F)),
    nullary main_cst_13 (constant S_ .f32 0x3F800000#32),
    unary main_cst_13 main_v66 (broadcastInDim S8x13x262144 ![] bcast_S_S8x13x262144 : (⟨S_, .f32⟩ : BufTy).Contents (Elt F) → (⟨S8x13x262144, .f32⟩ : BufTy).Contents (Elt F)),
    binary main_v65 main_v66 main_v67 (Host.divf : (⟨S8x13x262144, .f32⟩ : BufTy).Contents (Elt F) → (⟨S8x13x262144, .f32⟩ : BufTy).Contents (Elt F) → (⟨S8x13x262144, .f32⟩ : BufTy).Contents (Elt F)),
    TRef.nullary (TRef.of (T := ⟨S_, .f32⟩) main_call6_cst) (constant S_ .f32 0xFF800000#32),
    TRef.binary (TRef.of (T := ⟨S8x13x262144, .f32⟩) main_v62) (TRef.of (T := ⟨S_, .f32⟩) main_call6_cst) (TRef.of (T := ⟨S8x13, .f32⟩) main_call6_v0) (fun x v => Host.reduce FloatOps.maximumf x v reducesTo_S8x13x262144_S8x13_d2 h_S_),
    TRef.nullary (TRef.of (T := ⟨S_, .f32⟩) main_call6_cst_0) (constant S_ .f32 0xFF800000#32),
    TRef.unary (TRef.of (T := ⟨S_, .f32⟩) main_call6_cst_0) (TRef.of (T := ⟨S8x13, .f32⟩) main_call6_v1) (broadcastInDim S8x13 ![] bcast_S_S8x13),
    TRef.binary (TRef.of (T := ⟨S8x13, .f32⟩) main_call6_v1) (TRef.of (T := ⟨S8x13, .f32⟩) main_call6_v0) (TRef.of (T := ⟨S8x13, .f32⟩) main_call6_v2) maximumf,
    TRef.unary (TRef.of (T := ⟨S8x13, .f32⟩) main_call6_v2) (TRef.of (T := ⟨S8x13x1, .f32⟩) main_call6_v3) (broadcastInDim S8x13x1 ![0, 1] bcast_S8x13_S8x13x1_0_1),
    TRef.unary (TRef.of (T := ⟨S8x13x1, .f32⟩) main_call6_v3) (TRef.of (T := ⟨S8x13x262144, .f32⟩) main_call6_v4) (broadcastInDim S8x13x262144 ![0, 1, 2] bcast_S8x13x1_S8x13x262144_0_1_2),
    TRef.binary (TRef.of (T := ⟨S8x13x262144, .f32⟩) main_v62) (TRef.of (T := ⟨S8x13x262144, .f32⟩) main_call6_v4) (TRef.of (T := ⟨S8x13x262144, .f32⟩) main_call6_v5) subf ]

set_option maxRecDepth 8192 in
set_option maxHeartbeats 4000000 in
/-- Stretch 5: if the incoming valuation holds the staged values at the buffers read later, so does the outgoing one. -/
theorem stretch5 (W : Valuation τ sig (Elt F)) (x0 x1 : (⟨S8x14x512x512, .f32⟩ : BufTy).Contents (Elt F)) (x2 : (⟨S8x1x512x512, .i32⟩ : BufTy).Contents (Elt F))
    (h_main_arg2 : W (Proc.devRef .tc main_arg2) = x2)
    (h_main_arg0 : W (Proc.devRef .tc main_arg0) = x0)
    (h_main_arg1 : W (Proc.devRef .tc main_arg1) = x1)
    (h_main_v24 : W (Proc.devRef .tc main_v24) = val_main_v24 (F := F) x2)
    (h_main_v30 : W (Proc.devRef .tc main_v30) = val_main_v30 (F := F) x2)
    (h_main_v32 : W (Proc.devRef .tc main_v32) = val_main_v32 (F := F) x2)
    (h_main_v34 : W (Proc.devRef .tc main_v34) = val_main_v34 (F := F) x2)
    (h_main_v51 : W (Proc.devRef .tc main_v51) = val_main_v51 (F := F) x0 x1 x2) :
    after (s5 (F := F)) W (Proc.devRef .tc main_arg2) = x2
      ∧ after (s5 (F := F)) W (Proc.devRef .tc main_arg0) = x0
      ∧ after (s5 (F := F)) W (Proc.devRef .tc main_arg1) = x1
      ∧ after (s5 (F := F)) W (Proc.devRef .tc main_v30) = val_main_v30 (F := F) x2
      ∧ after (s5 (F := F)) W (Proc.devRef .tc main_v32) = val_main_v32 (F := F) x2
      ∧ after (s5 (F := F)) W (Proc.devRef .tc main_v34) = val_main_v34 (F := F) x2
      ∧ after (s5 (F := F)) W (Proc.devRef .tc main_v55) = val_main_v55 (F := F) x0 x1 x2
      ∧ after (s5 (F := F)) W (Proc.devRef .tc main_v67) = val_main_v67 (F := F) x1 x2
      ∧ after (s5 (F := F)) W (Proc.devRef .tc main_call6_v5) = val_main_call6_v5 (F := F) x0 x2 := by
  refine ⟨?_, ?_, ?_, ?_, ?_, ?_, ?_, ?_, ?_⟩ <;>
  (after_results_simp <;> (try simp only [cast_eq, h_main_arg2, h_main_arg0, h_main_arg1, h_main_v24, h_main_v30, h_main_v32, h_main_v34, h_main_v51]) <;> (try rfl))

/-- Operations 130 to 154 of the program, in order. -/
abbrev s6 : List (HloOp τ sig (Elt F)) :=
  [ TRef.unary (TRef.of (T := ⟨S8x13x262144, .f32⟩) main_call6_v5) (TRef.of (T := ⟨S8x13x262144, .f32⟩) main_call6_v6) Host.exp,
    TRef.nullary (TRef.of (T := ⟨S_, .f32⟩) main_call6_cst_1) (constant S_ .f32 0x00000000#32),
    TRef.binary (TRef.of (T := ⟨S8x13x262144, .f32⟩) main_call6_v6) (TRef.of (T := ⟨S_, .f32⟩) main_call6_cst_1) (TRef.of (T := ⟨S8x13, .f32⟩) main_call6_v7) (fun x v => Host.reduceAdd x v reducesTo_S8x13x262144_S8x13_d2 h_S_),
    TRef.unary (TRef.of (T := ⟨S8x13, .f32⟩) main_call6_v7) (TRef.of (T := ⟨S8x13x1, .f32⟩) main_call6_v8) (broadcastInDim S8x13x1 ![0, 1] bcast_S8x13_S8x13x1_0_1),
    TRef.unary (TRef.of (T := ⟨S8x13x1, .f32⟩) main_call6_v8) (TRef.of (T := ⟨S8x13x1, .f32⟩) main_call6_v9) Host.log,
    TRef.unary (TRef.of (T := ⟨S8x13x1, .f32⟩) main_call6_v9) (TRef.of (T := ⟨S8x13x262144, .f32⟩) main_call6_v10) (broadcastInDim S8x13x262144 ![0, 1, 2] bcast_S8x13x1_S8x13x262144_0_1_2),
    TRef.binary (TRef.of (T := ⟨S8x13x262144, .f32⟩) main_call6_v5) (TRef.of (T := ⟨S8x13x262144, .f32⟩) main_call6_v10) (TRef.of (T := ⟨S8x13x262144, .f32⟩) main_v68) subf,
    TRef.nullary (TRef.of (T := ⟨S_, .f32⟩) main_call7_cst) (constant S_ .f32 0xFF800000#32),
    TRef.binary (TRef.of (T := ⟨S8x13x262144, .f32⟩) main_v67) (TRef.of (T := ⟨S_, .f32⟩) main_call7_cst) (TRef.of (T := ⟨S8x13, .f32⟩) main_call7_v0) (fun x v => Host.reduce FloatOps.maximumf x v reducesTo_S8x13x262144_S8x13_d2 h_S_),
    TRef.nullary (TRef.of (T := ⟨S_, .f32⟩) main_call7_cst_0) (constant S_ .f32 0xFF800000#32),
    TRef.unary (TRef.of (T := ⟨S_, .f32⟩) main_call7_cst_0) (TRef.of (T := ⟨S8x13, .f32⟩) main_call7_v1) (broadcastInDim S8x13 ![] bcast_S_S8x13),
    TRef.binary (TRef.of (T := ⟨S8x13, .f32⟩) main_call7_v1) (TRef.of (T := ⟨S8x13, .f32⟩) main_call7_v0) (TRef.of (T := ⟨S8x13, .f32⟩) main_call7_v2) maximumf,
    TRef.unary (TRef.of (T := ⟨S8x13, .f32⟩) main_call7_v2) (TRef.of (T := ⟨S8x13x1, .f32⟩) main_call7_v3) (broadcastInDim S8x13x1 ![0, 1] bcast_S8x13_S8x13x1_0_1),
    TRef.unary (TRef.of (T := ⟨S8x13x1, .f32⟩) main_call7_v3) (TRef.of (T := ⟨S8x13x262144, .f32⟩) main_call7_v4) (broadcastInDim S8x13x262144 ![0, 1, 2] bcast_S8x13x1_S8x13x262144_0_1_2),
    TRef.binary (TRef.of (T := ⟨S8x13x262144, .f32⟩) main_v67) (TRef.of (T := ⟨S8x13x262144, .f32⟩) main_call7_v4) (TRef.of (T := ⟨S8x13x262144, .f32⟩) main_call7_v5) subf,
    TRef.unary (TRef.of (T := ⟨S8x13x262144, .f32⟩) main_call7_v5) (TRef.of (T := ⟨S8x13x262144, .f32⟩) main_call7_v6) Host.exp,
    TRef.nullary (TRef.of (T := ⟨S_, .f32⟩) main_call7_cst_1) (constant S_ .f32 0x00000000#32),
    TRef.binary (TRef.of (T := ⟨S8x13x262144, .f32⟩) main_call7_v6) (TRef.of (T := ⟨S_, .f32⟩) main_call7_cst_1) (TRef.of (T := ⟨S8x13, .f32⟩) main_call7_v7) (fun x v => Host.reduceAdd x v reducesTo_S8x13x262144_S8x13_d2 h_S_),
    TRef.unary (TRef.of (T := ⟨S8x13, .f32⟩) main_call7_v7) (TRef.of (T := ⟨S8x13x1, .f32⟩) main_call7_v8) (broadcastInDim S8x13x1 ![0, 1] bcast_S8x13_S8x13x1_0_1),
    TRef.unary (TRef.of (T := ⟨S8x13x1, .f32⟩) main_call7_v8) (TRef.of (T := ⟨S8x13x1, .f32⟩) main_call7_v9) Host.log,
    TRef.unary (TRef.of (T := ⟨S8x13x1, .f32⟩) main_call7_v9) (TRef.of (T := ⟨S8x13x262144, .f32⟩) main_call7_v10) (broadcastInDim S8x13x262144 ![0, 1, 2] bcast_S8x13x1_S8x13x262144_0_1_2),
    TRef.binary (TRef.of (T := ⟨S8x13x262144, .f32⟩) main_call7_v5) (TRef.of (T := ⟨S8x13x262144, .f32⟩) main_call7_v10) (TRef.of (T := ⟨S8x13x262144, .f32⟩) main_v69) subf,
    unary main_v69 main_v70 (Host.exp : (⟨S8x13x262144, .f32⟩ : BufTy).Contents (Elt F) → (⟨S8x13x262144, .f32⟩ : BufTy).Contents (Elt F)),
    binary main_v69 main_v68 main_v71 (subf : (⟨S8x13x262144, .f32⟩ : BufTy).Contents (Elt F) → (⟨S8x13x262144, .f32⟩ : BufTy).Contents (Elt F) → (⟨S8x13x262144, .f32⟩ : BufTy).Contents (Elt F)),
    binary main_v70 main_v71 main_v72 (mulf : (⟨S8x13x262144, .f32⟩ : BufTy).Contents (Elt F) → (⟨S8x13x262144, .f32⟩ : BufTy).Contents (Elt F) → (⟨S8x13x262144, .f32⟩ : BufTy).Contents (Elt F)) ]

set_option maxRecDepth 8192 in
set_option maxHeartbeats 4000000 in
/-- Stretch 6: if the incoming valuation holds the staged values at the buffers read later, so does the outgoing one. -/
theorem stretch6 (W : Valuation τ sig (Elt F)) (x0 x1 : (⟨S8x14x512x512, .f32⟩ : BufTy).Contents (Elt F)) (x2 : (⟨S8x1x512x512, .i32⟩ : BufTy).Contents (Elt F))
    (h_main_arg2 : W (Proc.devRef .tc main_arg2) = x2)
    (h_main_arg0 : W (Proc.devRef .tc main_arg0) = x0)
    (h_main_arg1 : W (Proc.devRef .tc main_arg1) = x1)
    (h_main_v30 : W (Proc.devRef .tc main_v30) = val_main_v30 (F := F) x2)
    (h_main_v32 : W (Proc.devRef .tc main_v32) = val_main_v32 (F := F) x2)
    (h_main_v34 : W (Proc.devRef .tc main_v34) = val_main_v34 (F := F) x2)
    (h_main_v55 : W (Proc.devRef .tc main_v55) = val_main_v55 (F := F) x0 x1 x2)
    (h_main_v67 : W (Proc.devRef .tc main_v67) = val_main_v67 (F := F) x1 x2)
    (h_main_call6_v5 : W (Proc.devRef .tc main_call6_v5) = val_main_call6_v5 (F := F) x0 x2) :
    after (s6 (F := F)) W (Proc.devRef .tc main_arg2) = x2
      ∧ after (s6 (F := F)) W (Proc.devRef .tc main_arg0) = x0
      ∧ after (s6 (F := F)) W (Proc.devRef .tc main_arg1) = x1
      ∧ after (s6 (F := F)) W (Proc.devRef .tc main_v30) = val_main_v30 (F := F) x2
      ∧ after (s6 (F := F)) W (Proc.devRef .tc main_v32) = val_main_v32 (F := F) x2
      ∧ after (s6 (F := F)) W (Proc.devRef .tc main_v34) = val_main_v34 (F := F) x2
      ∧ after (s6 (F := F)) W (Proc.devRef .tc main_v55) = val_main_v55 (F := F) x0 x1 x2
      ∧ after (s6 (F := F)) W (Proc.devRef .tc main_v72) = val_main_v72 (F := F) x0 x1 x2 := by
  refine ⟨?_, ?_, ?_, ?_, ?_, ?_, ?_, ?_⟩ <;>
  (after_results_simp <;> (try simp only [cast_eq, h_main_arg2, h_main_arg0, h_main_arg1, h_main_v30, h_main_v32, h_main_v34, h_main_v55, h_main_v67, h_main_call6_v5]) <;> (try rfl))

/-- Operations 155 to 179 of the program, in order. -/
abbrev s7 : List (HloOp τ sig (Elt F)) :=
  [ nullary main_cst_14 (constant S_ .f32 0x00000000#32),
    binary main_v72 main_cst_14 main_v73 ((fun x v => Host.reduceAdd x v reducesTo_S8x13x262144_S8x13_d2 h_S_) : (⟨S8x13x262144, .f32⟩ : BufTy).Contents (Elt F) → (⟨S_, .f32⟩ : BufTy).Contents (Elt F) → (⟨S8x13, .f32⟩ : BufTy).Contents (Elt F)),
    nullary main_cst_15 (constant S_ .f32 0x3F800000#32),
    unary main_cst_15 main_v74 (broadcastInDim S8x13 ![] bcast_S_S8x13 : (⟨S_, .f32⟩ : BufTy).Contents (Elt F) → (⟨S8x13, .f32⟩ : BufTy).Contents (Elt F)),
    binary main_v73 main_v74 main_v75 (mulf : (⟨S8x13, .f32⟩ : BufTy).Contents (Elt F) → (⟨S8x13, .f32⟩ : BufTy).Contents (Elt F) → (⟨S8x13, .f32⟩ : BufTy).Contents (Elt F)),
    nullary main_cst_16 (constant S_ .f32 0x00000000#32),
    TRef.unary (TRef.of (T := ⟨S_, .f32⟩) main_cst_16) (TRef.of (T := ⟨S_, .f32⟩) main_call8_v0) id,
    TRef.unary (TRef.of (T := ⟨S_, .f32⟩) main_call8_v0) (TRef.of (T := ⟨S8x13, .f32⟩) main_call8_v1) (broadcastInDim S8x13 ![] bcast_S_S8x13),
    TRef.ternary (TRef.of (T := ⟨S8x13, .i1⟩) main_v30) (TRef.of (T := ⟨S8x13, .f32⟩) main_v75) (TRef.of (T := ⟨S8x13, .f32⟩) main_call8_v1) (TRef.of (T := ⟨S8x13, .f32⟩) main_v76) select,
    nullary main_cst_17 (constant S_ .f32 0x00000000#32),
    binary main_v55 main_cst_17 main_v77 ((fun x v => Host.reduceAdd x v reducesTo_S8x13_S8_d1 h_S_) : (⟨S8x13, .f32⟩ : BufTy).Contents (Elt F) → (⟨S_, .f32⟩ : BufTy).Contents (Elt F) → (⟨S8, .f32⟩ : BufTy).Contents (Elt F)),
    nullary main_cst_18 (constant S_ .f32 0x00000000#32),
    binary main_v76 main_cst_18 main_v78 ((fun x v => Host.reduceAdd x v reducesTo_S8x13_S8_d1 h_S_) : (⟨S8x13, .f32⟩ : BufTy).Contents (Elt F) → (⟨S_, .f32⟩ : BufTy).Contents (Elt F) → (⟨S8, .f32⟩ : BufTy).Contents (Elt F)),
    nullary main_c_19 (constantI S_ 32 1#32),
    unary main_c_19 main_v79 (broadcastInDim S8 ![] bcast_S_S8 : (⟨S_, .i32⟩ : BufTy).Contents (Elt F) → (⟨S8, .i32⟩ : BufTy).Contents (Elt F)),
    binary main_v32 main_v79 main_v80 (maxsi : (⟨S8, .i32⟩ : BufTy).Contents (Elt F) → (⟨S8, .i32⟩ : BufTy).Contents (Elt F) → (⟨S8, .i32⟩ : BufTy).Contents (Elt F)),
    unary main_v80 main_v81 (sitofp .f32 : (⟨S8, .i32⟩ : BufTy).Contents (Elt F) → (⟨S8, .f32⟩ : BufTy).Contents (Elt F)),
    nullary main_c_20 (constantI S_ 32 1#32),
    unary main_c_20 main_v82 (broadcastInDim S8 ![] bcast_S_S8 : (⟨S_, .i32⟩ : BufTy).Contents (Elt F) → (⟨S8, .i32⟩ : BufTy).Contents (Elt F)),
    binary main_v34 main_v82 main_v83 (maxsi : (⟨S8, .i32⟩ : BufTy).Contents (Elt F) → (⟨S8, .i32⟩ : BufTy).Contents (Elt F) → (⟨S8, .i32⟩ : BufTy).Contents (Elt F)),
    unary main_v83 main_v84 (sitofp .f32 : (⟨S8, .i32⟩ : BufTy).Contents (Elt F) → (⟨S8, .f32⟩ : BufTy).Contents (Elt F)),
    nullary main_c_21 (constantI S_ 32 0#32),
    unary main_c_21 main_v85 (broadcastInDim S8 ![] bcast_S_S8 : (⟨S_, .i32⟩ : BufTy).Contents (Elt F) → (⟨S8, .i32⟩ : BufTy).Contents (Elt F)),
    binary main_v32 main_v85 main_v86 (cmpi .sgt : (⟨S8, .i32⟩ : BufTy).Contents (Elt F) → (⟨S8, .i32⟩ : BufTy).Contents (Elt F) → (⟨S8, .i1⟩ : BufTy).Contents (Elt F)),
    binary main_v77 main_v81 main_v87 (Host.divf : (⟨S8, .f32⟩ : BufTy).Contents (Elt F) → (⟨S8, .f32⟩ : BufTy).Contents (Elt F) → (⟨S8, .f32⟩ : BufTy).Contents (Elt F)) ]

set_option maxRecDepth 8192 in
set_option maxHeartbeats 4000000 in
/-- Stretch 7: if the incoming valuation holds the staged values at the buffers read later, so does the outgoing one. -/
theorem stretch7 (W : Valuation τ sig (Elt F)) (x0 x1 : (⟨S8x14x512x512, .f32⟩ : BufTy).Contents (Elt F)) (x2 : (⟨S8x1x512x512, .i32⟩ : BufTy).Contents (Elt F))
    (h_main_arg2 : W (Proc.devRef .tc main_arg2) = x2)
    (h_main_arg0 : W (Proc.devRef .tc main_arg0) = x0)
    (h_main_arg1 : W (Proc.devRef .tc main_arg1) = x1)
    (h_main_v30 : W (Proc.devRef .tc main_v30) = val_main_v30 (F := F) x2)
    (h_main_v32 : W (Proc.devRef .tc main_v32) = val_main_v32 (F := F) x2)
    (h_main_v34 : W (Proc.devRef .tc main_v34) = val_main_v34 (F := F) x2)
    (h_main_v55 : W (Proc.devRef .tc main_v55) = val_main_v55 (F := F) x0 x1 x2)
    (h_main_v72 : W (Proc.devRef .tc main_v72) = val_main_v72 (F := F) x0 x1 x2) :
    after (s7 (F := F)) W (Proc.devRef .tc main_arg2) = x2
      ∧ after (s7 (F := F)) W (Proc.devRef .tc main_arg0) = x0
      ∧ after (s7 (F := F)) W (Proc.devRef .tc main_arg1) = x1
      ∧ after (s7 (F := F)) W (Proc.devRef .tc main_v34) = val_main_v34 (F := F) x2
      ∧ after (s7 (F := F)) W (Proc.devRef .tc main_v78) = val_main_v78 (F := F) x0 x1 x2
      ∧ after (s7 (F := F)) W (Proc.devRef .tc main_v84) = val_main_v84 (F := F) x2
      ∧ after (s7 (F := F)) W (Proc.devRef .tc main_v86) = val_main_v86 (F := F) x2
      ∧ after (s7 (F := F)) W (Proc.devRef .tc main_v87) = val_main_v87 (F := F) x0 x1 x2 := by
  refine ⟨?_, ?_, ?_, ?_, ?_, ?_, ?_, ?_⟩ <;>
  (after_results_simp <;> (try simp only [cast_eq, h_main_arg2, h_main_arg0, h_main_arg1, h_main_v30, h_main_v32, h_main_v34, h_main_v55, h_main_v72]) <;> (try rfl))

/-- Operations 180 to 203 of the program, in order. -/
abbrev s8 : List (HloOp τ sig (Elt F)) :=
  [ nullary main_cst_22 (constant S_ .f32 0x00000000#32),
    TRef.unary (TRef.of (T := ⟨S_, .f32⟩) main_cst_22) (TRef.of (T := ⟨S_, .f32⟩) main_call9_v0) id,
    TRef.unary (TRef.of (T := ⟨S_, .f32⟩) main_call9_v0) (TRef.of (T := ⟨S8, .f32⟩) main_call9_v1) (broadcastInDim S8 ![] bcast_S_S8),
    TRef.ternary (TRef.of (T := ⟨S8, .i1⟩) main_v86) (TRef.of (T := ⟨S8, .f32⟩) main_v87) (TRef.of (T := ⟨S8, .f32⟩) main_call9_v1) (TRef.of (T := ⟨S8, .f32⟩) main_v88) select,
    nullary main_c_23 (constantI S_ 32 0#32),
    unary main_c_23 main_v89 (broadcastInDim S8 ![] bcast_S_S8 : (⟨S_, .i32⟩ : BufTy).Contents (Elt F) → (⟨S8, .i32⟩ : BufTy).Contents (Elt F)),
    binary main_v34 main_v89 main_v90 (cmpi .sgt : (⟨S8, .i32⟩ : BufTy).Contents (Elt F) → (⟨S8, .i32⟩ : BufTy).Contents (Elt F) → (⟨S8, .i1⟩ : BufTy).Contents (Elt F)),
    binary main_v78 main_v84 main_v91 (Host.divf : (⟨S8, .f32⟩ : BufTy).Contents (Elt F) → (⟨S8, .f32⟩ : BufTy).Contents (Elt F) → (⟨S8, .f32⟩ : BufTy).Contents (Elt F)),
    nullary main_cst_24 (constant S_ .f32 0x00000000#32),
    TRef.unary (TRef.of (T := ⟨S_, .f32⟩) main_cst_24) (TRef.of (T := ⟨S_, .f32⟩) main_call10_v0) id,
    TRef.unary (TRef.of (T := ⟨S_, .f32⟩) main_call10_v0) (TRef.of (T := ⟨S8, .f32⟩) main_call10_v1) (broadcastInDim S8 ![] bcast_S_S8),
    TRef.ternary (TRef.of (T := ⟨S8, .i1⟩) main_v90) (TRef.of (T := ⟨S8, .f32⟩) main_v91) (TRef.of (T := ⟨S8, .f32⟩) main_call10_v1) (TRef.of (T := ⟨S8, .f32⟩) main_v92) select,
    nullary main_cst_25 (constant S_ .f32 0x00000000#32),
    binary main_v88 main_cst_25 main_v93 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_26 (constant S_ .f32 0x43FA0000#32),
    binary main_cst_26 main_v93 main_v94 (mulf : (⟨S_, .f32⟩ : BufTy).Contents (Elt F) → (⟨S_, .f32⟩ : BufTy).Contents (Elt F) → (⟨S_, .f32⟩ : BufTy).Contents (Elt F)),
    nullary main_cst_27 (constant S_ .f32 0x41000000#32),
    binary main_v94 main_cst_27 main_v95 (Host.divf : (⟨S_, .f32⟩ : BufTy).Contents (Elt F) → (⟨S_, .f32⟩ : BufTy).Contents (Elt F) → (⟨S_, .f32⟩ : BufTy).Contents (Elt F)),
    nullary main_cst_28 (constant S_ .f32 0x00000000#32),
    binary main_v92 main_cst_28 main_v96 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)),
    nullary main_cst_29 (constant S_ .f32 0x43480000#32),
    binary main_cst_29 main_v96 main_v97 (mulf : (⟨S_, .f32⟩ : BufTy).Contents (Elt F) → (⟨S_, .f32⟩ : BufTy).Contents (Elt F) → (⟨S_, .f32⟩ : BufTy).Contents (Elt F)),
    nullary main_cst_30 (constant S_ .f32 0x41000000#32),
    binary main_v97 main_cst_30 main_v98 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- Stretch 8: if the incoming valuation holds the staged values at the buffers read later, so does the outgoing one. -/
theorem stretch8 (W : Valuation τ sig (Elt F)) (x0 x1 : (⟨S8x14x512x512, .f32⟩ : BufTy).Contents (Elt F)) (x2 : (⟨S8x1x512x512, .i32⟩ : BufTy).Contents (Elt F))
    (h_main_arg2 : W (Proc.devRef .tc main_arg2) = x2)
    (h_main_arg0 : W (Proc.devRef .tc main_arg0) = x0)
    (h_main_arg1 : W (Proc.devRef .tc main_arg1) = x1)
    (h_main_v34 : W (Proc.devRef .tc main_v34) = val_main_v34 (F := F) x2)
    (h_main_v78 : W (Proc.devRef .tc main_v78) = val_main_v78 (F := F) x0 x1 x2)
    (h_main_v84 : W (Proc.devRef .tc main_v84) = val_main_v84 (F := F) x2)
    (h_main_v86 : W (Proc.devRef .tc main_v86) = val_main_v86 (F := F) x2)
    (h_main_v87 : W (Proc.devRef .tc main_v87) = val_main_v87 (F := F) x0 x1 x2) :
    after (s8 (F := F)) W (Proc.devRef .tc main_arg2) = x2
      ∧ after (s8 (F := F)) W (Proc.devRef .tc main_arg0) = x0
      ∧ after (s8 (F := F)) W (Proc.devRef .tc main_arg1) = x1
      ∧ after (s8 (F := F)) W (Proc.devRef .tc main_v95) = val_main_v95 (F := F) x0 x1 x2
      ∧ after (s8 (F := F)) W (Proc.devRef .tc main_v98) = val_main_v98 (F := F) x0 x1 x2 := by
  refine ⟨?_, ?_, ?_, ?_, ?_⟩ <;>
  (after_results_simp <;> (try simp only [cast_eq, h_main_arg2, h_main_arg0, h_main_arg1, h_main_v34, h_main_v78, h_main_v84, h_main_v86, h_main_v87]) <;> (try rfl))

/-- The program's operation list is the concatenation of the eight stretches. -/
theorem ops_split : (Cert.ReferenceIdeal.Value.ops (F := F)) = s1 ++ (s2 ++ (s3 ++ (s4 ++ (s5 ++ (s6 ++ (s7 ++ (s8))))))) := rfl

/-- Running the program is running the eight stretches one after the other. -/
theorem after_ops (V : Valuation τ sig (Elt F)) :
    after (Cert.ReferenceIdeal.Value.ops (F := F)) V = after s8 (after s7 (after s6 (after s5 (after s4 (after s3 (after s2 (after s1 (V)))))))) := by
  rw [ops_split]
  simp only [after_append]

/-- After all the operations, from a valuation holding `x0 x1 x2` at the three arguments: the two results hold their
    staged values and the arguments are unchanged. -/
theorem after_results (V : Valuation τ sig (Elt F)) (x0 x1 : (⟨S8x14x512x512, .f32⟩ : BufTy).Contents (Elt F)) (x2 : (⟨S8x1x512x512, .i32⟩ : BufTy).Contents (Elt F))
    (h0 : V (Proc.devRef .tc main_arg0) = x0) (h1 : V (Proc.devRef .tc main_arg1) = x1) (h2 : V (Proc.devRef .tc main_arg2) = x2) :
    after (Cert.ReferenceIdeal.Value.ops (F := F)) V (Proc.devRef .tc main_v95) = val_main_v95 (F := F) x0 x1 x2
      ∧ after (Cert.ReferenceIdeal.Value.ops (F := F)) V (Proc.devRef .tc main_v98) = val_main_v98 (F := F) x0 x1 x2
      ∧ after (Cert.ReferenceIdeal.Value.ops (F := F)) V (Proc.devRef .tc main_arg0) = x0
      ∧ after (Cert.ReferenceIdeal.Value.ops (F := F)) V (Proc.devRef .tc main_arg1) = x1
      ∧ after (Cert.ReferenceIdeal.Value.ops (F := F)) V (Proc.devRef .tc main_arg2) = x2 := by
  rw [after_ops]
  obtain ⟨a1_main_arg2, a1_main_arg0, a1_main_arg1, a1_main_v8, a1_main_v22⟩ := stretch1 _ x0 x1 x2 h2 h0 h1
  obtain ⟨a2_main_arg2, a2_main_arg0, a2_main_arg1, a2_main_v24, a2_main_v30, a2_main_v32, a2_main_v34, a2_main_v36⟩ := stretch2 _ x0 x1 x2 a1_main_arg2 a1_main_arg0 a1_main_arg1 a1_main_v8 a1_main_v22
  obtain ⟨a3_main_arg2, a3_main_arg0, a3_main_arg1, a3_main_v24, a3_main_v30, a3_main_v32, a3_main_v34, a3_main_v46, a3_main_call3_v5⟩ := stretch3 _ x0 x1 x2 a2_main_arg2 a2_main_arg0 a2_main_arg1 a2_main_v24 a2_main_v30 a2_main_v32 a2_main_v34 a2_main_v36
  obtain ⟨a4_main_arg2, a4_main_arg0, a4_main_arg1, a4_main_v24, a4_main_v30, a4_main_v32, a4_main_v34, a4_main_v51⟩ := stretch4 _ x0 x1 x2 a3_main_arg2 a3_main_arg0 a3_main_arg1 a3_main_v24 a3_main_v30 a3_main_v32 a3_main_v34 a3_main_v46 a3_main_call3_v5
  obtain ⟨a5_main_arg2, a5_main_arg0, a5_main_arg1, a5_main_v30, a5_main_v32, a5_main_v34, a5_main_v55, a5_main_v67, a5_main_call6_v5⟩ := stretch5 _ x0 x1 x2 a4_main_arg2 a4_main_arg0 a4_main_arg1 a4_main_v24 a4_main_v30 a4_main_v32 a4_main_v34 a4_main_v51
  obtain ⟨a6_main_arg2, a6_main_arg0, a6_main_arg1, a6_main_v30, a6_main_v32, a6_main_v34, a6_main_v55, a6_main_v72⟩ := stretch6 _ x0 x1 x2 a5_main_arg2 a5_main_arg0 a5_main_arg1 a5_main_v30 a5_main_v32 a5_main_v34 a5_main_v55 a5_main_v67 a5_main_call6_v5
  obtain ⟨a7_main_arg2, a7_main_arg0, a7_main_arg1, a7_main_v34, a7_main_v78, a7_main_v84, a7_main_v86, a7_main_v87⟩ := stretch7 _ x0 x1 x2 a6_main_arg2 a6_main_arg0 a6_main_arg1 a6_main_v30 a6_main_v32 a6_main_v34 a6_main_v55 a6_main_v72
  obtain ⟨a8_main_arg2, a8_main_arg0, a8_main_arg1, a8_main_v95, a8_main_v98⟩ := stretch8 _ x0 x1 x2 a7_main_arg2 a7_main_arg0 a7_main_arg1 a7_main_v34 a7_main_v78 a7_main_v84 a7_main_v86 a7_main_v87
  exact ⟨a8_main_v95, a8_main_v98, a8_main_arg0, a8_main_arg1, a8_main_arg2⟩

/-- On every device, for any float values, from any memory with zero counters: every weakly fair execution of the
    program terminates with each result at its staged value of the arguments' launch contents, the arguments unchanged. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95) = val_main_v95 (F := F) (m ((c.tc : Thread nD τ).loc main_arg0)) (m ((c.tc : Thread nD τ).loc main_arg1)) (m ((c.tc : Thread nD τ).loc main_arg2))
      ∧ r.2.mem ((c.tc : Thread nD τ).loc main_v98) = val_main_v98 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
      obtain ⟨r95, r98, r0, r1, r2⟩ := after_results (F := F) (launchContents m c)
        (m ((c.tc : Thread nD τ).loc main_arg0)) (m ((c.tc : Thread nD τ).loc main_arg1)) (m ((c.tc : Thread nD τ).loc main_arg2)) rfl rfl rfl
      exact ⟨(h c main_v95).trans r95, (h c main_v98).trans r98, (h c main_arg0).trans r0, (h c main_arg1).trans r1, (h c main_arg2).trans r2⟩)
    (run_seq scopedRefs_eq scopedSems_eq defs main (fun _ => Cert.ReferenceIdeal.Value.ops) Cert.ReferenceIdeal.Value.main_eq (fun _ => Cert.ReferenceIdeal.Value.ops_sub) m ρ)

end Cert.ReferenceIdeal.Staged

end
-- ==== Proof.lean ====
/-
  The certificate of a segmentation distillation loss: per batch and per class (class 0 skipped) the class mask of a
  512 × 512 label plane is split into its EDGE positions (4-neighbour dilation minus erosion) and its BODY positions, and
  the Kullback–Leibler divergence of two masked softmaxes over the whole plane (student and teacher logits multiplied by
  the 0/1 mask) is summed over the classes that have an edge position, divided by the number of edge (body) positions
  of those classes clamped below by 1, summed over the 8 batches, scaled by 500 (200) and divided by 8.

  The kernel visits the (batch, class) planes on an 8 × 13 grid and keeps four running totals per batch; it computes each
  divergence with exp(s − a), exp(t − b) shared between the two masks, for shifts a, b that bound the masked logits, the
  positions off the mask entering the partition sums in closed form, (262144 − count)·exp(−a). The reference multiplies
  the logits by the mask and calls a log-softmax over all 262144 positions. Over the real numbers — which the
  precondition (every logit finite) makes all the entries — the two spellings are one number (LibMaskedKL.lean,
  `klKer_eq_klRef`: a log-softmax does not depend on its shift, Σ softmax = 1, and the masked logits' difference vanishes
  off the mask), and the float 0/1 masks and float counts of the kernel are the Boolean masks and 32-bit counts of the
  reference (no count reaches 2³¹).

  Spec.lean states the loss once over the reals, with the divergence as a parameter. The kernel's two results are
  read off its generated frame run: KerPieces (what one run of the body leaves, as pure terms), KerSteps and KerAcc (the
  running totals by induction over the grid), KerPoint (the body's arithmetic at one point), KerFinal and KerTail (the
  result arrays and the lines after the region), KerRun. The reference's two results are read off its run one
  operation at a time (RefMasks, RefCounts, RefSoftmax, RefTail, RefLoss). Both are the coercion of the specification's
  number; the three frames are the generated ones.
-/
import proofs.«177475_j24979529793864_2_alg».proof.Defs
import proofs.«177475_j24979529793864_2_alg».proof.Proof.Gen.Kernel
import proofs.«177475_j24979529793864_2_alg».proof.Proof.Gen.Kernel.Frame
import proofs.«177475_j24979529793864_2_alg».proof.Proof.Gen.KernelIdeal
import proofs.«177475_j24979529793864_2_alg».proof.Proof.Gen.KernelIdeal.Frame
import proofs.«177475_j24979529793864_2_alg».proof.Proof.Gen.ReferenceIdeal
import proofs.«177475_j24979529793864_2_alg».proof.Proof.Gen.Pre_finite_inputs
import proofs.«177475_j24979529793864_2_alg».proof.Proof.KerRun
import proofs.«177475_j24979529793864_2_alg».proof.Proof.KerPoint
import proofs.«177475_j24979529793864_2_alg».proof.Proof.PreReal
import proofs.«177475_j24979529793864_2_alg».proof.Proof.RefLoss
import proofs.«177475_j24979529793864_2_alg».proof.Proof.RefStaged
import Idealize.ShloMosaic.Adequacy
import Idealize.ShloMosaic.Init

noncomputable section

namespace Cert.Proof

open Idealize.ShloMosaic Idealize.SL.Sem Cert.Spec

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the two results dropped. -/
theorem frame_ri : Cert.frame_ReferenceIdeal := fun m ρ _ =>
  (θ_run Cert.ReferenceIdeal.defs _ _).mono (fun _ h c => (h c).2.2) (Cert.ReferenceIdeal.Staged.run_val m ρ)

/-- Under the precondition both programs end with the specification's two losses: the kernel in the kernel's spelling of
    the divergence, the reference in the reference's, one number by `lossOf_kl_eq_klR`. -/
theorem algebraic : Cert.algebraic_KernelIdeal_ReferenceIdeal := by
  intro m ρ m' ρ' hpre hagree
  have hreal : ∀ c : Dev Cert.KernelIdeal.nD, ∃ A0 A1 : SLog.Idx → ℝ,
      (∀ i, m ((c.tc : Thread Cert.KernelIdeal.nD Cert.KernelIdeal.τ).loc Cert.KernelIdeal.main_arg0) i = ((A0 i : ℝ) : EReal))
      ∧ (∀ i, m ((c.tc : Thread Cert.KernelIdeal.nD Cert.KernelIdeal.τ).loc Cert.KernelIdeal.main_arg1) i = ((A1 i : ℝ) : EReal)) :=
    fun c => Cert.PreReal.real_arrays _ _ _ (hpre c)
  choose A0 A1 hA using hreal
  refine ⟨_, _, Cert.KernelIdeal.Run.run m ρ Cert.KerPoint.pointLaws A0 A1 (fun c => (hA c).1) (fun c => (hA c).2), ?_⟩
  refine (θ_run Cert.ReferenceIdeal.defs _ _).mono (fun _ h c => ⟨?_, ?_, (h c).2.2.1, (h c).2.2.2.1, (h c).2.2.2.2⟩)
    (Cert.ReferenceIdeal.Staged.run_val m' ρ')
  · rw [(h c).1, (hagree c).1, (hagree c).2.1, (hagree c).2.2,
      Cert.RefValue.ref_edges _ _ _ (A0 c) (A1 c) (hA c).1 (hA c).2, ← lossOf_kl_eq_klR]
    rfl
  · rw [(h c).2.1, (hagree c).1, (hagree c).2.1, (hagree c).2.2,
      Cert.RefValue.ref_bodies _ _ _ (A0 c) (A1 c) (hA c).1 (hA c).2, ← lossOf_kl_eq_klR]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
